-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096 : Shape := ⟨1, ![4096]⟩
abbrev S4096x2 : Shape := ⟨2, ![4096, 2]⟩
abbrev S2 : Shape := ⟨1, ![2]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x2 : S_.BroadcastsInDim S4096x2 (![] : Fin 0 → Fin S4096x2.rank)
  reducesTo_S4096x2_S_d0_1 : S4096x2.ReducesTo [0, 1] S_
  bcast_S_S2 : S_.BroadcastsInDim S2 (![] : Fin 0 → Fin S2.rank)
  reducesTo_S2_S_d0 : S2.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg11 : FVec F S4096 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S4096 .f32) (main_arg8 : FVec F S4096x2 .f32) (main_arg9 : FVec F S2 .f32) (main_arg10 : FVec F S4096x4096 .f32) (main_arg11 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x2 .f32 := Host.absf main_arg8
  let main_cst_14 : FVec F S_ .f32 := constant S_ .f32 0x7F800000#32
  let main_v40 : FVec F S4096x2 .f32 := broadcastInDim S4096x2 ![] bcast_S_S4096x2 main_cst_14
  let main_v41 : IVec S4096x2 1 := cmpf .olt main_v39 main_v40
  let main_c_15 : IVec S_ 1 := constantI S_ 1 1#1
  let main_v42 : IVec S_ 1 := (fun x v => Host.reduce IntOp.andi x v reducesTo_S4096x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_v48 main_v49 main_v50

def fn_part1 {F : FTy → Type} [FloatOps F] (main_arg4 : FVec F S4096 .f32) (main_arg5 : FVec F S4096 .f32) (main_arg6 : FVec F S8192x4096 .f32) (main_arg7 : FVec F S4096 .f32) (main_arg8 : FVec F S4096x2 .f32) (main_arg9 : FVec F S2 .f32) (main_arg10 : FVec F S4096x4096 .f32) (main_arg11 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S8192x4096 .f32 := Host.absf main_arg6
  let main_cst_10 : FVec F S_ .f32 := constant S_ .f32 0x7F800000#32
  let main_v30 : FVec F S8192x4096 .f32 := broadcastInDim S8192x4096 ![] bcast_S_S8192x4096 main_cst_10
  let main_v31 : IVec S8192x4096 1 := cmpf .olt main_v29 main_v30
  let main_c_11 : IVec S_ 1 := constantI S_ 1 1#1
  let main_v32 : IVec S_ 1 := (fun x v => Host.reduce IntOp.andi x v reducesTo_S8192x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x4096 .f32) (main_arg1 : FVec F S8192x4096 .f32) (main_arg2 : FVec F S4096 .f32) (main_arg3 : FVec F S4096 .f32) (main_arg4 : FVec F S4096 .f32) (main_arg5 : FVec F S4096 .f32) (main_arg6 : FVec F S8192x4096 .f32) (main_arg7 : FVec F S4096 .f32) (main_arg8 : FVec F S4096x2 .f32) (main_arg9 : FVec F S2 .f32) (main_arg10 : FVec F S4096x4096 .f32) (main_arg11 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_v13 main_v16
-- ==== Kernel.lean ====
abbrev S8192x4096 : Shape := ⟨2, ![8192, 4096]⟩
abbrev S4096 : Shape := ⟨1, ![4096]⟩
abbrev S4096x2 : Shape := ⟨2, ![4096, 2]⟩
abbrev S2 : Shape := ⟨1, ![2]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S256x256 : Shape := ⟨2, ![256, 256]⟩
abbrev S256x2 : Shape := ⟨2, ![256, 2]⟩
abbrev S1x2 : Shape := ⟨2, ![1, 2]⟩
abbrev S256x512 : Shape := ⟨2, ![256, 512]⟩
abbrev S512x4096 : Shape := ⟨2, ![512, 4096]⟩

abbrev nBuf : Space → Nat
  | .hbm => 21
  | .vmem => 34
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096, .f32⟩
  | .hbm, ⟨8, _⟩ => ⟨S4096x2, .f32⟩
  | .hbm, ⟨9, _⟩ => ⟨S2, .f32⟩
  | .hbm, ⟨10, _⟩ => ⟨S4096x4096, .f32⟩
  | .hbm, ⟨11, _⟩ => ⟨S4096, .f32⟩
  | .hbm, ⟨12, _⟩ => ⟨S8192x4096, .bf16⟩
  | .hbm, ⟨13, _⟩ => ⟨S8192x4096, .bf16⟩
  | .hbm, ⟨14, _⟩ => ⟨S4096x4096, .f32⟩
  | .hbm, ⟨15, _⟩ => ⟨S4096x4096, .bf16⟩
  | .hbm, ⟨16, _⟩ => ⟨S4096x4096, .f32⟩
  | .hbm, ⟨17, _⟩ => ⟨S4096x4096, .bf16⟩
  | .hbm, ⟨18, _⟩ => ⟨S8192x4096, .bf16⟩
  | .hbm, ⟨19, _⟩ => ⟨S4096x4096, .bf16⟩
  | .hbm, ⟨20, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096, .f32⟩
  | .local _ .vmem, ⟨5, _⟩ => ⟨S4096, .f32⟩
  | .local _ .vmem, ⟨6, _⟩ => ⟨S4096, .f32⟩
  | .local _ .vmem, ⟨7, _⟩ => ⟨S4096, .f32⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S4096x2, .f32⟩
  | .local _ .vmem, ⟨21, _⟩ => ⟨S4096, .f32⟩
  | .local _ .vmem, ⟨22, _⟩ => ⟨S2, .f32⟩
  | .local _ .vmem, ⟨23, _⟩ => ⟨S256x4096, .bf16⟩
  | .local _ .vmem, ⟨24, _⟩ => ⟨S256x4096, .bf16⟩
  | .local _ .vmem, ⟨25, _⟩ => ⟨S256x4096, .f32⟩
  | .local _ .vmem, ⟨26, _⟩ => ⟨S256x512, .bf16⟩
  | .local _ .vmem, ⟨27, _⟩ => ⟨S256x512, .bf16⟩
  | .local _ .vmem, ⟨28, _⟩ => ⟨S512x4096, .bf16⟩
  | .local _ .vmem, ⟨29, _⟩ => ⟨S512x4096, .bf16⟩
  | .local _ .vmem, ⟨30, _⟩ => ⟨S4096, .f32⟩
  | .local _ .vmem, ⟨31, _⟩ => ⟨S256x4096, .f32⟩
  | .local _ .vmem, ⟨32, _⟩ => ⟨S256x4096, .f32⟩
  | .local _ .vmem, ⟨33, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![32, 16], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k1_cond2 (i : grid1.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_11 : BitVec 32 := 0#32
  let v25 : BitVec 1 := Scalar.cmpi .ne v24 c0_i32_11
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S4096x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![32, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  slices_S8192x4096_S4096x4096_0_0 : S8192x4096.Slices ![0, 0] S4096x4096
  slices_S8192x4096_S4096x4096_4096_0 : S8192x4096.Slices ![4096, 0] S4096x4096
  shapeCasts_S256x4096_S256x4096 : S256x4096.ShapeCasts S256x4096
  h_S256x256 : 0 < S256x256.numel
  shapeCasts_S256x256_S256x256 : S256x256.ShapeCasts S256x256
  inb_S4096x2_S4096x2_0_0 : ∀ a, (![0, 0] : Fin 2 → Nat) a + S4096x2.size a ≤ S4096x2.size a
  h_S4096x2 : 0 < S4096x2.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  broadcasts_S256x1_S256x2 : S256x1.Broadcasts S256x2
  slices_S256x2_o0_0_S256x1 : S256x2.Slices ![0, 0] S256x1
  slices_S256x2_o0_1_S256x1 : S256x2.Slices ![0, 1] S256x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S256x256_S256x4096_S256x4096_1_0_0_1_n_n_wf : DotDims.WF S256x256 S256x4096 S256x4096 [1] [0] [0] [1] [] []
  dot_S256x4096_S4096x2_S256x2_1_0_0_1_n_n_wf : DotDims.WF S256x4096 S4096x2 S256x2 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S8192x4096.size a
  hwx0_6 : ∀ i : grid0.Coords, EltTy.bits .bf16 = 32 ∨ (Rect.block (s := S8192x4096) S256x4096.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S8192x4096.size a
  hwx0_7 : ∀ i : grid0.Coords, EltTy.bits .bf16 = 32 ∨ (Rect.block (s := S8192x4096) S256x4096.size (cc0_transform_7 i) (hinb0_7 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x256.size a ≤ S256x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .bf16 = 32 ∨ (Rect.block (s := S8192x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .bf16 = 32 ∨ (Rect.block (s := S4096x4096) S256x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x2.size a ≤ S4096x2.size a
  hwx1_4 : ∀ i : grid1.Coords, EltTy.bits .f32 = 32 ∨ (Rect.block (s := S4096x2) S4096x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096.size a ≤ S4096.size a
  hwx1_5 : ∀ i : grid1.Coords, EltTy.bits .f32 = 32 ∨ (Rect.block (s := S4096) S4096.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2.size a ≤ S2.size a
  hwx1_6 : ∀ i : grid1.Coords, EltTy.bits .f32 = 32 ∨ (Rect.block (s := S2) S2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x4096.size a ≤ S8192x4096.size a
  hwx1_7 : ∀ i : grid1.Coords, EltTy.bits .bf16 = 32 ∨ (Rect.block (s := S8192x4096) S256x4096.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S8192x4096.size a
  hwx2_0 : ∀ i : grid2.Coords, EltTy.bits .bf16 = 32 ∨ (Rect.block (s := S8192x4096) S256x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S4096.size a
  hwx2_2 : ∀ i : grid2.Coords, EltTy.bits .f32 = 32 ∨ (Rect.block (s := S4096) S4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S8192x4096.size a
  hwx2_3 : ∀ i : grid2.Coords, EltTy.bits .f32 = 32 ∨ (Rect.block (s := S8192x4096) S256x4096.size (cc2_transform_3 i) (hinb2_3 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x2_S256x2_1_0_0_1_n_n : DotDims S256x4096 S4096x2 S256x2 where
  lhsContracting := [1]
  rhsContracting := [0]
  lhsNonContracting := [0]
  rhsNonContracting := [1]
  lhsBatch := []
  rhsBatch := []
  wf := dot_S256x4096_S4096x2_S256x2_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S4096x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S256x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v5) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096 : Shape := ⟨1, ![4096]⟩
abbrev S4096x2 : Shape := ⟨2, ![4096, 2]⟩
abbrev S2 : Shape := ⟨1, ![2]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x8192 : Shape := ⟨2, ![8192, 8192]⟩
abbrev S8192x2 : Shape := ⟨2, ![8192, 2]⟩
abbrev S1x2 : Shape := ⟨2, ![1, 2]⟩

abbrev nBuf : Space → Nat
  | .hbm => 107
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096, .f32⟩
  | .hbm, ⟨8, _⟩ => ⟨S4096x2, .f32⟩
  | .hbm, ⟨9, _⟩ => ⟨S2, .f32⟩
  | .hbm, ⟨10, _⟩ => ⟨S4096x4096, .f32⟩
  | .hbm, ⟨11, _⟩ => ⟨S4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x4096, .f32⟩
  | .hbm, ⟨63, _⟩ => ⟨S8192x4096, .f32⟩
  | .hbm, ⟨64, _⟩ => ⟨S1x4096, .f32⟩
  | .hbm, ⟨65, _⟩ => ⟨S8192x4096, .f32⟩
  | .hbm, ⟨66, _⟩ => ⟨S8192x4096, .f32⟩
  | .hbm, ⟨67, _⟩ => ⟨S1x4096, .f32⟩
  | .hbm, ⟨68, _⟩ => ⟨S8192x4096, .f32⟩
  | .hbm, ⟨69, _⟩ => ⟨S8192x4096, .f32⟩
  | .hbm, ⟨70, _⟩ => ⟨S8192x8192, .f32⟩
  | .hbm, ⟨71, _⟩ => ⟨S8192x4096, .f32⟩
  | .hbm, ⟨72, _⟩ => ⟨S1x4096, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S8192x4096, .f32⟩
  | .hbm, ⟨77, _⟩ => ⟨S8192x4096, .f32⟩
  | .hbm, ⟨78, _⟩ => ⟨S8192x2, .f32⟩
  | .hbm, ⟨79, _⟩ => ⟨S1x2, .f32⟩
  | .hbm, ⟨80, _⟩ => ⟨S8192x2, .f32⟩
  | .hbm, ⟨81, _⟩ => ⟨S8192x2, .f32⟩
  | .hbm, ⟨82, _⟩ => ⟨S_, .f32⟩
  | .hbm, ⟨83, _⟩ => ⟨S8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192x1, .f32⟩
  | .hbm, ⟨88, _⟩ => ⟨S8192x2, .f32⟩
  | .hbm, ⟨89, _⟩ => ⟨S8192x2, .f32⟩
  | .hbm, ⟨90, _⟩ => ⟨S8192x2, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x2, .f32⟩
  | .hbm, ⟨95, _⟩ => ⟨S8192x2, .f32⟩
  | .hbm, ⟨96, _⟩ => ⟨S8192x1, .f32⟩
  | .hbm, ⟨97, _⟩ => ⟨S8192x4096, .f32⟩
  | .hbm, ⟨98, _⟩ => ⟨S8192x4096, .f32⟩
  | .hbm, ⟨99, _⟩ => ⟨S8192x1, .f32⟩
  | .hbm, ⟨100, _⟩ => ⟨S8192x4096, .f32⟩
  | .hbm, ⟨101, _⟩ => ⟨S8192x4096, .f32⟩
  | .hbm, ⟨102, _⟩ => ⟨S8192x4096, .f32⟩
  | .hbm, ⟨103, _⟩ => ⟨S8192x4096, .f32⟩
  | .hbm, ⟨104, _⟩ => ⟨S1x4096, .f32⟩
  | .hbm, ⟨105, _⟩ => ⟨S8192x4096, .f32⟩
  | .hbm, ⟨106, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  concatenates_S8192x4096_S8192x4096_S8192x8192_d1 : Shape.Concatenates [S8192x4096, S8192x4096] S8192x8192 1
  bcast_S_S8192x4096 : S_.BroadcastsInDim S8192x4096 (![] : Fin 0 → Fin S8192x4096.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S_S8192 : S_.BroadcastsInDim S8192 (![] : Fin 0 → Fin S8192.rank)
  bcast_S8192x1_S8192x2_0_1 : S8192x1.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  dot_S8192x8192_S8192x4096_S8192x4096_1_0_0_1_n_n_wf : DotDims.WF S8192x8192 S8192x4096 S8192x4096 [1] [0] [0] [1] [] []
  dot_S8192x4096_S4096x2_S8192x2_1_0_0_1_n_n_wf : DotDims.WF S8192x4096 S4096x2 S8192x2 [1] [0] [0] [1] [] []
  dot_S8192x4096_S4096x4096_S8192x4096_1_0_0_1_n_n_wf : DotDims.WF S8192x4096 S4096x4096 S8192x4096 [1] [0] [0] [1] [] []

variable [Facts₀]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def dot_S8192x4096_S4096x2_S8192x2_1_0_0_1_n_n : DotDims S8192x4096 S4096x2 S8192x2 where
  lhsContracting := [1]
  rhsContracting := [0]
  lhsNonContracting := [0]
  rhsNonContracting := [1]
  lhsBatch := []
  rhsBatch := []
  wf := dot_S8192x4096_S4096x2_S8192x2_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Bits.LnRegion.lean ====
import proofs.«114173_j69518340653173_2_alg».proof.Proof.Gen.Kernel.Launch
import proofs.«114173_j69518340653173_2_alg».proof.Proof.Gen.Kernel.Skeleton
import proofs.«114173_j69518340653173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two row normalisations (first pipelined call)

The first call walks the 32 row blocks of two (8192, 4096) arrays.  At each block it normalises every
row of the first array's block (mean and variance over the 4096 columns, scale and shift by two
4096-vectors), rounds to bf16 and stores the whole (256, 4096) block of the first result; then does the
same with the second array's block and the other two vectors for the second result.  Nothing is carried
from one block to the next: after the body each input buffer still holds its block and each result
buffer holds a function of the input blocks alone.
-/

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not (an unfetched
    window's block index has not moved), for any proof data over the entry arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not (an unfetched
    window's block index has not moved), for any proof data over the entry arrays whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not (an unfetched
    window's block index has not moved), for any proof data over the entry arrays whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not (an unfetched
    window's block index has not moved), for any proof data over the entry arrays whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not (an unfetched
    window's block index has not moved), for any proof data over the entry arrays whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not (an unfetched
    window's block index has not moved), for any proof data over the entry arrays whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole (256, 4096) block: every row-block load and store of the body is through it. -/
abbrev lnRowsRect : Rect S256x4096 := Rect.unit (s := S256x4096) ![0, 0] S256x4096.size inb_S256x4096_S256x4096_0_0
/-- The whole 4096-vector: the scale and shift loads. -/
abbrev lnColsRect : Rect S4096 := Rect.unit (s := S4096) ![0] S4096.size inb_S4096_S4096_0

/-! ## What the body leaves in each result buffer -/

/-- The first result's buffer after the body: the one whole-block store of the first array's block
    normalised row by row, scaled by `g` and shifted by `b`, rounded to bf16. -/
def out0_6 (x : Vec F S256x4096 .f32) (g : Vec F S4096 .f32) (b : Vec F S4096 .f32) : Vec F S256x4096 .bf16 :=
  View.canon [⟨lnRowsRect, k0_pay2 (View.ld x lnRowsRect) (View.ld g lnColsRect) (View.ld b lnColsRect)⟩]

/-- The second result's buffer after the body: the same of the second array's block, whose row means
    and row variances the body computes first (`k0_pay3`, `k0_pay4`), with the other two vectors. -/
def out0_7 (y : Vec F S256x4096 .f32) (g : Vec F S4096 .f32) (b : Vec F S4096 .f32) : Vec F S256x4096 .bf16 :=
  View.canon [⟨lnRowsRect, k0_pay1 (View.ld y lnRowsRect) (k0_pay3 (View.ld y lnRowsRect)) (k0_pay4 (View.ld y lnRowsRect))
    (View.ld g lnColsRect) (View.ld b lnColsRect)⟩]

/-- One whole-block store covers the block. -/
theorem lnCoverRows (p : Vec F S256x4096 .bf16) (y : S256x4096.Idx) :
    ∃ pc ∈ ([⟨lnRowsRect, p⟩] : List (View.Piece (Elt F) S256x4096 .bf16)), y ∈ pc.1.set :=
  View.cover_of_tiled [⟨lnRowsRect, p⟩] S256x4096.size (by rfl) y

/-! ## The body's triple -/

set_option maxHeartbeats 4000000 in
/-- The body on whole buffers, the inputs' at contents `x0 … x5` and the results' at anything, runs to the
    continuation holding the inputs' as they were, the first result's at `out0_6 x0 x2 x3` and the second's at
    `out0_7 x1 x4 x5`. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S4096 .f32) (harg6 : arg6.IsWhole) (arg7 : Memref sig .tc .vmem S256x4096 .bf16) (harg7 : arg7.IsWhole) (arg8 : Memref sig .tc .vmem S256x4096 .bf16) (harg8 : arg8.IsWhole)
    (x0 : Vec F S256x4096 .f32) (x1 : Vec F S256x4096 .f32) (x2 : Vec F S4096 .f32) (x3 : Vec F S4096 .f32) (x4 : Vec F S4096 .f32) (x5 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__ln_kernel i arg1 harg1 arg2 harg2 arg3 harg3 arg4 harg4 arg5 harg5 arg6 harg6 arg7 harg7 arg8 harg8) K := by
  simp only [cc0__ln_kernel_eq_skeleton]; unfold cc0__ln_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (lnCoverRows _)
  iexists _; isplitr
  swap; · iexact H7
  ipureintro
  try dsimp only
  exact View.read_writes_eq_canon _ _ _ (lnCoverRows _)

/-! ## The pipeline's proof data -/

/-- The proof data of the call on core `c`: the arrays as the call finds them; after the body at point `t`
    each input's buffer at its block, the first result's at `out0_6` and the second's at `out0_7` of the input
    blocks; the invariant only the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant is the same at every point: at the first it is the entry's, -/
theorem Phi_first0 (c : Dev nD) : (dat0 V c).Φ 0 = Pipeline.ΦA spec0 c := rfl
/-- and at the last it gives the exit's back. -/
theorem Phi_last0 (c : Dev nD) : (dat0 V c).Φ (Fin.last cfg0.N) ⊢ Pipeline.ΦA spec0 c := .rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
/-- The first result's buffer after the body at point `t`: the normalised first block. -/
theorem after0_6 (c : Dev nD) (t : Fin cfg0.N) :
    (dat0 V c).after 6 t = out0_6 (iblk0 V c 0 t) (iblk0 V c 2 t) (iblk0 V c 3 t) := by dsimp only [dat0]
/-- The second result's buffer after the body at point `t`: the normalised second block. -/
theorem after0_7 (c : Dev nD) (t : Fin cfg0.N) :
    (dat0 V c).after 7 t = out0_7 (iblk0 V c 1 t) (iblk0 V c 4 t) (iblk0 V c 5 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Pipe

end
-- ==== Proof.Bits.GateRuns.lean ====
/- The gating region (grid 32 × 16: row block i, reduction step k). At every step the kernel adds to a
   (256,4096) f32 accumulator the products of a 256-column slice of the two normalised row blocks with the
   step's blocks of the two halves of the first weight matrix; the accumulator is set to zero at k = 0; at
   k = 15 the epilogue (bias, relu, the 4096 × 2 product, softmax over the two columns, the convex
   combination of the two row blocks) is stored into the output block. This module holds what the three
   control cases (k = 0; 0 < k < 15; k = 15) share: the input blocks, the two branch conditions in closed
   form, where the output block is left untouched, and the region invariant split at the accumulator. -/
import proofs.«114173_j69518340653173_2_alg».proof.Proof.Gen.Kernel.Launch
import proofs.«114173_j69518340653173_2_alg».proof.Proof.Gen.Kernel.Skeleton
import proofs.«114173_j69518340653173_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two branch conditions, in closed form -/

/-- The condition under which the accumulator is zeroed: the reduction step is the first (k = 0). -/
abbrev atFirstK (i : grid1.Coords) : Prop := (Scalar.cmpi .ne (Scalar.extui (Scalar.cmpi .eq (BitVec.ofNat 32 (i 1).val) 0#32)) 0#32) = 1#1
/-- It holds exactly at the points whose position is ≡ 0 (mod 16). -/
theorem atFirstK_iff : ∀ t : Fin cfg1.N, atFirstK (grid1.coords t) ↔ t.val % 16 = 0 :=
  (by decide +kernel : ∀ t : Fin grid1.N, atFirstK (grid1.coords t) ↔ t.val % 16 = 0)

/-- The condition under which the epilogue runs: the reduction step is the last (k = 15). -/
abbrev atLastK (i : grid1.Coords) : Prop := k1_cond2 i = 1#1
/-- It holds exactly at the points whose position is ≡ 15 (mod 16). -/
theorem atLastK_iff : ∀ t : Fin cfg1.N, atLastK (grid1.coords t) ↔ t.val % 16 = 15 :=
  (by decide +kernel : ∀ t : Fin grid1.N, atLastK (grid1.coords t) ↔ t.val % 16 = 15)

/-! ## Where the output block is stored -/

/-- Before the last reduction step nothing is stored into the output block: at k = 0, -/
theorem fusedIdle_first : ∀ t : Fin cfg1.N, atFirstK (grid1.coords t) → ¬atLastK (grid1.coords t) → cfg1.idle 7 (grid1.coords t) = true := by decide +kernel
/-- where it is not written back either; -/
theorem fusedKept_first : ∀ t : Fin cfg1.N, atFirstK (grid1.coords t) → ¬atLastK (grid1.coords t) → (cfg1.win 7).flush t = false := by decide +kernel
/-- at 0 < k < 15, -/
theorem fusedIdle_mid : ∀ t : Fin cfg1.N, ¬atFirstK (grid1.coords t) → ¬atLastK (grid1.coords t) → cfg1.idle 7 (grid1.coords t) = true := by decide +kernel
/-- likewise. -/
theorem fusedKept_mid : ∀ t : Fin cfg1.N, ¬atFirstK (grid1.coords t) → ¬atLastK (grid1.coords t) → (cfg1.win 7).flush t = false := by decide +kernel
/-- At k = 15 the epilogue stores it. -/
theorem fusedLive_last : ∀ t : Fin cfg1.N, ¬atFirstK (grid1.coords t) → atLastK (grid1.coords t) → cfg1.idle 7 (grid1.coords t) = false := by decide +kernel

/-! ## The memrefs the body is called on -/

/-- One staging buffer of the output block, through which its contents are stated. -/
abbrev fusedV : View sig .tc .vmem S256x4096 .bf16 := (Memref.whole cc1_stg7_0 : Memref sig .tc .vmem S256x4096 .bf16).view
/-- The accumulator: a whole buffer of the kernel's own, passed beside the windows, -/
abbrev accM : Memref sig .tc .vmem S256x4096 .f32 := Memref.whole cc1_scratch0
/-- and as a view. -/
abbrev accV : View sig .tc .vmem S256x4096 .f32 := (accM).view

/-- Each window's current staging memref at point `t`, and that it is whole. -/
abbrev buf1_0 (t : Fin cfg1.N) : Memref sig .tc .vmem S256x4096 .bf16 := win1_0.stage (cfg1.slots t 0)
abbrev whole1_0 (t : Fin cfg1.N) : (buf1_0 t).IsWhole := hstage1_0 ((cfg1.slots t 0).cast nbuf1_0)
abbrev buf1_1 (t : Fin cfg1.N) : Memref sig .tc .vmem S256x4096 .bf16 := win1_1.stage (cfg1.slots t 1)
abbrev whole1_1 (t : Fin cfg1.N) : (buf1_1 t).IsWhole := hstage1_1 ((cfg1.slots t 1).cast nbuf1_1)
abbrev buf1_2 (t : Fin cfg1.N) : Memref sig .tc .vmem S256x4096 .bf16 := win1_2.stage (cfg1.slots t 2)
abbrev whole1_2 (t : Fin cfg1.N) : (buf1_2 t).IsWhole := hstage1_2 ((cfg1.slots t 2).cast nbuf1_2)
abbrev buf1_3 (t : Fin cfg1.N) : Memref sig .tc .vmem S256x4096 .bf16 := win1_3.stage (cfg1.slots t 3)
abbrev whole1_3 (t : Fin cfg1.N) : (buf1_3 t).IsWhole := hstage1_3 ((cfg1.slots t 3).cast nbuf1_3)
abbrev buf1_4 (t : Fin cfg1.N) : Memref sig .tc .vmem S4096x2 .f32 := win1_4.stage (cfg1.slots t 4)
abbrev whole1_4 (t : Fin cfg1.N) : (buf1_4 t).IsWhole := hstage1_4 ((cfg1.slots t 4).cast nbuf1_4)
abbrev buf1_5 (t : Fin cfg1.N) : Memref sig .tc .vmem S4096 .f32 := win1_5.stage (cfg1.slots t 5)
abbrev whole1_5 (t : Fin cfg1.N) : (buf1_5 t).IsWhole := hstage1_5 ((cfg1.slots t 5).cast nbuf1_5)
abbrev buf1_6 (t : Fin cfg1.N) : Memref sig .tc .vmem S2 .f32 := win1_6.stage (cfg1.slots t 6)
abbrev whole1_6 (t : Fin cfg1.N) : (buf1_6 t).IsWhole := hstage1_6 ((cfg1.slots t 6).cast nbuf1_6)
abbrev buf1_7 (t : Fin cfg1.N) : Memref sig .tc .vmem S256x4096 .bf16 := win1_7.stage (cfg1.slots t 7)
abbrev whole1_7 (t : Fin cfg1.N) : (buf1_7 t).IsWhole := hstage1_7 ((cfg1.slots t 7).cast nbuf1_7)

/-! ## The region invariant, split at the accumulator -/

/-- The core's scoped buffers that are no staging buffer of this region, other than the accumulator: the other
    regions' staging buffers and accumulator, at some contents each, never opened here. -/
abbrev others (c : Dev nD) : sProp 𝕄 :=
  Pipeline.scopedRestBut (Ix := Unit) (Name := ℕ) (U := UR sig nD τ) (Lvl := ℕ) (Val := Elt F) spec1 c [cc1_scratch0]

/-- The scoped rest of this region is the accumulator at some contents and the others. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ others (F := F) c) :=
  Pipeline.scopedRest_split_of_list spec1 c [cc1_scratch0] (by decide) (by decide)

/-- What the region is entered with: the accumulator as a memref owned at some contents, the others, and the
    generator register at some state. -/
theorem PhiA1_eq (c : Dev nD) :
    (Pipeline.ΦA spec1 c : sProp 𝕄)
      = iprop(iprop((∃ d, owns (c : Thread nD τ) accM fullShare d) ∗ others (F := F) c) ∗ (∃ r, prngReg c r)) := by
  unfold Pipeline.ΦA; rw [scopedRest1_split]; simp only [accM, owns_whole]; try rfl

end Cert.Kernel.Pipe

end
-- ==== Proof.Bits.GateRunA.lean ====
/- The gating kernel's body at the first reduction step (k = 0), run whole. -/
import proofs.«114173_j69518340653173_2_alg».proof.Proof.Bits.GateRuns

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At k = 0 (and not k = 15): on whole memrefs — the seven inputs at their contents, the output block at contents handed
    back untouched, the accumulator at anything — the body runs to the continuation holding the inputs and the output
    as they were and the accumulator with its pieces written: the zero fill, then the zero fill read back plus the two
    slice products. The pieces are the witness the run finds. -/
noncomputable def gateRunFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) :
    Σ' (L7 : List (View.Piece (Elt F) S256x4096 .bf16)), { LS : List (View.Piece (Elt F) S256x4096 .f32) //
      ∀ (xi7 : Vec F S256x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Pipe

end
-- ==== Proof.Bits.GateRunB.lean ====
/- The gating kernel's body at a middle reduction step (0 < k < 15), run whole. -/
import proofs.«114173_j69518340653173_2_alg».proof.Proof.Bits.GateRuns

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At 0 < k < 15: on whole memrefs — the seven inputs at their contents, the output block at contents handed back
    untouched, the accumulator at what the step before left — the body runs to the continuation holding the inputs
    and the output as they were and the accumulator with its piece written: what it held plus the two slice products.
    The pieces are the witness the run finds. -/
noncomputable def gateRunMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) :
    Σ' (L7 : List (View.Piece (Elt F) S256x4096 .bf16)), { LS : List (View.Piece (Elt F) S256x4096 .f32) //
      ∀ (xi7 : Vec F S256x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Pipe

end
-- ==== Proof.Bits.GateRunC.lean ====
/- The gating kernel's body at the last reduction step (k = 15), run whole. -/
import proofs.«114173_j69518340653173_2_alg».proof.Proof.Bits.GateRuns

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At k = 15: on whole memrefs — the seven inputs at their contents, the output block at anything, the accumulator at
    what the step before left — the body runs to the continuation holding the inputs as they were, the accumulator with
    its piece written (what it held plus the two slice products) and the output block with the epilogue's piece written
    (bias, relu, the product with the second weight matrix, softmax over its two columns, the combination of the two row
    blocks by those weights). The pieces are the witness the run finds. -/
noncomputable def gateRunLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) :
    Σ' (L7 : List (View.Piece (Elt F) S256x4096 .bf16)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, ?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Pipe

end
-- ==== Proof.Bits.GateRegion.lean ====
/- The gating region's proof data and body obligation. After the body at position n the accumulator holds the sum over
   the reduction steps so far (of the row-block slices' products with the weight blocks) for the current row block, and the
   output block holds the epilogue of that sum once the last step has run; between row blocks the accumulator is reset.
   This is stated point by point (`outsAt1`, by recursion on the position), carried by the region invariant, and the
   body's triple at a point is its case's whole-body run. -/
import proofs.«114173_j69518340653173_2_alg».proof.Proof.Bits.GateRunA
import proofs.«114173_j69518340653173_2_alg».proof.Proof.Bits.GateRunB
import proofs.«114173_j69518340653173_2_alg».proof.Proof.Bits.GateRunC

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Input window 0's current staging buffer holds its block at every point, fetched there or not (unfetched, the block
    index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 0 is never idle. -/
theorem inputLive1_0 : ∀ t : Fin cfg1.N, cfg1.idle 0 (grid1.coords t) = false := fun _ => rfl

/-- Input window 1's current staging buffer holds its block at every point, fetched there or not (unfetched, the block
    index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 1 is never idle. -/
theorem inputLive1_1 : ∀ t : Fin cfg1.N, cfg1.idle 1 (grid1.coords t) = false := fun _ => rfl

/-- Input window 2's current staging buffer holds its block at every point, fetched there or not (unfetched, the block
    index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 2 is never idle. -/
theorem inputLive1_2 : ∀ t : Fin cfg1.N, cfg1.idle 2 (grid1.coords t) = false := fun _ => rfl

/-- Input window 3's current staging buffer holds its block at every point, fetched there or not (unfetched, the block
    index has not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 3 is never idle. -/
theorem inputLive1_3 : ∀ t : Fin cfg1.N, cfg1.idle 3 (grid1.coords t) = false := fun _ => rfl

/-- Input window 4's current staging buffer holds its block at every point, fetched there or not (unfetched, the block
    index has not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 4 is never idle. -/
theorem inputLive1_4 : ∀ t : Fin cfg1.N, cfg1.idle 4 (grid1.coords t) = false := fun _ => rfl

/-- Input window 5's current staging buffer holds its block at every point, fetched there or not (unfetched, the block
    index has not moved), for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 5 is never idle. -/
theorem inputLive1_5 : ∀ t : Fin cfg1.N, cfg1.idle 5 (grid1.coords t) = false := fun _ => rfl

/-- Input window 6's current staging buffer holds its block at every point, fetched there or not (unfetched, the block
    index has not moved), for any proof data whose array is the entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 6 is never idle. -/
theorem inputLive1_6 : ∀ t : Fin cfg1.N, cfg1.idle 6 (grid1.coords t) = false := fun _ => rfl

/-! ## What each case leaves -/

/-- At the first reduction step nothing is stored into the output block (no pieces): a placeholder nothing consults, the block being
    neither written back nor read at these points. -/
def fusedFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) : Vec F S256x4096 .bf16 :=
  fusedV.read (Elt F) (fusedV.writes (Elt F) fusedV.junk (gateRunFirst c i arg2 harg2 arg3 harg3 arg4 harg4 arg5 harg5 arg6 harg6 arg7 harg7 arg8 harg8 arg9 harg9 arg10 harg10 hc0 hc1 x0 x1 x2 x3 x4 x5 x6).1)

/-- At the first reduction step the stores into the accumulator are whole, so their pieces cover it. -/
theorem accCoverFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) (y : S256x4096.Idx) :
    ∃ pc ∈ (gateRunFirst c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (gateRunFirst c i arg2 harg2 arg3 harg3 arg4 harg4 arg5 harg5 arg6 harg6 arg7 harg7 arg8 harg8 arg9 harg9 arg10 harg10 hc0 hc1 x0 x1 x2 x3 x4 x5 x6).2.1 S256x4096.size (by sl_kernel_rfl) y

/-- What the first reduction step leaves in the accumulator: its pieces read back. -/
def accFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) : Vec F S256x4096 .f32 :=
  accV.read (Elt F) (accV.writes (Elt F) accV.junk (gateRunFirst c i arg2 harg2 arg3 harg3 arg4 harg4 arg5 harg5 arg6 harg6 arg7 harg7 arg8 harg8 arg9 harg9 arg10 harg10 hc0 hc1 x0 x1 x2 x3 x4 x5 x6).2.1)

/-- At a middle reduction step nothing is stored into the output block (no pieces): a placeholder nothing consults, the block being
    neither written back nor read at these points. -/
def fusedMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) : Vec F S256x4096 .bf16 :=
  fusedV.read (Elt F) (fusedV.writes (Elt F) fusedV.junk (gateRunMid c i arg2 harg2 arg3 harg3 arg4 harg4 arg5 harg5 arg6 harg6 arg7 harg7 arg8 harg8 arg9 harg9 arg10 harg10 hc0 hc1 x0 x1 x2 x3 x4 x5 x6 xs).1)

/-- At a middle reduction step the stores into the accumulator are whole, so their pieces cover it. -/
theorem accCoverMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) (y : S256x4096.Idx) :
    ∃ pc ∈ (gateRunMid c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (gateRunMid c i arg2 harg2 arg3 harg3 arg4 harg4 arg5 harg5 arg6 harg6 arg7 harg7 arg8 harg8 arg9 harg9 arg10 harg10 hc0 hc1 x0 x1 x2 x3 x4 x5 x6 xs).2.1 S256x4096.size (by sl_kernel_rfl) y

/-- What a middle reduction step leaves in the accumulator: its pieces read back. -/
def accMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) : Vec F S256x4096 .f32 :=
  accV.read (Elt F) (accV.writes (Elt F) accV.junk (gateRunMid c i arg2 harg2 arg3 harg3 arg4 harg4 arg5 harg5 arg6 harg6 arg7 harg7 arg8 harg8 arg9 harg9 arg10 harg10 hc0 hc1 x0 x1 x2 x3 x4 x5 x6 xs).2.1)

/-- At the last reduction step the epilogue's store tiles the output block, so its pieces cover it. -/
theorem fusedCoverLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) (y : S256x4096.Idx) :
    ∃ pc ∈ (gateRunLast c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (gateRunLast c i arg2 harg2 arg3 harg3 arg4 harg4 arg5 harg5 arg6 harg6 arg7 harg7 arg8 harg8 arg9 harg9 arg10 harg10 hc0 hc1 x0 x1 x2 x3 x4 x5 x6 xs).1 S256x4096.size (by sl_kernel_rfl) y

/-- What the last reduction step leaves in the output block: the epilogue's piece read back. -/
def fusedLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) : Vec F S256x4096 .bf16 :=
  fusedV.read (Elt F) (fusedV.writes (Elt F) fusedV.junk (gateRunLast c i arg2 harg2 arg3 harg3 arg4 harg4 arg5 harg5 arg6 harg6 arg7 harg7 arg8 harg8 arg9 harg9 arg10 harg10 hc0 hc1 x0 x1 x2 x3 x4 x5 x6 xs).1)

/-- At the last reduction step the stores into the accumulator are whole, so their pieces cover it. -/
theorem accCoverLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) (y : S256x4096.Idx) :
    ∃ pc ∈ (gateRunLast c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (gateRunLast c i arg2 harg2 arg3 harg3 arg4 harg4 arg5 harg5 arg6 harg6 arg7 harg7 arg8 harg8 arg9 harg9 arg10 harg10 hc0 hc1 x0 x1 x2 x3 x4 x5 x6 xs).2.1 S256x4096.size (by sl_kernel_rfl) y

/-- What the last reduction step leaves in the accumulator: its pieces read back. -/
def accLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) : Vec F S256x4096 .f32 :=
  accV.read (Elt F) (accV.writes (Elt F) accV.junk (gateRunLast c i arg2 harg2 arg3 harg3 arg4 harg4 arg5 harg5 arg6 harg6 arg7 harg7 arg8 harg8 arg9 harg9 arg10 harg10 hc0 hc1 x0 x1 x2 x3 x4 x5 x6 xs).2.1)

/-! ## What the output block and the accumulator hold after each point -/

/-- THE ACCUMULATION. After the body at position `n`: (the output block's staging buffer, the accumulator). At k = 0 the
    accumulator restarts from zero; at k > 0 it is the step's sum over what position `n - 1` left; at k = 15 the output block
    is the epilogue of that. Both conditions at once is no case. -/
def outsAt1 (c : Dev nD) : (n : ℕ) → n < cfg1.N → Vec F S256x4096 .bf16 × Vec F S256x4096 .f32
  | 0, hn => (fusedFirst c (grid1.coords ⟨0, hn⟩) (buf1_0 ⟨0, hn⟩) (whole1_0 ⟨0, hn⟩) (buf1_1 ⟨0, hn⟩) (whole1_1 ⟨0, hn⟩) (buf1_2 ⟨0, hn⟩) (whole1_2 ⟨0, hn⟩) (buf1_3 ⟨0, hn⟩) (whole1_3 ⟨0, hn⟩) (buf1_4 ⟨0, hn⟩) (whole1_4 ⟨0, hn⟩) (buf1_5 ⟨0, hn⟩) (whole1_5 ⟨0, hn⟩) (buf1_6 ⟨0, hn⟩) (whole1_6 ⟨0, hn⟩) (buf1_7 ⟨0, hn⟩) (whole1_7 ⟨0, hn⟩) accM (Memref.isWhole_whole _) ((atFirstK_iff ⟨0, hn⟩).mpr (Nat.zero_mod _)) (fun h => (fun h => by (try dsimp only at h); omega) ((atLastK_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), accFirst c (grid1.coords ⟨0, hn⟩) (buf1_0 ⟨0, hn⟩) (whole1_0 ⟨0, hn⟩) (buf1_1 ⟨0, hn⟩) (whole1_1 ⟨0, hn⟩) (buf1_2 ⟨0, hn⟩) (whole1_2 ⟨0, hn⟩) (buf1_3 ⟨0, hn⟩) (whole1_3 ⟨0, hn⟩) (buf1_4 ⟨0, hn⟩) (whole1_4 ⟨0, hn⟩) (buf1_5 ⟨0, hn⟩) (whole1_5 ⟨0, hn⟩) (buf1_6 ⟨0, hn⟩) (whole1_6 ⟨0, hn⟩) (buf1_7 ⟨0, hn⟩) (whole1_7 ⟨0, hn⟩) accM (Memref.isWhole_whole _) ((atFirstK_iff ⟨0, hn⟩).mpr (Nat.zero_mod _)) (fun h => (fun h => by (try dsimp only at h); omega) ((atLastK_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by omega)
      else
        (fusedFirst c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) ((atFirstK_iff ⟨n + 1, hn⟩).mpr h0) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), accFirst c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) ((atFirstK_iff ⟨n + 1, hn⟩).mpr h0) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (fusedLast c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) ((atLastK_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, accLast c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) ((atLastK_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (fusedMid c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, accMid c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point with k = 0. -/
theorem outsAt1_first (c : Dev nD) (t : Fin cfg1.N) (h0 : t.val % 16 = 0) (h1 : ¬t.val % 16 = 15) :
    outsAt1 V c t.val t.isLt = (fusedFirst c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t), accFirst c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a point with 0 < k < 15: over what the point before left. -/
theorem outsAt1_mid (c : Dev nD) (t : Fin cfg1.N) (h0 : ¬t.val % 16 = 0) (h1 : ¬t.val % 16 = 15) :
    outsAt1 V c t.val t.isLt = (fusedMid c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, accMid c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 15: over what the point before left. -/
theorem outsAt1_last (c : Dev nD) (t : Fin cfg1.N) (h0 : ¬t.val % 16 = 0) (h1 : t.val % 16 = 15) :
    outsAt1 V c t.val t.isLt = (fusedLast c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, accLast c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry what the launch hands it (every scoped buffer at anything); afterwards the
    accumulator at what the point before left in it, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) accM fullShare ((outsAt1 V c n hn).2) ∗ others (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(owns (c : Thread nD τ) accM fullShare ((outsAt1 V c n hn).2) ∗ others (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) accM fullShare ((outsAt1 V c (n - 1) (by omega)).2) ∗ others (F := F) c) ∗ (∃ r, prngReg c r)) := by
  cases n with
  | zero => exact absurd rfl hz
  | succ n => rfl

/-! ## The proof data -/

/-- The region's proof data on core `c`: the arrays as the region finds them; after the body at point `t` each input's
    buffer at its block and the output block's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- The output block after point `t`: the epilogue's value at k = 15 (`outsAt1_last`, `fusedLast`), a placeholder elsewhere. -/
theorem after1_7 (c : Dev nD) (t : Fin cfg1.N) : (dat1 V c).after 7 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d))
    ∗ (∃ d, owns (c : Thread nD τ) (buf1_3 t) fullShare ((dat1 V c).before 3 t d))
    ∗ (∃ d, owns (c : Thread nD τ) (buf1_4 t) fullShare ((dat1 V c).before 4 t d))
    ∗ (∃ d, owns (c : Thread nD τ) (buf1_5 t) fullShare ((dat1 V c).before 5 t d))
    ∗ (∃ d, owns (c : Thread nD τ) (buf1_6 t) fullShare ((dat1 V c).before 6 t d))
    ∗ (∃ d, owns (c : Thread nD τ) (buf1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point. The inputs' buffers hold their blocks; the position's residue mod 16 says which case it is in, and
    that case's run applies: the invariant hands it the accumulator (at anything at the region's first point, at what the
    point before left otherwise) and takes it back at this point's contents, the pieces covering it; before the last step
    the output block's buffer goes back as found, at the last step with the epilogue's piece, which covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 16 = 0
  · by_cases h1 : t.val % 16 = 15
    · exfalso; omega
    ·
      rw [show (dat1 V c).leavesExact 0 t = owns (c : Thread nD τ) (buf1_0 t) fullShare ((dat1 V c).after 0 t) from by
        unfold Dat.leavesExact; rw [inputLive1_0 t], after1_0]
      rw [show (dat1 V c).leavesExact 1 t = owns (c : Thread nD τ) (buf1_1 t) fullShare ((dat1 V c).after 1 t) from by
        unfold Dat.leavesExact; rw [inputLive1_1 t], after1_1]
      rw [show (dat1 V c).leavesExact 2 t = owns (c : Thread nD τ) (buf1_2 t) fullShare ((dat1 V c).after 2 t) from by
        unfold Dat.leavesExact; rw [inputLive1_2 t], after1_2]
      rw [show (dat1 V c).leavesExact 3 t = owns (c : Thread nD τ) (buf1_3 t) fullShare ((dat1 V c).after 3 t) from by
        unfold Dat.leavesExact; rw [inputLive1_3 t], after1_3]
      rw [show (dat1 V c).leavesExact 4 t = owns (c : Thread nD τ) (buf1_4 t) fullShare ((dat1 V c).after 4 t) from by
        unfold Dat.leavesExact; rw [inputLive1_4 t], after1_4]
      rw [show (dat1 V c).leavesExact 5 t = owns (c : Thread nD τ) (buf1_5 t) fullShare ((dat1 V c).after 5 t) from by
        unfold Dat.leavesExact; rw [inputLive1_5 t], after1_5]
      rw [show (dat1 V c).leavesExact 6 t = owns (c : Thread nD τ) (buf1_6 t) fullShare ((dat1 V c).after 6 t) from by
        unfold Dat.leavesExact; rw [inputLive1_6 t], after1_6]
      rw [Dat.leavesExact_idle (dat1 V c) 7 t (fusedIdle_first t ((atFirstK_iff t).mpr h0) (fun h => h1 ((atLastK_iff t).mp h))) (fusedKept_first t ((atFirstK_iff t).mpr h0) (fun h => h1 ((atLastK_iff t).mp h)))]
      rw [outsAt1_first V c t h0 h1]
      unfold accFirst; (try dsimp only)
      by_cases hz : t.val = 0
      ·
        rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunFirst c (grid1.coords t) _ _ _ _ _ _ _ _ _ _ _ _ _ _ _ _ _ _ ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunFirst c (grid1.coords t) _ _ _ _ _ _ _ _ _ _ _ _ _ _ _ _ _ _ ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    ·
      rw [show (dat1 V c).leavesExact 0 t = owns (c : Thread nD τ) (buf1_0 t) fullShare ((dat1 V c).after 0 t) from by
        unfold Dat.leavesExact; rw [inputLive1_0 t], after1_0]
      rw [show (dat1 V c).leavesExact 1 t = owns (c : Thread nD τ) (buf1_1 t) fullShare ((dat1 V c).after 1 t) from by
        unfold Dat.leavesExact; rw [inputLive1_1 t], after1_1]
      rw [show (dat1 V c).leavesExact 2 t = owns (c : Thread nD τ) (buf1_2 t) fullShare ((dat1 V c).after 2 t) from by
        unfold Dat.leavesExact; rw [inputLive1_2 t], after1_2]
      rw [show (dat1 V c).leavesExact 3 t = owns (c : Thread nD τ) (buf1_3 t) fullShare ((dat1 V c).after 3 t) from by
        unfold Dat.leavesExact; rw [inputLive1_3 t], after1_3]
      rw [show (dat1 V c).leavesExact 4 t = owns (c : Thread nD τ) (buf1_4 t) fullShare ((dat1 V c).after 4 t) from by
        unfold Dat.leavesExact; rw [inputLive1_4 t], after1_4]
      rw [show (dat1 V c).leavesExact 5 t = owns (c : Thread nD τ) (buf1_5 t) fullShare ((dat1 V c).after 5 t) from by
        unfold Dat.leavesExact; rw [inputLive1_5 t], after1_5]
      rw [show (dat1 V c).leavesExact 6 t = owns (c : Thread nD τ) (buf1_6 t) fullShare ((dat1 V c).after 6 t) from by
        unfold Dat.leavesExact; rw [inputLive1_6 t], after1_6]
      rw [show (dat1 V c).leavesExact 7 t = owns (c : Thread nD τ) (buf1_7 t) fullShare ((dat1 V c).after 7 t) from by
        unfold Dat.leavesExact; rw [fusedLive_last t (fun h => h0 ((atFirstK_iff t).mp h)) ((atLastK_iff t).mpr h1)], after1_7]
      rw [outsAt1_last V c t h0 h1]
      unfold fusedLast accLast; (try dsimp only)
      by_cases hz : t.val = 0
      · exfalso; omega
      ·
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunLast c (grid1.coords t) _ _ _ _ _ _ _ _ _ _ _ _ _ _ _ _ _ _ (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [HS HR Hg]
        · isplitl [HS HR]
          · isplitl [HS]
            · unfold owns; iexists _; isplitr
              swap; · iexact HS
              ipureintro; exact View.read_writes_of_cover _ _ _ _ _ (accCoverLast c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (fusedCoverLast c _ _ _ _ _ _ _ _ _ _ _ _ _ _ _ _ _ _ _ _ _ _ _ _ _ _ _ _ _)
    ·
      rw [show (dat1 V c).leavesExact 0 t = owns (c : Thread nD τ) (buf1_0 t) fullShare ((dat1 V c).after 0 t) from by
        unfold Dat.leavesExact; rw [inputLive1_0 t], after1_0]
      rw [show (dat1 V c).leavesExact 1 t = owns (c : Thread nD τ) (buf1_1 t) fullShare ((dat1 V c).after 1 t) from by
        unfold Dat.leavesExact; rw [inputLive1_1 t], after1_1]
      rw [show (dat1 V c).leavesExact 2 t = owns (c : Thread nD τ) (buf1_2 t) fullShare ((dat1 V c).after 2 t) from by
        unfold Dat.leavesExact; rw [inputLive1_2 t], after1_2]
      rw [show (dat1 V c).leavesExact 3 t = owns (c : Thread nD τ) (buf1_3 t) fullShare ((dat1 V c).after 3 t) from by
        unfold Dat.leavesExact; rw [inputLive1_3 t], after1_3]
      rw [show (dat1 V c).leavesExact 4 t = owns (c : Thread nD τ) (buf1_4 t) fullShare ((dat1 V c).after 4 t) from by
        unfold Dat.leavesExact; rw [inputLive1_4 t], after1_4]
      rw [show (dat1 V c).leavesExact 5 t = owns (c : Thread nD τ) (buf1_5 t) fullShare ((dat1 V c).after 5 t) from by
        unfold Dat.leavesExact; rw [inputLive1_5 t], after1_5]
      rw [show (dat1 V c).leavesExact 6 t = owns (c : Thread nD τ) (buf1_6 t) fullShare ((dat1 V c).after 6 t) from by
        unfold Dat.leavesExact; rw [inputLive1_6 t], after1_6]
      rw [Dat.leavesExact_idle (dat1 V c) 7 t (fusedIdle_mid t (fun h => h0 ((atFirstK_iff t).mp h)) (fun h => h1 ((atLastK_iff t).mp h))) (fusedKept_mid t (fun h => h0 ((atFirstK_iff t).mp h)) (fun h => h1 ((atLastK_iff t).mp h)))]
      rw [outsAt1_mid V c t h0 h1]
      unfold accMid; (try dsimp only)
      by_cases hz : t.val = 0
      · exfalso; omega
      ·
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunMid c (grid1.coords t) _ _ _ _ _ _ _ _ _ _ _ _ _ _ _ _ _ _ (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS HR Hg]
        · isplitl [HS HR]
          · isplitl [HS]
            · unfold owns; iexists _; isplitr
              swap; · iexact HS
              ipureintro; exact View.read_writes_of_cover _ _ _ _ _ (accCoverMid c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Before the first point the invariant is what the launch hands the region. -/
theorem Phi_first1 (c : Dev nD) : (dat1 V c).Φ 0 = Pipeline.ΦA spec1 c := by
  rw [show (dat1 V c).Φ 0 = PhiS1 V c 0 (Nat.zero_le _) from rfl, PhiS1_zero V c 0 _ rfl]

/-- After any point the invariant gives that back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- In particular after the last point. -/
theorem Phi_last1 (c : Dev nD) : (dat1 V c).Φ (Fin.last cfg1.N) ⊢ Pipeline.ΦA spec1 c :=
  Phi_out1 V c _ (by rw [Fin.val_last]; have : cfg1.N = 512 := N_1; omega)

end Cert.Kernel.Pipe

end
-- ==== Proof.Bits.FinalRuns.lean ====
/- The final linear layer, region 2: what its three control cases share.
   The grid is (32, 8); coordinate 1 (the reduction step k) of point t is t mod 8. At k = 0 the
   accumulator is zeroed before the step's product is added; at every k the accumulator gains the
   product of the (256,512) row block with the (512,4096) weight block; at k = 7 the bias is added
   and the sum is stored into the output block. -/
import proofs.«114173_j69518340653173_2_alg».proof.Proof.Gen.Kernel.Launch
import proofs.«114173_j69518340653173_2_alg».proof.Proof.Gen.Kernel.Skeleton
import proofs.«114173_j69518340653173_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Final
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block (window 0) is in its staging buffer at every point, for any proof data over the entry
    contents whose body leaves the block in place. -/
theorem rowsBefore_of2 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight block (window 1), likewise. -/
theorem weightBefore_of2 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias (window 2), fetched once and kept: likewise. -/
theorem biasBefore_of2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Final

/-! ## The two conditions on the reduction step -/

/-- "This is the first reduction step" (k = 0), as the body computes it from coordinate 1. -/
abbrev atFirst2 (i : grid2.Coords) : Prop := (Scalar.cmpi .ne (Scalar.extui (Scalar.cmpi .eq (BitVec.ofNat 32 (i 1).val) 0#32)) 0#32) = 1#1
/-- It holds exactly at the points ≡ 0 (mod 8). -/
theorem atFirst_iff2 : ∀ t : Fin cfg2.N, atFirst2 (grid2.coords t) ↔ t.val % 8 = 0 :=
  (by decide +kernel : ∀ t : Fin grid2.N, atFirst2 (grid2.coords t) ↔ t.val % 8 = 0)

/-- "This is the last reduction step" (k = 7). -/
abbrev atLast2 (i : grid2.Coords) : Prop := k2_cond2 i = 1#1
/-- It holds exactly at the points ≡ 7 (mod 8). -/
theorem atLast_iff2 : ∀ t : Fin cfg2.N, atLast2 (grid2.coords t) ↔ t.val % 8 = 7 :=
  (by decide +kernel : ∀ t : Fin grid2.N, atLast2 (grid2.coords t) ↔ t.val % 8 = 7)

/-! ## Where the output window is idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- Before the last step nothing is stored into the output block: the window is idle there, -/
theorem idle2_3 : ∀ t : Fin cfg2.N, ¬atLast2 (grid2.coords t) → cfg2.idle 3 (grid2.coords t) = true := by decide +kernel
/-- and the block is not written back there. -/
theorem noFlush2_3 : ∀ t : Fin cfg2.N, ¬atLast2 (grid2.coords t) → (cfg2.win 3).flush t = false := by decide +kernel
/-- At the last step the output block is stored. -/
theorem live2_3 : ∀ t : Fin cfg2.N, atLast2 (grid2.coords t) → cfg2.idle 3 (grid2.coords t) = false := by decide +kernel

/-! ## The memrefs the body is called with -/

/-- One staging buffer of the output window, through which its contents are stated. -/
abbrev outView2 : View sig .tc .vmem S256x4096 .f32 := (Memref.whole cc2_stg3_0 : Memref sig .tc .vmem S256x4096 .f32).view
abbrev ms2_0 (t : Fin cfg2.N) : Memref sig .tc .vmem S256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev accM2 : Memref sig .tc .vmem S256x4096 .f32 := Memref.whole cc2_scratch0
abbrev accView2 : View sig .tc .vmem S256x4096 .f32 := accM2.view

/-- The region invariant with the accumulator as a memref owned at some contents, beside the rest
    of the scoped buffers (unopened) and the generator register. -/
theorem PhiA2_eq (c : Dev nD) :
    (Pipeline.ΦA spec2 c : sProp 𝕄)
      = iprop(iprop(iprop((∃ d, owns (c : Thread nD τ) accM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM2, owns_whole]; try rfl

end Cert.Kernel.Pipe

end
-- ==== Proof.Bits.FinalRunA.lean ====
/- The final linear layer at the first reduction step (k = 0): the accumulator is zeroed, then
   gains the step's product; the output block is not touched. -/
import proofs.«114173_j69518340653173_2_alg».proof.Proof.Bits.FinalRuns

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a first step, on whole memrefs: the three inputs at their contents, the output's
    buffer at contents handed back untouched, the accumulator at anything. It runs to the
    continuation holding the inputs and the output's buffer as they were and the accumulator with
    its pieces `LS` written (last first): the zero store, then the sum of the zeros with the
    step's product. The pieces are the witness the run finds. -/
noncomputable def runFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i)
    (x0 : Vec F S256x512 .bf16) (x1 : Vec F S512x4096 .bf16) (x2 : Vec F S4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Pipe

end
-- ==== Proof.Bits.FinalRunB.lean ====
/- The final linear layer at a middle reduction step (0 < k < 7): the accumulator gains the
   step's product; the output block is not touched. -/
import proofs.«114173_j69518340653173_2_alg».proof.Proof.Bits.FinalRuns

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a middle step, on whole memrefs: the three inputs at their contents, the output's
    buffer at contents handed back untouched, the accumulator at what the step before left
    (`xs`). It runs to the continuation holding the inputs and the output's buffer as they were and
    the accumulator with its one piece written: `xs` plus the step's product. -/
noncomputable def runMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i)
    (x0 : Vec F S256x512 .bf16) (x1 : Vec F S512x4096 .bf16) (x2 : Vec F S4096 .f32) (xs : Vec F S256x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Pipe

end
-- ==== Proof.Bits.FinalRunC.lean ====
/- The final linear layer at the last reduction step (k = 7): the accumulator gains the step's
   product, and the accumulator plus the bias (broadcast along the rows) is stored into the
   output block. -/
import proofs.«114173_j69518340653173_2_alg».proof.Proof.Bits.FinalRuns

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a last step, on whole memrefs: the three inputs at their contents, the output's
    buffer at anything, the accumulator at what the step before left (`xs`). It runs to the
    continuation holding the inputs as they were, the output's buffer with its piece `L3` written
    (the final accumulator plus the bias) and the accumulator with its piece `LS` written. -/
noncomputable def runLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i)
    (x0 : Vec F S256x512 .bf16) (x1 : Vec F S512x4096 .bf16) (x2 : Vec F S4096 .f32) (xs : Vec F S256x4096 .f32) :
    Σ' (L3 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Pipe

end
-- ==== Proof.Bits.FinalRegion.lean ====
/- The final linear layer, region 2: what the accumulator and the output block hold after every
   grid point, the proof data of the pipeline over the region-entry contents, and the body
   obligation. -/
import proofs.«114173_j69518340653173_2_alg».proof.Proof.Bits.FinalRunA
import proofs.«114173_j69518340653173_2_alg».proof.Proof.Bits.FinalRunB
import proofs.«114173_j69518340653173_2_alg».proof.Proof.Bits.FinalRunC

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A first step stores nothing into the output block: no pieces — a placeholder nothing consults, since
    at these points the window is neither written back nor read at the next point. -/
def outFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i) (x0 : Vec F S256x512 .bf16) (x1 : Vec F S512x4096 .bf16) (x2 : Vec F S4096 .f32) : Vec F S256x4096 .f32 :=
  outView2.read (Elt F) (outView2.writes (Elt F) outView2.junk (runFirst2 c i arg2 harg2 arg3 harg3 arg4 harg4 arg5 harg5 arg6 harg6 hc0 hc1 x0 x1 x2).1)

/-- A first step's stores into the accumulator cover it. -/
theorem accCoverFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i) (x0 : Vec F S256x512 .bf16) (x1 : Vec F S512x4096 .bf16) (x2 : Vec F S4096 .f32) (y : S256x4096.Idx) :
    ∃ pc ∈ (runFirst2 c i arg2 harg2 arg3 harg3 arg4 harg4 arg5 harg5 arg6 harg6 hc0 hc1 x0 x1 x2).2.1, y ∈ pc.1.set :=
  View.cover_of_tiledL (runFirst2 c i arg2 harg2 arg3 harg3 arg4 harg4 arg5 harg5 arg6 harg6 hc0 hc1 x0 x1 x2).2.1 S256x4096.size (by sl_kernel_rfl) y

/-- What a first step leaves in the accumulator. -/
def accFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i) (x0 : Vec F S256x512 .bf16) (x1 : Vec F S512x4096 .bf16) (x2 : Vec F S4096 .f32) : Vec F S256x4096 .f32 :=
  accView2.read (Elt F) (accView2.writes (Elt F) accView2.junk (runFirst2 c i arg2 harg2 arg3 harg3 arg4 harg4 arg5 harg5 arg6 harg6 hc0 hc1 x0 x1 x2).2.1)

/-- A middle step stores nothing into the output block: no pieces — a placeholder nothing consults, since
    at these points the window is neither written back nor read at the next point. -/
def outMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i) (x0 : Vec F S256x512 .bf16) (x1 : Vec F S512x4096 .bf16) (x2 : Vec F S4096 .f32) (xs : Vec F S256x4096 .f32) : Vec F S256x4096 .f32 :=
  outView2.read (Elt F) (outView2.writes (Elt F) outView2.junk (runMiddle2 c i arg2 harg2 arg3 harg3 arg4 harg4 arg5 harg5 arg6 harg6 hc0 hc1 x0 x1 x2 xs).1)

/-- A middle step's stores into the accumulator cover it. -/
theorem accCoverMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i) (x0 : Vec F S256x512 .bf16) (x1 : Vec F S512x4096 .bf16) (x2 : Vec F S4096 .f32) (xs : Vec F S256x4096 .f32) (y : S256x4096.Idx) :
    ∃ pc ∈ (runMiddle2 c i arg2 harg2 arg3 harg3 arg4 harg4 arg5 harg5 arg6 harg6 hc0 hc1 x0 x1 x2 xs).2.1, y ∈ pc.1.set :=
  View.cover_of_tiledL (runMiddle2 c i arg2 harg2 arg3 harg3 arg4 harg4 arg5 harg5 arg6 harg6 hc0 hc1 x0 x1 x2 xs).2.1 S256x4096.size (by sl_kernel_rfl) y

/-- What a middle step leaves in the accumulator. -/
def accMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i) (x0 : Vec F S256x512 .bf16) (x1 : Vec F S512x4096 .bf16) (x2 : Vec F S4096 .f32) (xs : Vec F S256x4096 .f32) : Vec F S256x4096 .f32 :=
  accView2.read (Elt F) (accView2.writes (Elt F) accView2.junk (runMiddle2 c i arg2 harg2 arg3 harg3 arg4 harg4 arg5 harg5 arg6 harg6 hc0 hc1 x0 x1 x2 xs).2.1)

/-- The last step's one store into the output block covers it. -/
theorem outCoverLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) (y : S256x4096.Idx) :
    ∃ pc ∈ (runLast2 c i arg2 harg2 arg3 harg3 arg4 harg4 arg5 harg5 arg6 harg6 hc0 hc1 x0 x1 x2 xs).1, y ∈ pc.1.set :=
  View.cover_of_tiledL (runLast2 c i arg2 harg2 arg3 harg3 arg4 harg4 arg5 harg5 arg6 harg6 hc0 hc1 x0 x1 x2 xs).1 S256x4096.size (by sl_kernel_rfl) y

/-- What the last step leaves in the output block: the final accumulator plus the bias. -/
def outLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) : Vec F S256x4096 .f32 :=
  outView2.read (Elt F) (outView2.writes (Elt F) outView2.junk (runLast2 c i arg2 harg2 arg3 harg3 arg4 harg4 arg5 harg5 arg6 harg6 hc0 hc1 x0 x1 x2 xs).1)

/-- A last step's stores into the accumulator cover it. -/
theorem accCoverLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) (y : S256x4096.Idx) :
    ∃ pc ∈ (runLast2 c i arg2 harg2 arg3 harg3 arg4 harg4 arg5 harg5 arg6 harg6 hc0 hc1 x0 x1 x2 xs).2.1, y ∈ pc.1.set :=
  View.cover_of_tiledL (runLast2 c i arg2 harg2 arg3 harg3 arg4 harg4 arg5 harg5 arg6 harg6 hc0 hc1 x0 x1 x2 xs).2.1 S256x4096.size (by sl_kernel_rfl) y

/-- What a last step leaves in the accumulator. -/
def accLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) : Vec F S256x4096 .f32 :=
  accView2.read (Elt F) (accView2.writes (Elt F) accView2.junk (runLast2 c i arg2 harg2 arg3 harg3 arg4 harg4 arg5 harg5 arg6 harg6 hc0 hc1 x0 x1 x2 xs).2.1)

section Final
variable (V : (c : Dev nD) → (b : Ref sig .tc) → Buf (Elt F) ((c : Thread nD τ).loc b))

/-! ## The accumulation, point by point -/

/-- What the output's staging buffer and the accumulator hold after the body at position `n` (a pair: the
    output block, then the accumulator): at k = 0 the zeroed accumulator plus the step's product; at 0 < k the
    accumulator of position `n - 1` plus the step's product; at k = 7 moreover the output block at that sum
    plus the bias. -/
def stepsAt2 (c : Dev nD) : (n : ℕ) → n < cfg2.N → Vec F S256x4096 .f32 × Vec F S256x4096 .f32
  | 0, hn => (outFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((atFirst_iff2 ⟨0, hn⟩).mpr (Nat.zero_mod _)) (fun h => (fun h => by (try dsimp only at h); omega) ((atLast_iff2 ⟨0, hn⟩).mp h)) (iblk2 V c 0 ⟨0, hn⟩) (iblk2 V c 1 ⟨0, hn⟩) (iblk2 V c 2 ⟨0, hn⟩), accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((atFirst_iff2 ⟨0, hn⟩).mpr (Nat.zero_mod _)) (fun h => (fun h => by (try dsimp only at h); omega) ((atLast_iff2 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (outFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((atFirst_iff2 ⟨n + 1, hn⟩).mpr h0) (fun h => h1 ((atLast_iff2 ⟨n + 1, hn⟩).mp h)) (iblk2 V c 0 ⟨n + 1, hn⟩) (iblk2 V c 1 ⟨n + 1, hn⟩) (iblk2 V c 2 ⟨n + 1, hn⟩), accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((atFirst_iff2 ⟨n + 1, hn⟩).mpr h0) (fun h => h1 ((atLast_iff2 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (outLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) ((atLast_iff2 ⟨n + 1, hn⟩).mpr h1) (iblk2 V c 0 ⟨n + 1, hn⟩) (iblk2 V c 1 ⟨n + 1, hn⟩) (iblk2 V c 2 ⟨n + 1, hn⟩) (stepsAt2 c n (Nat.lt_of_succ_lt hn)).2, accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) ((atLast_iff2 ⟨n + 1, hn⟩).mpr h1) (iblk2 V c 0 ⟨n + 1, hn⟩) (iblk2 V c 1 ⟨n + 1, hn⟩) (iblk2 V c 2 ⟨n + 1, hn⟩) (stepsAt2 c n (Nat.lt_of_succ_lt hn)).2)
      else
        (outMiddle2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) (fun h => h1 ((atLast_iff2 ⟨n + 1, hn⟩).mp h)) (iblk2 V c 0 ⟨n + 1, hn⟩) (iblk2 V c 1 ⟨n + 1, hn⟩) (iblk2 V c 2 ⟨n + 1, hn⟩) (stepsAt2 c n (Nat.lt_of_succ_lt hn)).2, accMiddle2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) (fun h => h1 ((atLast_iff2 ⟨n + 1, hn⟩).mp h)) (iblk2 V c 0 ⟨n + 1, hn⟩) (iblk2 V c 1 ⟨n + 1, hn⟩) (iblk2 V c 2 ⟨n + 1, hn⟩) (stepsAt2 c n (Nat.lt_of_succ_lt hn)).2)

/-- `stepsAt2` at a first step. -/
theorem stepsAt_first2 (c : Dev nD) (t : Fin cfg2.N) (h0 : t.val % 8 = 0) (h1 : ¬t.val % 8 = 7) :
    stepsAt2 V c t.val t.isLt = (outFirst2 c (grid2.coords t) (ms2_0 t) (hs2_0 t) (ms2_1 t) (hs2_1 t) (ms2_2 t) (hs2_2 t) (ms2_3 t) (hs2_3 t) accM2 (Memref.isWhole_whole _) ((atFirst_iff2 t).mpr h0) (fun h => h1 ((atLast_iff2 t).mp h)) (iblk2 V c 0 t) (iblk2 V c 1 t) (iblk2 V c 2 t), accFirst2 c (grid2.coords t) (ms2_0 t) (hs2_0 t) (ms2_1 t) (hs2_1 t) (ms2_2 t) (hs2_2 t) (ms2_3 t) (hs2_3 t) accM2 (Memref.isWhole_whole _) ((atFirst_iff2 t).mpr h0) (fun h => h1 ((atLast_iff2 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `stepsAt2` at a middle step: over what the point before left in the accumulator. -/
theorem stepsAt_middle2 (c : Dev nD) (t : Fin cfg2.N) (h0 : ¬t.val % 8 = 0) (h1 : ¬t.val % 8 = 7) :
    stepsAt2 V c t.val t.isLt = (outMiddle2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) (fun h => h1 ((atLast_iff2 t).mp h)) (iblk2 V c 0 t) (iblk2 V c 1 t) (iblk2 V c 2 t) (stepsAt2 V c (t.val - 1) (Nat.lt_of_le_of_lt (Nat.sub_le _ _) t.isLt)).2, accMiddle2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) (fun h => h1 ((atLast_iff2 t).mp h)) (iblk2 V c 0 t) (iblk2 V c 1 t) (iblk2 V c 2 t) (stepsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stepsAt2` at a last step: over what the point before left in the accumulator. -/
theorem stepsAt_last2 (c : Dev nD) (t : Fin cfg2.N) (h0 : ¬t.val % 8 = 0) (h1 : t.val % 8 = 7) :
    stepsAt2 V c t.val t.isLt = (outLast2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2, accLast2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point, the class's invariant (the accumulator at anything); afterwards
    the accumulator at what the point before left in it, beside the other scoped buffers and the generator
    register. -/
def PhiAcc2 (c : Dev nD) : (n : ℕ) → n ≤ cfg2.N → sProp 𝕄
  | 0, _ => Pipeline.ΦA spec2 c
  | n + 1, hn => iprop(iprop(owns (c : Thread nD τ) accM2 fullShare ((stepsAt2 V c n hn).2)
      ∗ Pipeline.scopedRestBut (Ix := Unit) (Name := ℕ) (U := UR sig nD τ) (Lvl := ℕ) (Val := Elt F) spec2 c [cc2_scratch0]) ∗ (∃ r, prngReg c r))

theorem PhiAcc_zero2 (c : Dev nD) (n : ℕ) (h : n ≤ cfg2.N) (hz : n = 0) : PhiAcc2 V c n h = Pipeline.ΦA spec2 c := by
  subst hz; rfl

theorem PhiAcc_succ2 (c : Dev nD) (n : ℕ) (hn : n < cfg2.N) :
    PhiAcc2 V c (n + 1) hn = iprop(iprop(owns (c : Thread nD τ) accM2 fullShare ((stepsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiAcc_pos2 (c : Dev nD) (n : ℕ) (h : n ≤ cfg2.N) (hz : n ≠ 0) :
    PhiAcc2 V c n h = iprop(iprop(owns (c : Thread nD τ) accM2 fullShare ((stepsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the final layer's pipeline on core `c`: the arrays as the region finds them; after the
    body at point `t` each input's buffer at its block and the output's at `stepsAt2`'s first component; the
    invariant `PhiAcc2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (stepsAt2 V c t.val t.isLt).1
  Φ t := PhiAcc2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiAcc_castSucc2 (c : Dev nD) (t : Fin cfg2.N) :
    (dat2 V c).Φ t.castSucc = PhiAcc2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The output block after point `t`: `stepsAt2`'s first component (at k = 7: the accumulated product plus the bias). -/
theorem after2_3 (c : Dev nD) (t : Fin cfg2.N) : (dat2 V c).after 3 t = (stepsAt2 V c t.val t.isLt).1 := by dsimp only [dat2]

theorem before2_0 (c : Dev nD) (t : Fin cfg2.N) (d) : (dat2 V c).before 0 t d = iblk2 V c 0 t :=
  rowsBefore_of2 V (dat2 V c) (A_eq2 V c 0) (after2_0 V c) t d
theorem before2_1 (c : Dev nD) (t : Fin cfg2.N) (d) : (dat2 V c).before 1 t d = iblk2 V c 1 t :=
  weightBefore_of2 V (dat2 V c) (A_eq2 V c 1) (after2_1 V c) t d
theorem before2_2 (c : Dev nD) (t : Fin cfg2.N) (d) : (dat2 V c).before 2 t d = iblk2 V c 2 t :=
  biasBefore_of2 V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms of the two conditions say
    which of the three cases the point is in; the invariant hands the body the accumulator at what the point
    before left (at anything at the very first point) and takes it back at this point's contents; before the
    last step the output's buffer is handed back as found, at the last step it holds the stored block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiAcc2 V c (t.val + 1) t.isLt from rfl, PhiAcc_succ2]
  have hN : t.val < 256 := lt_of_lt_of_eq t.isLt (show cfg2.N = 256 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [Dat.leavesExact_idle (dat2 V c) 3 t (idle2_3 t (fun h => h1 ((atLast_iff2 t).mp h))) (noFlush2_3 t (fun h => h1 ((atLast_iff2 t).mp h)))]
      rw [stepsAt_first2 V c t h0 h1]
      unfold accFirst2; (try dsimp only)
      by_cases hz : t.val = 0
      · rw [PhiAcc_castSucc2 V c t, PhiAcc_zero2 V c _ _ hz, PhiA2_eq]
        iintro ⟨⟨⟨HS, HR⟩, Hg⟩, Ho, ⟨%d0, H0⟩, ⟨%d1, H1⟩, ⟨%d2, H2⟩, ⟨%d3, H3⟩⟩
        iapply ((runFirst2 c (grid2.coords t) _ _ _ _ _ _ _ _ _ _ ((atFirst_iff2 t).mpr h0) (fun h => h1 ((atLast_iff2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst2 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiAcc_castSucc2 V c t, PhiAcc_pos2 V c _ _ hz]
        iintro ⟨⟨⟨HS, HR⟩, Hg⟩, Ho, ⟨%d0, H0⟩, ⟨%d1, H1⟩, ⟨%d2, H2⟩, ⟨%d3, H3⟩⟩
        iapply ((runFirst2 c (grid2.coords t) _ _ _ _ _ _ _ _ _ _ ((atFirst_iff2 t).mpr h0) (fun h => h1 ((atLast_iff2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst2 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t ((atLast_iff2 t).mpr h1)], after2_3]
      rw [stepsAt_last2 V c t h0 h1]
      unfold outLast2 accLast2; (try dsimp only)
      by_cases hz : t.val = 0
      · exfalso; omega
      · rw [PhiAcc_castSucc2 V c t, PhiAcc_pos2 V c _ _ hz]
        iintro ⟨⟨⟨HS, HR⟩, Hg⟩, Ho, ⟨%d0, H0⟩, ⟨%d1, H1⟩, ⟨%d2, H2⟩, ⟨%d3, H3⟩⟩
        iapply ((runLast2 c (grid2.coords t) _ _ _ _ _ _ _ _ _ _ (fun h => h0 ((atFirst_iff2 t).mp h)) ((atLast_iff2 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HR Hg]
        · isplitl [HS HR]
          · isplitl [HS]
            · unfold owns; iexists _; isplitr
              swap; · iexact HS
              ipureintro; exact View.read_writes_of_cover _ _ _ _ _ (accCoverLast2 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast2 c _ _ _ _ _ _ _ _ _ _ _ _ _ _ _ _ _)
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [Dat.leavesExact_idle (dat2 V c) 3 t (idle2_3 t (fun h => h1 ((atLast_iff2 t).mp h))) (noFlush2_3 t (fun h => h1 ((atLast_iff2 t).mp h)))]
      rw [stepsAt_middle2 V c t h0 h1]
      unfold accMiddle2; (try dsimp only)
      by_cases hz : t.val = 0
      · exfalso; omega
      · rw [PhiAcc_castSucc2 V c t, PhiAcc_pos2 V c _ _ hz]
        iintro ⟨⟨⟨HS, HR⟩, Hg⟩, Ho, ⟨%d0, H0⟩, ⟨%d1, H1⟩, ⟨%d2, H2⟩, ⟨%d3, H3⟩⟩
        iapply ((runMiddle2 c (grid2.coords t) _ _ _ _ _ _ _ _ _ _ (fun h => h0 ((atFirst_iff2 t).mp h)) (fun h => h1 ((atLast_iff2 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverMiddle2 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is the class's. -/
theorem Phi_first2 (c : Dev nD) : (dat2 V c).Φ 0 = Pipeline.ΦA spec2 c := by
  rw [show (dat2 V c).Φ 0 = PhiAcc2 V c 0 (Nat.zero_le _) from rfl, PhiAcc_zero2 V c 0 _ rfl]

/-- After any point the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiAcc2 V c t.val (Nat.le_of_lt_succ t.isLt) from rfl, PhiAcc_pos2 V c _ _ ht, PhiA2_eq]
  iintro ⟨⟨HS, HR⟩, Hg⟩
  isplitl [HS HR]
  · isplitl [HS]
    · iexists _; iexact HS
    iexact HR
  iexact Hg

/-- The same after the last point. -/
theorem Phi_last2 (c : Dev nD) : (dat2 V c).Φ (Fin.last cfg2.N) ⊢ Pipeline.ΦA spec2 c :=
  Phi_out2 V c _ (by rw [Fin.val_last]; have : cfg2.N = 256 := N_2; omega)

end Final

end Cert.Kernel.Pipe

end
-- ==== Proof.Bits.Run.lean ====
import proofs.«114173_j69518340653173_2_alg».proof.Proof.Bits.LnRegion
import proofs.«114173_j69518340653173_2_alg».proof.Proof.Bits.GateRegion
import proofs.«114173_j69518340653173_2_alg».proof.Proof.Bits.FinalRegion
import proofs.«114173_j69518340653173_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: three kernel regions with two stretches of host operations between them

The contents of the core's unscoped buffers at each boundary, folded forward from the launch memory. -/

/-- At launch (region 0 is entered at once). -/
abbrev Bnd0 : Dev nD → Valuation τ sig (Elt F) := fun c b => (s₀ m ρ).mem ((c : Dev nD), b)
abbrev Ent0 : (c : Dev nD) → (b : Ref sig .tc) → Buf (Elt F) ((c : Thread nD τ).loc b) := fun c b => Bnd0 m ρ c b

/-- The buffers when region 0 is left: its windows' arrays at what the write-backs leave, every other buffer as the
    region found it. -/
def Bnd1 (c : Dev nD) : Valuation τ sig (Elt F) :=
  Pipeline.withArrays spec0 c (Bnd0 m ρ c) fun w => (dat0 (Ent0 m ρ) c).arrAt w cfg0.N
theorem Bnd1_arr (c : Dev nD) (w : Fin cfg0.W) :
    Bnd1 m ρ c (Proc.devRef .tc (Pipeline.arrRef spec0 w)) = (dat0 (Ent0 m ρ) c).arrAt w cfg0.N := by
  unfold Bnd1; exact Pipeline.withArrays_arr spec0 launch0.win.arr_inj c _ _ w
theorem Bnd1_of_ne (c : Dev nD) (b : Ref sig .tc) (hb : ∀ w, Pipeline.arrRef spec0 w ≠ b) :
    Bnd1 m ρ c (Proc.devRef .tc b) = Bnd0 m ρ c (Proc.devRef .tc b) := by
  unfold Bnd1; exact Pipeline.withArrays_of_ne spec0 c _ _ b hb
abbrev Ent1 : (c : Dev nD) → (b : Ref sig .tc) → Buf (Elt F) ((c : Thread nD τ).loc b) := fun c b => Bnd1 m ρ c b
theorem exitArr0 (c : Dev nD) (w : Fin cfg0.W) : (dat0 (Ent0 m ρ) c).arrAt w cfg0.N = Ent1 m ρ c (Pipeline.arrRef spec0 w) :=
  (Bnd1_arr m ρ c w).symm
theorem exitRest0 (c : Dev nD) : ∀ b, b ∉ Finset.univ.image (Pipeline.arrRef spec0) → Ent1 m ρ c b = Ent0 m ρ c b :=
  fun b hb => Bnd1_of_ne m ρ c b fun w e => hb (Finset.mem_image.mpr ⟨w, Finset.mem_univ _, e⟩)

/-- After the weight slices and their roundings (region 1's entry). -/
abbrev Bnd2 : Dev nD → Valuation τ sig (Elt F) := fun c => StableHlo.after hostOps1 (Bnd1 m ρ c)
abbrev Ent2 : (c : Dev nD) → (b : Ref sig .tc) → Buf (Elt F) ((c : Thread nD τ).loc b) := fun c b => Bnd2 m ρ c b

/-- The buffers when region 1 is left: its windows' arrays at what the write-backs leave, every other buffer as the
    region found it. -/
def Bnd3 (c : Dev nD) : Valuation τ sig (Elt F) :=
  Pipeline.withArrays spec1 c (Bnd2 m ρ c) fun w => (dat1 (Ent2 m ρ) c).arrAt w cfg1.N
theorem Bnd3_arr (c : Dev nD) (w : Fin cfg1.W) :
    Bnd3 m ρ c (Proc.devRef .tc (Pipeline.arrRef spec1 w)) = (dat1 (Ent2 m ρ) c).arrAt w cfg1.N := by
  unfold Bnd3; exact Pipeline.withArrays_arr spec1 launch1.win.arr_inj c _ _ w
theorem Bnd3_of_ne (c : Dev nD) (b : Ref sig .tc) (hb : ∀ w, Pipeline.arrRef spec1 w ≠ b) :
    Bnd3 m ρ c (Proc.devRef .tc b) = Bnd2 m ρ c (Proc.devRef .tc b) := by
  unfold Bnd3; exact Pipeline.withArrays_of_ne spec1 c _ _ b hb
abbrev Ent3 : (c : Dev nD) → (b : Ref sig .tc) → Buf (Elt F) ((c : Thread nD τ).loc b) := fun c b => Bnd3 m ρ c b
theorem exitArr1 (c : Dev nD) (w : Fin cfg1.W) : (dat1 (Ent2 m ρ) c).arrAt w cfg1.N = Ent3 m ρ c (Pipeline.arrRef spec1 w) :=
  (Bnd3_arr m ρ c w).symm
theorem exitRest1 (c : Dev nD) : ∀ b, b ∉ Finset.univ.image (Pipeline.arrRef spec1) → Ent3 m ρ c b = Ent2 m ρ c b :=
  fun b hb => Bnd3_of_ne m ρ c b fun w e => hb (Finset.mem_image.mpr ⟨w, Finset.mem_univ _, e⟩)

/-- After the output weight's rounding (region 2's entry). -/
abbrev Bnd4 : Dev nD → Valuation τ sig (Elt F) := fun c => StableHlo.after hostOps2 (Bnd3 m ρ c)
abbrev Ent4 : (c : Dev nD) → (b : Ref sig .tc) → Buf (Elt F) ((c : Thread nD τ).loc b) := fun c b => Bnd4 m ρ c b

/-- The buffers when region 2 is left: its windows' arrays at what the write-backs leave, every other buffer as the
    region found it. -/
def Bnd5 (c : Dev nD) : Valuation τ sig (Elt F) :=
  Pipeline.withArrays spec2 c (Bnd4 m ρ c) fun w => (dat2 (Ent4 m ρ) c).arrAt w cfg2.N
theorem Bnd5_arr (c : Dev nD) (w : Fin cfg2.W) :
    Bnd5 m ρ c (Proc.devRef .tc (Pipeline.arrRef spec2 w)) = (dat2 (Ent4 m ρ) c).arrAt w cfg2.N := by
  unfold Bnd5; exact Pipeline.withArrays_arr spec2 launch2.win.arr_inj c _ _ w
theorem Bnd5_of_ne (c : Dev nD) (b : Ref sig .tc) (hb : ∀ w, Pipeline.arrRef spec2 w ≠ b) :
    Bnd5 m ρ c (Proc.devRef .tc b) = Bnd4 m ρ c (Proc.devRef .tc b) := by
  unfold Bnd5; exact Pipeline.withArrays_of_ne spec2 c _ _ b hb
abbrev Ent5 : (c : Dev nD) → (b : Ref sig .tc) → Buf (Elt F) ((c : Thread nD τ).loc b) := fun c b => Bnd5 m ρ c b
theorem exitArr2 (c : Dev nD) (w : Fin cfg2.W) : (dat2 (Ent4 m ρ) c).arrAt w cfg2.N = Ent5 m ρ c (Pipeline.arrRef spec2 w) :=
  (Bnd5_arr m ρ c w).symm
theorem exitRest2 (c : Dev nD) : ∀ b, b ∉ Finset.univ.image (Pipeline.arrRef spec2) → Ent5 m ρ c b = Ent4 m ρ c b :=
  fun b hb => Bnd5_of_ne m ρ c b fun w e => hb (Finset.mem_image.mpr ⟨w, Finset.mem_univ _, e⟩)

/-! ## No step writes an argument: a region only reads it through an input window or does not touch it, and the host
    operations write their own results -/

theorem Bnd5_main_arg0 (c : Dev nD) : Bnd5 m ρ c (Proc.devRef .tc main_arg0) = m ((c : Thread nD τ).loc main_arg0) :=
  calc Bnd5 m ρ c (Proc.devRef .tc main_arg0)
    _ = Bnd4 m ρ c (Proc.devRef .tc main_arg0) := Bnd5_of_ne m ρ c main_arg0 (by decide)
    _ = Bnd3 m ρ c (Proc.devRef .tc main_arg0) := StableHlo.after_of_writes_sub hostOps2 _ hostOps2_writes (by decide)
    _ = Bnd2 m ρ c (Proc.devRef .tc main_arg0) := Bnd3_of_ne m ρ c main_arg0 (by decide)
    _ = Bnd1 m ρ c (Proc.devRef .tc main_arg0) := StableHlo.after_of_writes_sub hostOps1 _ hostOps1_writes (by decide)
    _ = Bnd0 m ρ c (Proc.devRef .tc main_arg0) := (Bnd1_arr m ρ c 0).trans (((dat0 (Ent0 m ρ) c).arrAt_in 0 rfl _).trans (A_eq0 (Ent0 m ρ) c 0))
    _ = m ((c : Thread nD τ).loc main_arg0) := rfl

theorem Bnd5_main_arg1 (c : Dev nD) : Bnd5 m ρ c (Proc.devRef .tc main_arg1) = m ((c : Thread nD τ).loc main_arg1) :=
  calc Bnd5 m ρ c (Proc.devRef .tc main_arg1)
    _ = Bnd4 m ρ c (Proc.devRef .tc main_arg1) := Bnd5_of_ne m ρ c main_arg1 (by decide)
    _ = Bnd3 m ρ c (Proc.devRef .tc main_arg1) := StableHlo.after_of_writes_sub hostOps2 _ hostOps2_writes (by decide)
    _ = Bnd2 m ρ c (Proc.devRef .tc main_arg1) := Bnd3_of_ne m ρ c main_arg1 (by decide)
    _ = Bnd1 m ρ c (Proc.devRef .tc main_arg1) := StableHlo.after_of_writes_sub hostOps1 _ hostOps1_writes (by decide)
    _ = Bnd0 m ρ c (Proc.devRef .tc main_arg1) := (Bnd1_arr m ρ c 1).trans (((dat0 (Ent0 m ρ) c).arrAt_in 1 rfl _).trans (A_eq0 (Ent0 m ρ) c 1))
    _ = m ((c : Thread nD τ).loc main_arg1) := rfl

theorem Bnd5_main_arg2 (c : Dev nD) : Bnd5 m ρ c (Proc.devRef .tc main_arg2) = m ((c : Thread nD τ).loc main_arg2) :=
  calc Bnd5 m ρ c (Proc.devRef .tc main_arg2)
    _ = Bnd4 m ρ c (Proc.devRef .tc main_arg2) := Bnd5_of_ne m ρ c main_arg2 (by decide)
    _ = Bnd3 m ρ c (Proc.devRef .tc main_arg2) := StableHlo.after_of_writes_sub hostOps2 _ hostOps2_writes (by decide)
    _ = Bnd2 m ρ c (Proc.devRef .tc main_arg2) := Bnd3_of_ne m ρ c main_arg2 (by decide)
    _ = Bnd1 m ρ c (Proc.devRef .tc main_arg2) := StableHlo.after_of_writes_sub hostOps1 _ hostOps1_writes (by decide)
    _ = Bnd0 m ρ c (Proc.devRef .tc main_arg2) := (Bnd1_arr m ρ c 2).trans (((dat0 (Ent0 m ρ) c).arrAt_in 2 rfl _).trans (A_eq0 (Ent0 m ρ) c 2))
    _ = m ((c : Thread nD τ).loc main_arg2) := rfl

theorem Bnd5_main_arg3 (c : Dev nD) : Bnd5 m ρ c (Proc.devRef .tc main_arg3) = m ((c : Thread nD τ).loc main_arg3) :=
  calc Bnd5 m ρ c (Proc.devRef .tc main_arg3)
    _ = Bnd4 m ρ c (Proc.devRef .tc main_arg3) := Bnd5_of_ne m ρ c main_arg3 (by decide)
    _ = Bnd3 m ρ c (Proc.devRef .tc main_arg3) := StableHlo.after_of_writes_sub hostOps2 _ hostOps2_writes (by decide)
    _ = Bnd2 m ρ c (Proc.devRef .tc main_arg3) := Bnd3_of_ne m ρ c main_arg3 (by decide)
    _ = Bnd1 m ρ c (Proc.devRef .tc main_arg3) := StableHlo.after_of_writes_sub hostOps1 _ hostOps1_writes (by decide)
    _ = Bnd0 m ρ c (Proc.devRef .tc main_arg3) := (Bnd1_arr m ρ c 3).trans (((dat0 (Ent0 m ρ) c).arrAt_in 3 rfl _).trans (A_eq0 (Ent0 m ρ) c 3))
    _ = m ((c : Thread nD τ).loc main_arg3) := rfl

theorem Bnd5_main_arg4 (c : Dev nD) : Bnd5 m ρ c (Proc.devRef .tc main_arg4) = m ((c : Thread nD τ).loc main_arg4) :=
  calc Bnd5 m ρ c (Proc.devRef .tc main_arg4)
    _ = Bnd4 m ρ c (Proc.devRef .tc main_arg4) := Bnd5_of_ne m ρ c main_arg4 (by decide)
    _ = Bnd3 m ρ c (Proc.devRef .tc main_arg4) := StableHlo.after_of_writes_sub hostOps2 _ hostOps2_writes (by decide)
    _ = Bnd2 m ρ c (Proc.devRef .tc main_arg4) := Bnd3_of_ne m ρ c main_arg4 (by decide)
    _ = Bnd1 m ρ c (Proc.devRef .tc main_arg4) := StableHlo.after_of_writes_sub hostOps1 _ hostOps1_writes (by decide)
    _ = Bnd0 m ρ c (Proc.devRef .tc main_arg4) := (Bnd1_arr m ρ c 4).trans (((dat0 (Ent0 m ρ) c).arrAt_in 4 rfl _).trans (A_eq0 (Ent0 m ρ) c 4))
    _ = m ((c : Thread nD τ).loc main_arg4) := rfl

theorem Bnd5_main_arg5 (c : Dev nD) : Bnd5 m ρ c (Proc.devRef .tc main_arg5) = m ((c : Thread nD τ).loc main_arg5) :=
  calc Bnd5 m ρ c (Proc.devRef .tc main_arg5)
    _ = Bnd4 m ρ c (Proc.devRef .tc main_arg5) := Bnd5_of_ne m ρ c main_arg5 (by decide)
    _ = Bnd3 m ρ c (Proc.devRef .tc main_arg5) := StableHlo.after_of_writes_sub hostOps2 _ hostOps2_writes (by decide)
    _ = Bnd2 m ρ c (Proc.devRef .tc main_arg5) := Bnd3_of_ne m ρ c main_arg5 (by decide)
    _ = Bnd1 m ρ c (Proc.devRef .tc main_arg5) := StableHlo.after_of_writes_sub hostOps1 _ hostOps1_writes (by decide)
    _ = Bnd0 m ρ c (Proc.devRef .tc main_arg5) := (Bnd1_arr m ρ c 5).trans (((dat0 (Ent0 m ρ) c).arrAt_in 5 rfl _).trans (A_eq0 (Ent0 m ρ) c 5))
    _ = m ((c : Thread nD τ).loc main_arg5) := rfl

theorem Bnd5_main_arg6 (c : Dev nD) : Bnd5 m ρ c (Proc.devRef .tc main_arg6) = m ((c : Thread nD τ).loc main_arg6) :=
  calc Bnd5 m ρ c (Proc.devRef .tc main_arg6)
    _ = Bnd4 m ρ c (Proc.devRef .tc main_arg6) := Bnd5_of_ne m ρ c main_arg6 (by decide)
    _ = Bnd3 m ρ c (Proc.devRef .tc main_arg6) := StableHlo.after_of_writes_sub hostOps2 _ hostOps2_writes (by decide)
    _ = Bnd2 m ρ c (Proc.devRef .tc main_arg6) := Bnd3_of_ne m ρ c main_arg6 (by decide)
    _ = Bnd1 m ρ c (Proc.devRef .tc main_arg6) := StableHlo.after_of_writes_sub hostOps1 _ hostOps1_writes (by decide)
    _ = Bnd0 m ρ c (Proc.devRef .tc main_arg6) := Bnd1_of_ne m ρ c main_arg6 (by decide)
    _ = m ((c : Thread nD τ).loc main_arg6) := rfl

theorem Bnd5_main_arg7 (c : Dev nD) : Bnd5 m ρ c (Proc.devRef .tc main_arg7) = m ((c : Thread nD τ).loc main_arg7) :=
  calc Bnd5 m ρ c (Proc.devRef .tc main_arg7)
    _ = Bnd4 m ρ c (Proc.devRef .tc main_arg7) := Bnd5_of_ne m ρ c main_arg7 (by decide)
    _ = Bnd3 m ρ c (Proc.devRef .tc main_arg7) := StableHlo.after_of_writes_sub hostOps2 _ hostOps2_writes (by decide)
    _ = Bnd2 m ρ c (Proc.devRef .tc main_arg7) := (Bnd3_arr m ρ c 5).trans (((dat1 (Ent2 m ρ) c).arrAt_in 5 rfl _).trans (A_eq1 (Ent2 m ρ) c 5))
    _ = Bnd1 m ρ c (Proc.devRef .tc main_arg7) := StableHlo.after_of_writes_sub hostOps1 _ hostOps1_writes (by decide)
    _ = Bnd0 m ρ c (Proc.devRef .tc main_arg7) := Bnd1_of_ne m ρ c main_arg7 (by decide)
    _ = m ((c : Thread nD τ).loc main_arg7) := rfl

theorem Bnd5_main_arg8 (c : Dev nD) : Bnd5 m ρ c (Proc.devRef .tc main_arg8) = m ((c : Thread nD τ).loc main_arg8) :=
  calc Bnd5 m ρ c (Proc.devRef .tc main_arg8)
    _ = Bnd4 m ρ c (Proc.devRef .tc main_arg8) := Bnd5_of_ne m ρ c main_arg8 (by decide)
    _ = Bnd3 m ρ c (Proc.devRef .tc main_arg8) := StableHlo.after_of_writes_sub hostOps2 _ hostOps2_writes (by decide)
    _ = Bnd2 m ρ c (Proc.devRef .tc main_arg8) := (Bnd3_arr m ρ c 4).trans (((dat1 (Ent2 m ρ) c).arrAt_in 4 rfl _).trans (A_eq1 (Ent2 m ρ) c 4))
    _ = Bnd1 m ρ c (Proc.devRef .tc main_arg8) := StableHlo.after_of_writes_sub hostOps1 _ hostOps1_writes (by decide)
    _ = Bnd0 m ρ c (Proc.devRef .tc main_arg8) := Bnd1_of_ne m ρ c main_arg8 (by decide)
    _ = m ((c : Thread nD τ).loc main_arg8) := rfl

theorem Bnd5_main_arg9 (c : Dev nD) : Bnd5 m ρ c (Proc.devRef .tc main_arg9) = m ((c : Thread nD τ).loc main_arg9) :=
  calc Bnd5 m ρ c (Proc.devRef .tc main_arg9)
    _ = Bnd4 m ρ c (Proc.devRef .tc main_arg9) := Bnd5_of_ne m ρ c main_arg9 (by decide)
    _ = Bnd3 m ρ c (Proc.devRef .tc main_arg9) := StableHlo.after_of_writes_sub hostOps2 _ hostOps2_writes (by decide)
    _ = Bnd2 m ρ c (Proc.devRef .tc main_arg9) := (Bnd3_arr m ρ c 6).trans (((dat1 (Ent2 m ρ) c).arrAt_in 6 rfl _).trans (A_eq1 (Ent2 m ρ) c 6))
    _ = Bnd1 m ρ c (Proc.devRef .tc main_arg9) := StableHlo.after_of_writes_sub hostOps1 _ hostOps1_writes (by decide)
    _ = Bnd0 m ρ c (Proc.devRef .tc main_arg9) := Bnd1_of_ne m ρ c main_arg9 (by decide)
    _ = m ((c : Thread nD τ).loc main_arg9) := rfl

theorem Bnd5_main_arg10 (c : Dev nD) : Bnd5 m ρ c (Proc.devRef .tc main_arg10) = m ((c : Thread nD τ).loc main_arg10) :=
  calc Bnd5 m ρ c (Proc.devRef .tc main_arg10)
    _ = Bnd4 m ρ c (Proc.devRef .tc main_arg10) := Bnd5_of_ne m ρ c main_arg10 (by decide)
    _ = Bnd3 m ρ c (Proc.devRef .tc main_arg10) := StableHlo.after_of_writes_sub hostOps2 _ hostOps2_writes (by decide)
    _ = Bnd2 m ρ c (Proc.devRef .tc main_arg10) := Bnd3_of_ne m ρ c main_arg10 (by decide)
    _ = Bnd1 m ρ c (Proc.devRef .tc main_arg10) := StableHlo.after_of_writes_sub hostOps1 _ hostOps1_writes (by decide)
    _ = Bnd0 m ρ c (Proc.devRef .tc main_arg10) := Bnd1_of_ne m ρ c main_arg10 (by decide)
    _ = m ((c : Thread nD τ).loc main_arg10) := rfl

theorem Bnd5_main_arg11 (c : Dev nD) : Bnd5 m ρ c (Proc.devRef .tc main_arg11) = m ((c : Thread nD τ).loc main_arg11) :=
  calc Bnd5 m ρ c (Proc.devRef .tc main_arg11)
    _ = Bnd4 m ρ c (Proc.devRef .tc main_arg11) := (Bnd5_arr m ρ c 2).trans (((dat2 (Ent4 m ρ) c).arrAt_in 2 rfl _).trans (A_eq2 (Ent4 m ρ) c 2))
    _ = Bnd3 m ρ c (Proc.devRef .tc main_arg11) := StableHlo.after_of_writes_sub hostOps2 _ hostOps2_writes (by decide)
    _ = Bnd2 m ρ c (Proc.devRef .tc main_arg11) := Bnd3_of_ne m ρ c main_arg11 (by decide)
    _ = Bnd1 m ρ c (Proc.devRef .tc main_arg11) := StableHlo.after_of_writes_sub hostOps1 _ hostOps1_writes (by decide)
    _ = Bnd0 m ρ c (Proc.devRef .tc main_arg11) := Bnd1_of_ne m ρ c main_arg11 (by decide)
    _ = m ((c : Thread nD τ).loc main_arg11) := rfl

/-! ## The proof data of the three pipelines and the thread state between segments -/

/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent2 m ρ) c
  | ⟨2, _⟩ => fun c => dat2 (Ent4 m ρ) c
abbrev 𝒱₀ : Variants := Variants.none
abbrev L : GSem nD τ sig → Finset Unit := fun _ => ∅
abbrev lv : GSem nD τ sig → Unit → ℕ := fun _ _ => 0
/-- Beside the buffers, every segment passes on the generator register at some state and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (Bnd5 m ρ c) ∗ ∃ r, prngReg c r)

/-! ## The regions as segments -/

set_option backward.isDefEq.respectTransparency.types false in
/-- Region 0 as a segment: entered with every unscoped buffer at `Bnd0`, left with them at `Bnd1`; its windows'
    arrays are split out of the unscoped buffers at entry and put back at exit, the generator register goes into
    the kernel's invariant and comes back, nothing is owed, the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (Bnd0 m ρ c) ∗ Rest c)
  post c := iprop(StableHlo.held (c : Thread nD τ) (Pipeline.ucRefs τ sig) (Bnd1 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi_first0 (Ent0 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (Ent0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Ent1 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Bnd2`, left with them at `Bnd3`; its windows'
    arrays are split out of the unscoped buffers at entry and put back at exit, the generator register goes into
    the kernel's invariant and comes back, nothing is owed, the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent2 m ρ) c).loose
  hwaits := Pipeline.hwaits_of_owed_zero _ _ _ _ L lv 1 fun _ _ => rfl
  pre c := iprop(StableHlo.held (c : Thread nD τ) (Pipeline.ucRefs τ sig) (Bnd2 m ρ c) ∗ Rest c)
  post c := iprop(StableHlo.held (c : Thread nD τ) (Pipeline.ucRefs τ sig) (Bnd3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (Ent2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi_first1 (Ent2 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (Ent2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent2 m ρ c) (Ent3 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Bnd4`, left with them at `Bnd5`; its windows'
    arrays are split out of the unscoped buffers at entry and put back at exit, the generator register goes into
    the kernel's invariant and comes back, nothing is owed, the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent4 m ρ) c).loose
  hwaits := Pipeline.hwaits_of_owed_zero _ _ _ _ L lv 2 fun _ _ => rfl
  pre c := iprop(StableHlo.held (c : Thread nD τ) (Pipeline.ucRefs τ sig) (Bnd4 m ρ c) ∗ Rest c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ent4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi_first2 (Ent4 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi_last2 (Ent4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent4 m ρ c) (Ent5 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five segments, and the launch -/

abbrev mainSegs : List (Pipeline.Seg (pcfgs (F := F)) adm (pdats m ρ) () defs₀ 𝒱₀ L lv) :=
  [ .region (reg0 m ρ),
    .host (hseg hostOps1 hostOps1_sub hostOps1_fresh (Bnd1 m ρ)),
    .region (reg1 m ρ),
    .host (hseg hostOps2 hostOps2_sub hostOps2_fresh (Bnd3 m ρ)),
    .region (reg2 m ρ) ]
theorem main_run (c : Dev nD) : main (F := F) c = Pipeline.Seg.run (mainSegs m ρ) := (main_chain c).trans (by chain_rfl)

set_option backward.isDefEq.respectTransparency.types false in
/-- Every weakly fair execution of the program from memory `m` with zero counters terminates without a fault, and the
    final memory holds every unscoped buffer of each core at the end of the fold, `Bnd5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bnd5 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m ρ c) ∗ Rest c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bnd0 m ρ c)
        from Pipeline.unscopedBufs_held c (Bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bnd5 m ρ c) s')
      isplitl [Hh] <;> iassumption)
    (hQ := fun s h c => h c)

/-- The arguments end as launched. -/
theorem args_kept (c : Dev nD) (s : MemSt nD τ sig (Elt F)) (h : ∀ b ∈ Pipeline.ucRefs τ sig, s.mem (((c : Thread nD τ)).1, b) = Bnd5 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨(h _ (mem_uc main_arg0 (by decide))).trans (Bnd5_main_arg0 m ρ c),
   (h _ (mem_uc main_arg1 (by decide))).trans (Bnd5_main_arg1 m ρ c),
   (h _ (mem_uc main_arg2 (by decide))).trans (Bnd5_main_arg2 m ρ c),
   (h _ (mem_uc main_arg3 (by decide))).trans (Bnd5_main_arg3 m ρ c),
   (h _ (mem_uc main_arg4 (by decide))).trans (Bnd5_main_arg4 m ρ c),
   (h _ (mem_uc main_arg5 (by decide))).trans (Bnd5_main_arg5 m ρ c),
   (h _ (mem_uc main_arg6 (by decide))).trans (Bnd5_main_arg6 m ρ c),
   (h _ (mem_uc main_arg7 (by decide))).trans (Bnd5_main_arg7 m ρ c),
   (h _ (mem_uc main_arg8 (by decide))).trans (Bnd5_main_arg8 m ρ c),
   (h _ (mem_uc main_arg9 (by decide))).trans (Bnd5_main_arg9 m ρ c),
   (h _ (mem_uc main_arg10 (by decide))).trans (Bnd5_main_arg10 m ρ c),
   (h _ (mem_uc main_arg11 (by decide))).trans (Bnd5_main_arg11 m ρ c)⟩

/-- The frame: the program runs to the end without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m ρ c r.2 (h c)) (run_all m ρ)

/-- The run with the result read: the result buffer ends at what region 2's write-backs leave in its output array. -/
theorem run_result : θ_run defs (onTc (τ := τ) (main (F := F))) ⟨m, fun _ => 0, ρ⟩ (fun r => ∀ c : Dev nD,
      r.2.mem ((c.tc : Thread nD τ).loc main_v7) = (dat2 (Ent4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (Bnd5_arr m ρ c 3), args_kept m ρ c r.2 (h c)⟩) (run_all m ρ)

end Cert.Kernel.Pipe

end
-- ==== Proof.LnRegion.lean ====
import proofs.«114173_j69518340653173_2_alg».proof.Proof.Gen.KernelIdeal.Launch
import proofs.«114173_j69518340653173_2_alg».proof.Proof.Gen.KernelIdeal.Skeleton
import proofs.«114173_j69518340653173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two row normalisations (first pipelined call)

The first call walks the 32 row blocks of two (8192, 4096) arrays.  At each block it normalises every
row of the first array's block (mean and variance over the 4096 columns, scale and shift by two
4096-vectors), rounds to bf16 and stores the whole (256, 4096) block of the first result; then does the
same with the second array's block and the other two vectors for the second result.  Nothing is carried
from one block to the next: after the body each input buffer still holds its block and each result
buffer holds a function of the input blocks alone.
-/

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not (an unfetched
    window's block index has not moved), for any proof data over the entry arrays whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not (an unfetched
    window's block index has not moved), for any proof data over the entry arrays whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not (an unfetched
    window's block index has not moved), for any proof data over the entry arrays whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not (an unfetched
    window's block index has not moved), for any proof data over the entry arrays whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not (an unfetched
    window's block index has not moved), for any proof data over the entry arrays whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not (an unfetched
    window's block index has not moved), for any proof data over the entry arrays whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole (256, 4096) block: every row-block load and store of the body is through it. -/
abbrev lnRowsRect : Rect S256x4096 := Rect.unit (s := S256x4096) ![0, 0] S256x4096.size inb_S256x4096_S256x4096_0_0
/-- The whole 4096-vector: the scale and shift loads. -/
abbrev lnColsRect : Rect S4096 := Rect.unit (s := S4096) ![0] S4096.size inb_S4096_S4096_0

/-! ## What the body leaves in each result buffer -/

/-- The first result's buffer after the body: the one whole-block store of the first array's block
    normalised row by row, scaled by `g` and shifted by `b`, rounded to bf16. -/
def out0_6 (x : Vec F S256x4096 .f32) (g : Vec F S4096 .f32) (b : Vec F S4096 .f32) : Vec F S256x4096 .bf16 :=
  View.canon [⟨lnRowsRect, k0_pay2 (View.ld x lnRowsRect) (View.ld g lnColsRect) (View.ld b lnColsRect)⟩]

/-- The second result's buffer after the body: the same of the second array's block, whose row means
    and row variances the body computes first (`k0_pay3`, `k0_pay4`), with the other two vectors. -/
def out0_7 (y : Vec F S256x4096 .f32) (g : Vec F S4096 .f32) (b : Vec F S4096 .f32) : Vec F S256x4096 .bf16 :=
  View.canon [⟨lnRowsRect, k0_pay1 (View.ld y lnRowsRect) (k0_pay3 (View.ld y lnRowsRect)) (k0_pay4 (View.ld y lnRowsRect))
    (View.ld g lnColsRect) (View.ld b lnColsRect)⟩]

/-- One whole-block store covers the block. -/
theorem lnCoverRows (p : Vec F S256x4096 .bf16) (y : S256x4096.Idx) :
    ∃ pc ∈ ([⟨lnRowsRect, p⟩] : List (View.Piece (Elt F) S256x4096 .bf16)), y ∈ pc.1.set :=
  View.cover_of_tiled [⟨lnRowsRect, p⟩] S256x4096.size (by rfl) y

/-! ## The body's triple -/

set_option maxHeartbeats 4000000 in
/-- The body on whole buffers, the inputs' at contents `x0 … x5` and the results' at anything, runs to the
    continuation holding the inputs' as they were, the first result's at `out0_6 x0 x2 x3` and the second's at
    `out0_7 x1 x4 x5`. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S4096 .f32) (harg3 : arg3.IsWhole) (arg4 : Memref sig .tc .vmem S4096 .f32) (harg4 : arg4.IsWhole) (arg5 : Memref sig .tc .vmem S4096 .f32) (harg5 : arg5.IsWhole) (arg6 : Memref sig .tc .vmem S4096 .f32) (harg6 : arg6.IsWhole) (arg7 : Memref sig .tc .vmem S256x4096 .bf16) (harg7 : arg7.IsWhole) (arg8 : Memref sig .tc .vmem S256x4096 .bf16) (harg8 : arg8.IsWhole)
    (x0 : Vec F S256x4096 .f32) (x1 : Vec F S256x4096 .f32) (x2 : Vec F S4096 .f32) (x3 : Vec F S4096 .f32) (x4 : Vec F S4096 .f32) (x5 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__ln_kernel i arg1 harg1 arg2 harg2 arg3 harg3 arg4 harg4 arg5 harg5 arg6 harg6 arg7 harg7 arg8 harg8) K := by
  simp only [cc0__ln_kernel_eq_skeleton]; unfold cc0__ln_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (lnCoverRows _)
  iexists _; isplitr
  swap; · iexact H7
  ipureintro
  try dsimp only
  exact View.read_writes_eq_canon _ _ _ (lnCoverRows _)

/-! ## The pipeline's proof data -/

/-- The proof data of the call on core `c`: the arrays as the call finds them; after the body at point `t`
    each input's buffer at its block, the first result's at `out0_6` and the second's at `out0_7` of the input
    blocks; the invariant only the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- The invariant is the same at every point: at the first it is the entry's, -/
theorem Phi_first0 (c : Dev nD) : (dat0 V c).Φ 0 = Pipeline.ΦA spec0 c := rfl
/-- and at the last it gives the exit's back. -/
theorem Phi_last0 (c : Dev nD) : (dat0 V c).Φ (Fin.last cfg0.N) ⊢ Pipeline.ΦA spec0 c := .rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
/-- The first result's buffer after the body at point `t`: the normalised first block. -/
theorem after0_6 (c : Dev nD) (t : Fin cfg0.N) :
    (dat0 V c).after 6 t = out0_6 (iblk0 V c 0 t) (iblk0 V c 2 t) (iblk0 V c 3 t) := by dsimp only [dat0]
/-- The second result's buffer after the body at point `t`: the normalised second block. -/
theorem after0_7 (c : Dev nD) (t : Fin cfg0.N) :
    (dat0 V c).after 7 t = out0_7 (iblk0 V c 1 t) (iblk0 V c 4 t) (iblk0 V c 5 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pipe

end
-- ==== Proof.GateRuns.lean ====
/- The gating region (grid 32 × 16: row block i, reduction step k). At every step the kernel adds to a
   (256,4096) f32 accumulator the products of a 256-column slice of the two normalised row blocks with the
   step's blocks of the two halves of the first weight matrix; the accumulator is set to zero at k = 0; at
   k = 15 the epilogue (bias, relu, the 4096 × 2 product, softmax over the two columns, the convex
   combination of the two row blocks) is stored into the output block. This module holds what the three
   control cases (k = 0; 0 < k < 15; k = 15) share: the input blocks, the two branch conditions in closed
   form, where the output block is left untouched, and the region invariant split at the accumulator. -/
import proofs.«114173_j69518340653173_2_alg».proof.Proof.Gen.KernelIdeal.Launch
import proofs.«114173_j69518340653173_2_alg».proof.Proof.Gen.KernelIdeal.Skeleton
import proofs.«114173_j69518340653173_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The two branch conditions, in closed form -/

/-- The condition under which the accumulator is zeroed: the reduction step is the first (k = 0). -/
abbrev atFirstK (i : grid1.Coords) : Prop := (Scalar.cmpi .ne (Scalar.extui (Scalar.cmpi .eq (BitVec.ofNat 32 (i 1).val) 0#32)) 0#32) = 1#1
/-- It holds exactly at the points whose position is ≡ 0 (mod 16). -/
theorem atFirstK_iff : ∀ t : Fin cfg1.N, atFirstK (grid1.coords t) ↔ t.val % 16 = 0 :=
  (by decide +kernel : ∀ t : Fin grid1.N, atFirstK (grid1.coords t) ↔ t.val % 16 = 0)

/-- The condition under which the epilogue runs: the reduction step is the last (k = 15). -/
abbrev atLastK (i : grid1.Coords) : Prop := k1_cond2 i = 1#1
/-- It holds exactly at the points whose position is ≡ 15 (mod 16). -/
theorem atLastK_iff : ∀ t : Fin cfg1.N, atLastK (grid1.coords t) ↔ t.val % 16 = 15 :=
  (by decide +kernel : ∀ t : Fin grid1.N, atLastK (grid1.coords t) ↔ t.val % 16 = 15)

/-! ## Where the output block is stored -/

/-- Before the last reduction step nothing is stored into the output block: at k = 0, -/
theorem fusedIdle_first : ∀ t : Fin cfg1.N, atFirstK (grid1.coords t) → ¬atLastK (grid1.coords t) → cfg1.idle 7 (grid1.coords t) = true := by decide +kernel
/-- where it is not written back either; -/
theorem fusedKept_first : ∀ t : Fin cfg1.N, atFirstK (grid1.coords t) → ¬atLastK (grid1.coords t) → (cfg1.win 7).flush t = false := by decide +kernel
/-- at 0 < k < 15, -/
theorem fusedIdle_mid : ∀ t : Fin cfg1.N, ¬atFirstK (grid1.coords t) → ¬atLastK (grid1.coords t) → cfg1.idle 7 (grid1.coords t) = true := by decide +kernel
/-- likewise. -/
theorem fusedKept_mid : ∀ t : Fin cfg1.N, ¬atFirstK (grid1.coords t) → ¬atLastK (grid1.coords t) → (cfg1.win 7).flush t = false := by decide +kernel
/-- At k = 15 the epilogue stores it. -/
theorem fusedLive_last : ∀ t : Fin cfg1.N, ¬atFirstK (grid1.coords t) → atLastK (grid1.coords t) → cfg1.idle 7 (grid1.coords t) = false := by decide +kernel

/-! ## The memrefs the body is called on -/

/-- One staging buffer of the output block, through which its contents are stated. -/
abbrev fusedV : View sig .tc .vmem S256x4096 .bf16 := (Memref.whole cc1_stg7_0 : Memref sig .tc .vmem S256x4096 .bf16).view
/-- The accumulator: a whole buffer of the kernel's own, passed beside the windows, -/
abbrev accM : Memref sig .tc .vmem S256x4096 .f32 := Memref.whole cc1_scratch0
/-- and as a view. -/
abbrev accV : View sig .tc .vmem S256x4096 .f32 := (accM).view

/-- Each window's current staging memref at point `t`, and that it is whole. -/
abbrev buf1_0 (t : Fin cfg1.N) : Memref sig .tc .vmem S256x4096 .bf16 := win1_0.stage (cfg1.slots t 0)
abbrev whole1_0 (t : Fin cfg1.N) : (buf1_0 t).IsWhole := hstage1_0 ((cfg1.slots t 0).cast nbuf1_0)
abbrev buf1_1 (t : Fin cfg1.N) : Memref sig .tc .vmem S256x4096 .bf16 := win1_1.stage (cfg1.slots t 1)
abbrev whole1_1 (t : Fin cfg1.N) : (buf1_1 t).IsWhole := hstage1_1 ((cfg1.slots t 1).cast nbuf1_1)
abbrev buf1_2 (t : Fin cfg1.N) : Memref sig .tc .vmem S256x4096 .bf16 := win1_2.stage (cfg1.slots t 2)
abbrev whole1_2 (t : Fin cfg1.N) : (buf1_2 t).IsWhole := hstage1_2 ((cfg1.slots t 2).cast nbuf1_2)
abbrev buf1_3 (t : Fin cfg1.N) : Memref sig .tc .vmem S256x4096 .bf16 := win1_3.stage (cfg1.slots t 3)
abbrev whole1_3 (t : Fin cfg1.N) : (buf1_3 t).IsWhole := hstage1_3 ((cfg1.slots t 3).cast nbuf1_3)
abbrev buf1_4 (t : Fin cfg1.N) : Memref sig .tc .vmem S4096x2 .f32 := win1_4.stage (cfg1.slots t 4)
abbrev whole1_4 (t : Fin cfg1.N) : (buf1_4 t).IsWhole := hstage1_4 ((cfg1.slots t 4).cast nbuf1_4)
abbrev buf1_5 (t : Fin cfg1.N) : Memref sig .tc .vmem S4096 .f32 := win1_5.stage (cfg1.slots t 5)
abbrev whole1_5 (t : Fin cfg1.N) : (buf1_5 t).IsWhole := hstage1_5 ((cfg1.slots t 5).cast nbuf1_5)
abbrev buf1_6 (t : Fin cfg1.N) : Memref sig .tc .vmem S2 .f32 := win1_6.stage (cfg1.slots t 6)
abbrev whole1_6 (t : Fin cfg1.N) : (buf1_6 t).IsWhole := hstage1_6 ((cfg1.slots t 6).cast nbuf1_6)
abbrev buf1_7 (t : Fin cfg1.N) : Memref sig .tc .vmem S256x4096 .bf16 := win1_7.stage (cfg1.slots t 7)
abbrev whole1_7 (t : Fin cfg1.N) : (buf1_7 t).IsWhole := hstage1_7 ((cfg1.slots t 7).cast nbuf1_7)

/-! ## The region invariant, split at the accumulator -/

/-- The core's scoped buffers that are no staging buffer of this region, other than the accumulator: the other
    regions' staging buffers and accumulator, at some contents each, never opened here. -/
abbrev others (c : Dev nD) : sProp 𝕄 :=
  Pipeline.scopedRestBut (Ix := Unit) (Name := ℕ) (U := UR sig nD τ) (Lvl := ℕ) (Val := Elt F) spec1 c [cc1_scratch0]

/-- The scoped rest of this region is the accumulator at some contents and the others. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ others (F := F) c) :=
  Pipeline.scopedRest_split_of_list spec1 c [cc1_scratch0] (by decide) (by decide)

/-- What the region is entered with: the accumulator as a memref owned at some contents, the others, and the
    generator register at some state. -/
theorem PhiA1_eq (c : Dev nD) :
    (Pipeline.ΦA spec1 c : sProp 𝕄)
      = iprop(iprop((∃ d, owns (c : Thread nD τ) accM fullShare d) ∗ others (F := F) c) ∗ (∃ r, prngReg c r)) := by
  unfold Pipeline.ΦA; rw [scopedRest1_split]; simp only [accM, owns_whole]; try rfl

end Cert.KernelIdeal.Pipe

end
-- ==== Proof.GateRunA.lean ====
/- The gating kernel's body at the first reduction step (k = 0), run whole. -/
import proofs.«114173_j69518340653173_2_alg».proof.Proof.GateRuns

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At k = 0 (and not k = 15): on whole memrefs — the seven inputs at their contents, the output block at contents handed
    back untouched, the accumulator at anything — the body runs to the continuation holding the inputs and the output
    as they were and the accumulator with its pieces written: the zero fill, then the zero fill read back plus the two
    slice products. The pieces are the witness the run finds. -/
noncomputable def gateRunFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) :
    Σ' (L7 : List (View.Piece (Elt F) S256x4096 .bf16)), { LS : List (View.Piece (Elt F) S256x4096 .f32) //
      ∀ (xi7 : Vec F S256x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Pipe

end
-- ==== Proof.GateRunB.lean ====
/- The gating kernel's body at a middle reduction step (0 < k < 15), run whole. -/
import proofs.«114173_j69518340653173_2_alg».proof.Proof.GateRuns

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At 0 < k < 15: on whole memrefs — the seven inputs at their contents, the output block at contents handed back
    untouched, the accumulator at what the step before left — the body runs to the continuation holding the inputs
    and the output as they were and the accumulator with its piece written: what it held plus the two slice products.
    The pieces are the witness the run finds. -/
noncomputable def gateRunMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) :
    Σ' (L7 : List (View.Piece (Elt F) S256x4096 .bf16)), { LS : List (View.Piece (Elt F) S256x4096 .f32) //
      ∀ (xi7 : Vec F S256x4096 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Pipe

end
-- ==== Proof.GateRunC.lean ====
/- The gating kernel's body at the last reduction step (k = 15), run whole. -/
import proofs.«114173_j69518340653173_2_alg».proof.Proof.GateRuns

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At k = 15: on whole memrefs — the seven inputs at their contents, the output block at anything, the accumulator at
    what the step before left — the body runs to the continuation holding the inputs as they were, the accumulator with
    its piece written (what it held plus the two slice products) and the output block with the epilogue's piece written
    (bias, relu, the product with the second weight matrix, softmax over its two columns, the combination of the two row
    blocks by those weights). The pieces are the witness the run finds. -/
noncomputable def gateRunLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) :
    Σ' (L7 : List (View.Piece (Elt F) S256x4096 .bf16)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__gate_kernel i arg2 harg2 arg3 harg3 arg4 harg4 arg5 harg5 arg6 harg6 arg7 harg7 arg8 harg8 arg9 harg9 arg10 harg10) K } := by
  refine ⟨?_, ?_, fun E K => ?run⟩
  case run =>
    simp only [cc1__gate_kernel_eq_skeleton]; unfold cc1__gate_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Pipe

end
-- ==== Proof.GateRegion.lean ====
/- The gating region's proof data and body obligation. After the body at position n the accumulator holds the sum over
   the reduction steps so far (of the row-block slices' products with the weight blocks) for the current row block, and the
   output block holds the epilogue of that sum once the last step has run; between row blocks the accumulator is reset.
   This is stated point by point (`outsAt1`, by recursion on the position), carried by the region invariant, and the
   body's triple at a point is its case's whole-body run. -/
import proofs.«114173_j69518340653173_2_alg».proof.Proof.GateRunA
import proofs.«114173_j69518340653173_2_alg».proof.Proof.GateRunB
import proofs.«114173_j69518340653173_2_alg».proof.Proof.GateRunC

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- Input window 0's current staging buffer holds its block at every point, fetched there or not (unfetched, the block
    index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 0 is never idle. -/
theorem inputLive1_0 : ∀ t : Fin cfg1.N, cfg1.idle 0 (grid1.coords t) = false := fun _ => rfl

/-- Input window 1's current staging buffer holds its block at every point, fetched there or not (unfetched, the block
    index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 1 is never idle. -/
theorem inputLive1_1 : ∀ t : Fin cfg1.N, cfg1.idle 1 (grid1.coords t) = false := fun _ => rfl

/-- Input window 2's current staging buffer holds its block at every point, fetched there or not (unfetched, the block
    index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 2 is never idle. -/
theorem inputLive1_2 : ∀ t : Fin cfg1.N, cfg1.idle 2 (grid1.coords t) = false := fun _ => rfl

/-- Input window 3's current staging buffer holds its block at every point, fetched there or not (unfetched, the block
    index has not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 3 is never idle. -/
theorem inputLive1_3 : ∀ t : Fin cfg1.N, cfg1.idle 3 (grid1.coords t) = false := fun _ => rfl

/-- Input window 4's current staging buffer holds its block at every point, fetched there or not (unfetched, the block
    index has not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 4 is never idle. -/
theorem inputLive1_4 : ∀ t : Fin cfg1.N, cfg1.idle 4 (grid1.coords t) = false := fun _ => rfl

/-- Input window 5's current staging buffer holds its block at every point, fetched there or not (unfetched, the block
    index has not moved), for any proof data whose array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 5 is never idle. -/
theorem inputLive1_5 : ∀ t : Fin cfg1.N, cfg1.idle 5 (grid1.coords t) = false := fun _ => rfl

/-- Input window 6's current staging buffer holds its block at every point, fetched there or not (unfetched, the block
    index has not moved), for any proof data whose array is the entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 6 is never idle. -/
theorem inputLive1_6 : ∀ t : Fin cfg1.N, cfg1.idle 6 (grid1.coords t) = false := fun _ => rfl

/-! ## What each case leaves -/

/-- At the first reduction step nothing is stored into the output block (no pieces): a placeholder nothing consults, the block being
    neither written back nor read at these points. -/
def fusedFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) : Vec F S256x4096 .bf16 :=
  fusedV.read (Elt F) (fusedV.writes (Elt F) fusedV.junk (gateRunFirst c i arg2 harg2 arg3 harg3 arg4 harg4 arg5 harg5 arg6 harg6 arg7 harg7 arg8 harg8 arg9 harg9 arg10 harg10 hc0 hc1 x0 x1 x2 x3 x4 x5 x6).1)

/-- At the first reduction step the stores into the accumulator are whole, so their pieces cover it. -/
theorem accCoverFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) (y : S256x4096.Idx) :
    ∃ pc ∈ (gateRunFirst c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (gateRunFirst c i arg2 harg2 arg3 harg3 arg4 harg4 arg5 harg5 arg6 harg6 arg7 harg7 arg8 harg8 arg9 harg9 arg10 harg10 hc0 hc1 x0 x1 x2 x3 x4 x5 x6).2.1 S256x4096.size (by sl_kernel_rfl) y

/-- What the first reduction step leaves in the accumulator: its pieces read back. -/
def accFirst (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) : Vec F S256x4096 .f32 :=
  accV.read (Elt F) (accV.writes (Elt F) accV.junk (gateRunFirst c i arg2 harg2 arg3 harg3 arg4 harg4 arg5 harg5 arg6 harg6 arg7 harg7 arg8 harg8 arg9 harg9 arg10 harg10 hc0 hc1 x0 x1 x2 x3 x4 x5 x6).2.1)

/-- At a middle reduction step nothing is stored into the output block (no pieces): a placeholder nothing consults, the block being
    neither written back nor read at these points. -/
def fusedMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) : Vec F S256x4096 .bf16 :=
  fusedV.read (Elt F) (fusedV.writes (Elt F) fusedV.junk (gateRunMid c i arg2 harg2 arg3 harg3 arg4 harg4 arg5 harg5 arg6 harg6 arg7 harg7 arg8 harg8 arg9 harg9 arg10 harg10 hc0 hc1 x0 x1 x2 x3 x4 x5 x6 xs).1)

/-- At a middle reduction step the stores into the accumulator are whole, so their pieces cover it. -/
theorem accCoverMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) (y : S256x4096.Idx) :
    ∃ pc ∈ (gateRunMid c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (gateRunMid c i arg2 harg2 arg3 harg3 arg4 harg4 arg5 harg5 arg6 harg6 arg7 harg7 arg8 harg8 arg9 harg9 arg10 harg10 hc0 hc1 x0 x1 x2 x3 x4 x5 x6 xs).2.1 S256x4096.size (by sl_kernel_rfl) y

/-- What a middle reduction step leaves in the accumulator: its pieces read back. -/
def accMid (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) : Vec F S256x4096 .f32 :=
  accV.read (Elt F) (accV.writes (Elt F) accV.junk (gateRunMid c i arg2 harg2 arg3 harg3 arg4 harg4 arg5 harg5 arg6 harg6 arg7 harg7 arg8 harg8 arg9 harg9 arg10 harg10 hc0 hc1 x0 x1 x2 x3 x4 x5 x6 xs).2.1)

/-- At the last reduction step the epilogue's store tiles the output block, so its pieces cover it. -/
theorem fusedCoverLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) (y : S256x4096.Idx) :
    ∃ pc ∈ (gateRunLast c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (gateRunLast c i arg2 harg2 arg3 harg3 arg4 harg4 arg5 harg5 arg6 harg6 arg7 harg7 arg8 harg8 arg9 harg9 arg10 harg10 hc0 hc1 x0 x1 x2 x3 x4 x5 x6 xs).1 S256x4096.size (by sl_kernel_rfl) y

/-- What the last reduction step leaves in the output block: the epilogue's piece read back. -/
def fusedLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) : Vec F S256x4096 .bf16 :=
  fusedV.read (Elt F) (fusedV.writes (Elt F) fusedV.junk (gateRunLast c i arg2 harg2 arg3 harg3 arg4 harg4 arg5 harg5 arg6 harg6 arg7 harg7 arg8 harg8 arg9 harg9 arg10 harg10 hc0 hc1 x0 x1 x2 x3 x4 x5 x6 xs).1)

/-- At the last reduction step the stores into the accumulator are whole, so their pieces cover it. -/
theorem accCoverLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) (y : S256x4096.Idx) :
    ∃ pc ∈ (gateRunLast c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (gateRunLast c i arg2 harg2 arg3 harg3 arg4 harg4 arg5 harg5 arg6 harg6 arg7 harg7 arg8 harg8 arg9 harg9 arg10 harg10 hc0 hc1 x0 x1 x2 x3 x4 x5 x6 xs).2.1 S256x4096.size (by sl_kernel_rfl) y

/-- What the last reduction step leaves in the accumulator: its pieces read back. -/
def accLast (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) : Vec F S256x4096 .f32 :=
  accV.read (Elt F) (accV.writes (Elt F) accV.junk (gateRunLast c i arg2 harg2 arg3 harg3 arg4 harg4 arg5 harg5 arg6 harg6 arg7 harg7 arg8 harg8 arg9 harg9 arg10 harg10 hc0 hc1 x0 x1 x2 x3 x4 x5 x6 xs).2.1)

/-! ## What the output block and the accumulator hold after each point -/

/-- THE ACCUMULATION. After the body at position `n`: (the output block's staging buffer, the accumulator). At k = 0 the
    accumulator restarts from zero; at k > 0 it is the step's sum over what position `n - 1` left; at k = 15 the output block
    is the epilogue of that. Both conditions at once is no case. -/
def outsAt1 (c : Dev nD) : (n : ℕ) → n < cfg1.N → Vec F S256x4096 .bf16 × Vec F S256x4096 .f32
  | 0, hn => (fusedFirst c (grid1.coords ⟨0, hn⟩) (buf1_0 ⟨0, hn⟩) (whole1_0 ⟨0, hn⟩) (buf1_1 ⟨0, hn⟩) (whole1_1 ⟨0, hn⟩) (buf1_2 ⟨0, hn⟩) (whole1_2 ⟨0, hn⟩) (buf1_3 ⟨0, hn⟩) (whole1_3 ⟨0, hn⟩) (buf1_4 ⟨0, hn⟩) (whole1_4 ⟨0, hn⟩) (buf1_5 ⟨0, hn⟩) (whole1_5 ⟨0, hn⟩) (buf1_6 ⟨0, hn⟩) (whole1_6 ⟨0, hn⟩) (buf1_7 ⟨0, hn⟩) (whole1_7 ⟨0, hn⟩) accM (Memref.isWhole_whole _) ((atFirstK_iff ⟨0, hn⟩).mpr (Nat.zero_mod _)) (fun h => (fun h => by (try dsimp only at h); omega) ((atLastK_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), accFirst c (grid1.coords ⟨0, hn⟩) (buf1_0 ⟨0, hn⟩) (whole1_0 ⟨0, hn⟩) (buf1_1 ⟨0, hn⟩) (whole1_1 ⟨0, hn⟩) (buf1_2 ⟨0, hn⟩) (whole1_2 ⟨0, hn⟩) (buf1_3 ⟨0, hn⟩) (whole1_3 ⟨0, hn⟩) (buf1_4 ⟨0, hn⟩) (whole1_4 ⟨0, hn⟩) (buf1_5 ⟨0, hn⟩) (whole1_5 ⟨0, hn⟩) (buf1_6 ⟨0, hn⟩) (whole1_6 ⟨0, hn⟩) (buf1_7 ⟨0, hn⟩) (whole1_7 ⟨0, hn⟩) accM (Memref.isWhole_whole _) ((atFirstK_iff ⟨0, hn⟩).mpr (Nat.zero_mod _)) (fun h => (fun h => by (try dsimp only at h); omega) ((atLastK_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 16 = 0 then
      if h1 : (n + 1) % 16 = 15 then
        False.elim (by omega)
      else
        (fusedFirst c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) ((atFirstK_iff ⟨n + 1, hn⟩).mpr h0) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), accFirst c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) ((atFirstK_iff ⟨n + 1, hn⟩).mpr h0) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 16 = 15 then
        (fusedLast c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) ((atLastK_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, accLast c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) ((atLastK_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (fusedMid c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, accMid c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) (buf1_5 ⟨n + 1, hn⟩) (whole1_5 ⟨n + 1, hn⟩) (buf1_6 ⟨n + 1, hn⟩) (whole1_6 ⟨n + 1, hn⟩) (buf1_7 ⟨n + 1, hn⟩) (whole1_7 ⟨n + 1, hn⟩) accM (Memref.isWhole_whole _) (fun h => h0 ((atFirstK_iff ⟨n + 1, hn⟩).mp h)) (fun h => h1 ((atLastK_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)

/-- `outsAt1` at a point with k = 0. -/
theorem outsAt1_first (c : Dev nD) (t : Fin cfg1.N) (h0 : t.val % 16 = 0) (h1 : ¬t.val % 16 = 15) :
    outsAt1 V c t.val t.isLt = (fusedFirst c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t), accFirst c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

/-- `outsAt1` at a point with 0 < k < 15: over what the point before left. -/
theorem outsAt1_mid (c : Dev nD) (t : Fin cfg1.N) (h0 : ¬t.val % 16 = 0) (h1 : ¬t.val % 16 = 15) :
    outsAt1 V c t.val t.isLt = (fusedMid c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, accMid c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point with k = 15: over what the point before left. -/
theorem outsAt1_last (c : Dev nD) (t : Fin cfg1.N) (h0 : ¬t.val % 16 = 0) (h1 : t.val % 16 = 15) :
    outsAt1 V c t.val t.isLt = (fusedLast c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, accLast c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the region's entry what the launch hands it (every scoped buffer at anything); afterwards the
    accumulator at what the point before left in it, the other scoped buffers at anything, the generator register at
    some state. -/
def PhiS1 (c : Dev nD) : (n : ℕ) → n ≤ cfg1.N → sProp 𝕄
  | 0, _ => Pipeline.ΦA spec1 c
  | n + 1, hn => iprop(iprop(owns (c : Thread nD τ) accM fullShare ((outsAt1 V c n hn).2) ∗ others (F := F) c) ∗ (∃ r, prngReg c r))

theorem PhiS1_zero (c : Dev nD) (n : ℕ) (h : n ≤ cfg1.N) (hz : n = 0) : PhiS1 V c n h = Pipeline.ΦA spec1 c := by
  subst hz; rfl

/-- After point `n`: the accumulator at that point's contents. -/
theorem PhiS1_succ (c : Dev nD) (n : ℕ) (hn : n < cfg1.N) :
    PhiS1 V c (n + 1) hn = iprop(iprop(owns (c : Thread nD τ) accM fullShare ((outsAt1 V c n hn).2) ∗ others (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) accM fullShare ((outsAt1 V c (n - 1) (by omega)).2) ∗ others (F := F) c) ∗ (∃ r, prngReg c r)) := by
  cases n with
  | zero => exact absurd rfl hz
  | succ n => rfl

/-! ## The proof data -/

/-- The region's proof data on core `c`: the arrays as the region finds them; after the body at point `t` each input's
    buffer at its block and the output block's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
/-- The output block after point `t`: the epilogue's value at k = 15 (`outsAt1_last`, `fusedLast`), a placeholder elsewhere. -/
theorem after1_7 (c : Dev nD) (t : Fin cfg1.N) : (dat1 V c).after 7 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d))
    ∗ (∃ d, owns (c : Thread nD τ) (buf1_3 t) fullShare ((dat1 V c).before 3 t d))
    ∗ (∃ d, owns (c : Thread nD τ) (buf1_4 t) fullShare ((dat1 V c).before 4 t d))
    ∗ (∃ d, owns (c : Thread nD τ) (buf1_5 t) fullShare ((dat1 V c).before 5 t d))
    ∗ (∃ d, owns (c : Thread nD τ) (buf1_6 t) fullShare ((dat1 V c).before 6 t d))
    ∗ (∃ d, owns (c : Thread nD τ) (buf1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point. The inputs' buffers hold their blocks; the position's residue mod 16 says which case it is in, and
    that case's run applies: the invariant hands it the accumulator (at anything at the region's first point, at what the
    point before left otherwise) and takes it back at this point's contents, the pieces covering it; before the last step
    the output block's buffer goes back as found, at the last step with the epilogue's piece, which covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 16 = 0
  · by_cases h1 : t.val % 16 = 15
    · exfalso; omega
    ·
      rw [show (dat1 V c).leavesExact 0 t = owns (c : Thread nD τ) (buf1_0 t) fullShare ((dat1 V c).after 0 t) from by
        unfold Dat.leavesExact; rw [inputLive1_0 t], after1_0]
      rw [show (dat1 V c).leavesExact 1 t = owns (c : Thread nD τ) (buf1_1 t) fullShare ((dat1 V c).after 1 t) from by
        unfold Dat.leavesExact; rw [inputLive1_1 t], after1_1]
      rw [show (dat1 V c).leavesExact 2 t = owns (c : Thread nD τ) (buf1_2 t) fullShare ((dat1 V c).after 2 t) from by
        unfold Dat.leavesExact; rw [inputLive1_2 t], after1_2]
      rw [show (dat1 V c).leavesExact 3 t = owns (c : Thread nD τ) (buf1_3 t) fullShare ((dat1 V c).after 3 t) from by
        unfold Dat.leavesExact; rw [inputLive1_3 t], after1_3]
      rw [show (dat1 V c).leavesExact 4 t = owns (c : Thread nD τ) (buf1_4 t) fullShare ((dat1 V c).after 4 t) from by
        unfold Dat.leavesExact; rw [inputLive1_4 t], after1_4]
      rw [show (dat1 V c).leavesExact 5 t = owns (c : Thread nD τ) (buf1_5 t) fullShare ((dat1 V c).after 5 t) from by
        unfold Dat.leavesExact; rw [inputLive1_5 t], after1_5]
      rw [show (dat1 V c).leavesExact 6 t = owns (c : Thread nD τ) (buf1_6 t) fullShare ((dat1 V c).after 6 t) from by
        unfold Dat.leavesExact; rw [inputLive1_6 t], after1_6]
      rw [Dat.leavesExact_idle (dat1 V c) 7 t (fusedIdle_first t ((atFirstK_iff t).mpr h0) (fun h => h1 ((atLastK_iff t).mp h))) (fusedKept_first t ((atFirstK_iff t).mpr h0) (fun h => h1 ((atLastK_iff t).mp h)))]
      rw [outsAt1_first V c t h0 h1]
      unfold accFirst; (try dsimp only)
      by_cases hz : t.val = 0
      ·
        rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunFirst c (grid1.coords t) _ _ _ _ _ _ _ _ _ _ _ _ _ _ _ _ _ _ ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      ·
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunFirst c (grid1.coords t) _ _ _ _ _ _ _ _ _ _ _ _ _ _ _ _ _ _ ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexists _; iexact HS
        iintro ⟨H0, H1, H2, H3, H4, H5, H6, H7, ⟨%es, HS⟩⟩
        isplitl [HS HR Hg]
        · isplitl [HS HR]
          · isplitl [HS]
            · unfold owns; iexists _; isplitr
              swap; · iexact HS
              ipureintro; exact View.read_writes_of_cover _ _ _ _ _ (accCoverFirst c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 16 = 15
    ·
      rw [show (dat1 V c).leavesExact 0 t = owns (c : Thread nD τ) (buf1_0 t) fullShare ((dat1 V c).after 0 t) from by
        unfold Dat.leavesExact; rw [inputLive1_0 t], after1_0]
      rw [show (dat1 V c).leavesExact 1 t = owns (c : Thread nD τ) (buf1_1 t) fullShare ((dat1 V c).after 1 t) from by
        unfold Dat.leavesExact; rw [inputLive1_1 t], after1_1]
      rw [show (dat1 V c).leavesExact 2 t = owns (c : Thread nD τ) (buf1_2 t) fullShare ((dat1 V c).after 2 t) from by
        unfold Dat.leavesExact; rw [inputLive1_2 t], after1_2]
      rw [show (dat1 V c).leavesExact 3 t = owns (c : Thread nD τ) (buf1_3 t) fullShare ((dat1 V c).after 3 t) from by
        unfold Dat.leavesExact; rw [inputLive1_3 t], after1_3]
      rw [show (dat1 V c).leavesExact 4 t = owns (c : Thread nD τ) (buf1_4 t) fullShare ((dat1 V c).after 4 t) from by
        unfold Dat.leavesExact; rw [inputLive1_4 t], after1_4]
      rw [show (dat1 V c).leavesExact 5 t = owns (c : Thread nD τ) (buf1_5 t) fullShare ((dat1 V c).after 5 t) from by
        unfold Dat.leavesExact; rw [inputLive1_5 t], after1_5]
      rw [show (dat1 V c).leavesExact 6 t = owns (c : Thread nD τ) (buf1_6 t) fullShare ((dat1 V c).after 6 t) from by
        unfold Dat.leavesExact; rw [inputLive1_6 t], after1_6]
      rw [show (dat1 V c).leavesExact 7 t = owns (c : Thread nD τ) (buf1_7 t) fullShare ((dat1 V c).after 7 t) from by
        unfold Dat.leavesExact; rw [fusedLive_last t (fun h => h0 ((atFirstK_iff t).mp h)) ((atLastK_iff t).mpr h1)], after1_7]
      rw [outsAt1_last V c t h0 h1]
      unfold fusedLast accLast; (try dsimp only)
      by_cases hz : t.val = 0
      · exfalso; omega
      ·
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunLast c (grid1.coords t) _ _ _ _ _ _ _ _ _ _ _ _ _ _ _ _ _ _ (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS]; · iexact HS
        iintro ⟨H0, H1, H2, H3, H4, H5, H6, ⟨%e7, H7⟩, ⟨%es, HS⟩⟩
        isplitl [HS HR Hg]
        · isplitl [HS HR]
          · isplitl [HS]
            · unfold owns; iexists _; isplitr
              swap; · iexact HS
              ipureintro; exact View.read_writes_of_cover _ _ _ _ _ (accCoverLast c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (fusedCoverLast c _ _ _ _ _ _ _ _ _ _ _ _ _ _ _ _ _ _ _ _ _ _ _ _ _ _ _ _ _)
    ·
      rw [show (dat1 V c).leavesExact 0 t = owns (c : Thread nD τ) (buf1_0 t) fullShare ((dat1 V c).after 0 t) from by
        unfold Dat.leavesExact; rw [inputLive1_0 t], after1_0]
      rw [show (dat1 V c).leavesExact 1 t = owns (c : Thread nD τ) (buf1_1 t) fullShare ((dat1 V c).after 1 t) from by
        unfold Dat.leavesExact; rw [inputLive1_1 t], after1_1]
      rw [show (dat1 V c).leavesExact 2 t = owns (c : Thread nD τ) (buf1_2 t) fullShare ((dat1 V c).after 2 t) from by
        unfold Dat.leavesExact; rw [inputLive1_2 t], after1_2]
      rw [show (dat1 V c).leavesExact 3 t = owns (c : Thread nD τ) (buf1_3 t) fullShare ((dat1 V c).after 3 t) from by
        unfold Dat.leavesExact; rw [inputLive1_3 t], after1_3]
      rw [show (dat1 V c).leavesExact 4 t = owns (c : Thread nD τ) (buf1_4 t) fullShare ((dat1 V c).after 4 t) from by
        unfold Dat.leavesExact; rw [inputLive1_4 t], after1_4]
      rw [show (dat1 V c).leavesExact 5 t = owns (c : Thread nD τ) (buf1_5 t) fullShare ((dat1 V c).after 5 t) from by
        unfold Dat.leavesExact; rw [inputLive1_5 t], after1_5]
      rw [show (dat1 V c).leavesExact 6 t = owns (c : Thread nD τ) (buf1_6 t) fullShare ((dat1 V c).after 6 t) from by
        unfold Dat.leavesExact; rw [inputLive1_6 t], after1_6]
      rw [Dat.leavesExact_idle (dat1 V c) 7 t (fusedIdle_mid t (fun h => h0 ((atFirstK_iff t).mp h)) (fun h => h1 ((atLastK_iff t).mp h))) (fusedKept_mid t (fun h => h0 ((atFirstK_iff t).mp h)) (fun h => h1 ((atLastK_iff t).mp h)))]
      rw [outsAt1_mid V c t h0 h1]
      unfold accMid; (try dsimp only)
      by_cases hz : t.val = 0
      · exfalso; omega
      ·
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((gateRunMid c (grid1.coords t) _ _ _ _ _ _ _ _ _ _ _ _ _ _ _ _ _ _ (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS]; · iexact HS
        iintro ⟨H0, H1, H2, H3, H4, H5, H6, H7, ⟨%es, HS⟩⟩
        isplitl [HS HR Hg]
        · isplitl [HS HR]
          · isplitl [HS]
            · unfold owns; iexists _; isplitr
              swap; · iexact HS
              ipureintro; exact View.read_writes_of_cover _ _ _ _ _ (accCoverMid c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- Before the first point the invariant is what the launch hands the region. -/
theorem Phi_first1 (c : Dev nD) : (dat1 V c).Φ 0 = Pipeline.ΦA spec1 c := by
  rw [show (dat1 V c).Φ 0 = PhiS1 V c 0 (Nat.zero_le _) from rfl, PhiS1_zero V c 0 _ rfl]

/-- After any point the invariant gives that back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- In particular after the last point. -/
theorem Phi_last1 (c : Dev nD) : (dat1 V c).Φ (Fin.last cfg1.N) ⊢ Pipeline.ΦA spec1 c :=
  Phi_out1 V c _ (by rw [Fin.val_last]; have : cfg1.N = 512 := N_1; omega)

end Cert.KernelIdeal.Pipe

end
-- ==== Proof.FinalRuns.lean ====
/- The final linear layer, region 2: what its three control cases share.
   The grid is (32, 8); coordinate 1 (the reduction step k) of point t is t mod 8. At k = 0 the
   accumulator is zeroed before the step's product is added; at every k the accumulator gains the
   product of the (256,512) row block with the (512,4096) weight block; at k = 7 the bias is added
   and the sum is stored into the output block. -/
import proofs.«114173_j69518340653173_2_alg».proof.Proof.Gen.KernelIdeal.Launch
import proofs.«114173_j69518340653173_2_alg».proof.Proof.Gen.KernelIdeal.Skeleton
import proofs.«114173_j69518340653173_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Final
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block (window 0) is in its staging buffer at every point, for any proof data over the entry
    contents whose body leaves the block in place. -/
theorem rowsBefore_of2 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight block (window 1), likewise. -/
theorem weightBefore_of2 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias (window 2), fetched once and kept: likewise. -/
theorem biasBefore_of2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Final

/-! ## The two conditions on the reduction step -/

/-- "This is the first reduction step" (k = 0), as the body computes it from coordinate 1. -/
abbrev atFirst2 (i : grid2.Coords) : Prop := (Scalar.cmpi .ne (Scalar.extui (Scalar.cmpi .eq (BitVec.ofNat 32 (i 1).val) 0#32)) 0#32) = 1#1
/-- It holds exactly at the points ≡ 0 (mod 8). -/
theorem atFirst_iff2 : ∀ t : Fin cfg2.N, atFirst2 (grid2.coords t) ↔ t.val % 8 = 0 :=
  (by decide +kernel : ∀ t : Fin grid2.N, atFirst2 (grid2.coords t) ↔ t.val % 8 = 0)

/-- "This is the last reduction step" (k = 7). -/
abbrev atLast2 (i : grid2.Coords) : Prop := k2_cond2 i = 1#1
/-- It holds exactly at the points ≡ 7 (mod 8). -/
theorem atLast_iff2 : ∀ t : Fin cfg2.N, atLast2 (grid2.coords t) ↔ t.val % 8 = 7 :=
  (by decide +kernel : ∀ t : Fin grid2.N, atLast2 (grid2.coords t) ↔ t.val % 8 = 7)

/-! ## Where the output window is idle -/

theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
/-- Before the last step nothing is stored into the output block: the window is idle there, -/
theorem idle2_3 : ∀ t : Fin cfg2.N, ¬atLast2 (grid2.coords t) → cfg2.idle 3 (grid2.coords t) = true := by decide +kernel
/-- and the block is not written back there. -/
theorem noFlush2_3 : ∀ t : Fin cfg2.N, ¬atLast2 (grid2.coords t) → (cfg2.win 3).flush t = false := by decide +kernel
/-- At the last step the output block is stored. -/
theorem live2_3 : ∀ t : Fin cfg2.N, atLast2 (grid2.coords t) → cfg2.idle 3 (grid2.coords t) = false := by decide +kernel

/-! ## The memrefs the body is called with -/

/-- One staging buffer of the output window, through which its contents are stated. -/
abbrev outView2 : View sig .tc .vmem S256x4096 .f32 := (Memref.whole cc2_stg3_0 : Memref sig .tc .vmem S256x4096 .f32).view
abbrev ms2_0 (t : Fin cfg2.N) : Memref sig .tc .vmem S256x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev accM2 : Memref sig .tc .vmem S256x4096 .f32 := Memref.whole cc2_scratch0
abbrev accView2 : View sig .tc .vmem S256x4096 .f32 := accM2.view

/-- The region invariant with the accumulator as a memref owned at some contents, beside the rest
    of the scoped buffers (unopened) and the generator register. -/
theorem PhiA2_eq (c : Dev nD) :
    (Pipeline.ΦA spec2 c : sProp 𝕄)
      = iprop(iprop(iprop((∃ d, owns (c : Thread nD τ) accM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [accM2, owns_whole]; try rfl

end Cert.KernelIdeal.Pipe

end
-- ==== Proof.FinalRunA.lean ====
/- The final linear layer at the first reduction step (k = 0): the accumulator is zeroed, then
   gains the step's product; the output block is not touched. -/
import proofs.«114173_j69518340653173_2_alg».proof.Proof.FinalRuns

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a first step, on whole memrefs: the three inputs at their contents, the output's
    buffer at contents handed back untouched, the accumulator at anything. It runs to the
    continuation holding the inputs and the output's buffer as they were and the accumulator with
    its pieces `LS` written (last first): the zero store, then the sum of the zeros with the
    step's product. The pieces are the witness the run finds. -/
noncomputable def runFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i)
    (x0 : Vec F S256x512 .bf16) (x1 : Vec F S512x4096 .bf16) (x2 : Vec F S4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Pipe

end
-- ==== Proof.FinalRunB.lean ====
/- The final linear layer at a middle reduction step (0 < k < 7): the accumulator gains the
   step's product; the output block is not touched. -/
import proofs.«114173_j69518340653173_2_alg».proof.Proof.FinalRuns

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a middle step, on whole memrefs: the three inputs at their contents, the output's
    buffer at contents handed back untouched, the accumulator at what the step before left
    (`xs`). It runs to the continuation holding the inputs and the output's buffer as they were and
    the accumulator with its one piece written: `xs` plus the step's product. -/
noncomputable def runMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i)
    (x0 : Vec F S256x512 .bf16) (x1 : Vec F S512x4096 .bf16) (x2 : Vec F S4096 .f32) (xs : Vec F S256x4096 .f32) :
    Σ' (L3 : List (View.Piece (Elt F) S256x4096 .f32)), { LS : List (View.Piece (Elt F) S256x4096 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨[], ?_, fun xi3 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Pipe

end
-- ==== Proof.FinalRunC.lean ====
/- The final linear layer at the last reduction step (k = 7): the accumulator gains the step's
   product, and the accumulator plus the bias (broadcast along the rows) is stored into the
   output block. -/
import proofs.«114173_j69518340653173_2_alg».proof.Proof.FinalRuns

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a last step, on whole memrefs: the three inputs at their contents, the output's
    buffer at anything, the accumulator at what the step before left (`xs`). It runs to the
    continuation holding the inputs as they were, the output's buffer with its piece `L3` written
    (the final accumulator plus the bias) and the accumulator with its piece `LS` written. -/
noncomputable def runLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i)
    (x0 : Vec F S256x512 .bf16) (x1 : Vec F S512x4096 .bf16) (x2 : Vec F S4096 .f32) (xs : Vec F S256x4096 .f32) :
    Σ' (L3 : List (View.Piece (Elt F) S256x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__final_kernel i arg2 harg2 arg3 harg3 arg4 harg4 arg5 harg5 arg6 harg6) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Pipe

end
-- ==== Proof.FinalRegion.lean ====
/- The final linear layer, region 2: what the accumulator and the output block hold after every
   grid point, the proof data of the pipeline over the region-entry contents, and the body
   obligation. -/
import proofs.«114173_j69518340653173_2_alg».proof.Proof.FinalRunA
import proofs.«114173_j69518340653173_2_alg».proof.Proof.FinalRunB
import proofs.«114173_j69518340653173_2_alg».proof.Proof.FinalRunC

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A first step stores nothing into the output block: no pieces — a placeholder nothing consults, since
    at these points the window is neither written back nor read at the next point. -/
def outFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i) (x0 : Vec F S256x512 .bf16) (x1 : Vec F S512x4096 .bf16) (x2 : Vec F S4096 .f32) : Vec F S256x4096 .f32 :=
  outView2.read (Elt F) (outView2.writes (Elt F) outView2.junk (runFirst2 c i arg2 harg2 arg3 harg3 arg4 harg4 arg5 harg5 arg6 harg6 hc0 hc1 x0 x1 x2).1)

/-- A first step's stores into the accumulator cover it. -/
theorem accCoverFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i) (x0 : Vec F S256x512 .bf16) (x1 : Vec F S512x4096 .bf16) (x2 : Vec F S4096 .f32) (y : S256x4096.Idx) :
    ∃ pc ∈ (runFirst2 c i arg2 harg2 arg3 harg3 arg4 harg4 arg5 harg5 arg6 harg6 hc0 hc1 x0 x1 x2).2.1, y ∈ pc.1.set :=
  View.cover_of_tiledL (runFirst2 c i arg2 harg2 arg3 harg3 arg4 harg4 arg5 harg5 arg6 harg6 hc0 hc1 x0 x1 x2).2.1 S256x4096.size (by sl_kernel_rfl) y

/-- What a first step leaves in the accumulator. -/
def accFirst2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i) (x0 : Vec F S256x512 .bf16) (x1 : Vec F S512x4096 .bf16) (x2 : Vec F S4096 .f32) : Vec F S256x4096 .f32 :=
  accView2.read (Elt F) (accView2.writes (Elt F) accView2.junk (runFirst2 c i arg2 harg2 arg3 harg3 arg4 harg4 arg5 harg5 arg6 harg6 hc0 hc1 x0 x1 x2).2.1)

/-- A middle step stores nothing into the output block: no pieces — a placeholder nothing consults, since
    at these points the window is neither written back nor read at the next point. -/
def outMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i) (x0 : Vec F S256x512 .bf16) (x1 : Vec F S512x4096 .bf16) (x2 : Vec F S4096 .f32) (xs : Vec F S256x4096 .f32) : Vec F S256x4096 .f32 :=
  outView2.read (Elt F) (outView2.writes (Elt F) outView2.junk (runMiddle2 c i arg2 harg2 arg3 harg3 arg4 harg4 arg5 harg5 arg6 harg6 hc0 hc1 x0 x1 x2 xs).1)

/-- A middle step's stores into the accumulator cover it. -/
theorem accCoverMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i) (x0 : Vec F S256x512 .bf16) (x1 : Vec F S512x4096 .bf16) (x2 : Vec F S4096 .f32) (xs : Vec F S256x4096 .f32) (y : S256x4096.Idx) :
    ∃ pc ∈ (runMiddle2 c i arg2 harg2 arg3 harg3 arg4 harg4 arg5 harg5 arg6 harg6 hc0 hc1 x0 x1 x2 xs).2.1, y ∈ pc.1.set :=
  View.cover_of_tiledL (runMiddle2 c i arg2 harg2 arg3 harg3 arg4 harg4 arg5 harg5 arg6 harg6 hc0 hc1 x0 x1 x2 xs).2.1 S256x4096.size (by sl_kernel_rfl) y

/-- What a middle step leaves in the accumulator. -/
def accMiddle2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i) (x0 : Vec F S256x512 .bf16) (x1 : Vec F S512x4096 .bf16) (x2 : Vec F S4096 .f32) (xs : Vec F S256x4096 .f32) : Vec F S256x4096 .f32 :=
  accView2.read (Elt F) (accView2.writes (Elt F) accView2.junk (runMiddle2 c i arg2 harg2 arg3 harg3 arg4 harg4 arg5 harg5 arg6 harg6 hc0 hc1 x0 x1 x2 xs).2.1)

/-- The last step's one store into the output block covers it. -/
theorem outCoverLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) (y : S256x4096.Idx) :
    ∃ pc ∈ (runLast2 c i arg2 harg2 arg3 harg3 arg4 harg4 arg5 harg5 arg6 harg6 hc0 hc1 x0 x1 x2 xs).1, y ∈ pc.1.set :=
  View.cover_of_tiledL (runLast2 c i arg2 harg2 arg3 harg3 arg4 harg4 arg5 harg5 arg6 harg6 hc0 hc1 x0 x1 x2 xs).1 S256x4096.size (by sl_kernel_rfl) y

/-- What the last step leaves in the output block: the final accumulator plus the bias. -/
def outLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) : Vec F S256x4096 .f32 :=
  outView2.read (Elt F) (outView2.writes (Elt F) outView2.junk (runLast2 c i arg2 harg2 arg3 harg3 arg4 harg4 arg5 harg5 arg6 harg6 hc0 hc1 x0 x1 x2 xs).1)

/-- A last step's stores into the accumulator cover it. -/
theorem accCoverLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) (y : S256x4096.Idx) :
    ∃ pc ∈ (runLast2 c i arg2 harg2 arg3 harg3 arg4 harg4 arg5 harg5 arg6 harg6 hc0 hc1 x0 x1 x2 xs).2.1, y ∈ pc.1.set :=
  View.cover_of_tiledL (runLast2 c i arg2 harg2 arg3 harg3 arg4 harg4 arg5 harg5 arg6 harg6 hc0 hc1 x0 x1 x2 xs).2.1 S256x4096.size (by sl_kernel_rfl) y

/-- What a last step leaves in the accumulator. -/
def accLast2 (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i) (x0 : Vec F S256x512 .bf16) (x1 : Vec F S512x4096 .bf16) (x2 : Vec F S4096 .f32) (xs : Vec F S256x4096 .f32) : Vec F S256x4096 .f32 :=
  accView2.read (Elt F) (accView2.writes (Elt F) accView2.junk (runLast2 c i arg2 harg2 arg3 harg3 arg4 harg4 arg5 harg5 arg6 harg6 hc0 hc1 x0 x1 x2 xs).2.1)

section Final
variable (V : (c : Dev nD) → (b : Ref sig .tc) → Buf (Elt F) ((c : Thread nD τ).loc b))

/-! ## The accumulation, point by point -/

/-- What the output's staging buffer and the accumulator hold after the body at position `n` (a pair: the
    output block, then the accumulator): at k = 0 the zeroed accumulator plus the step's product; at 0 < k the
    accumulator of position `n - 1` plus the step's product; at k = 7 moreover the output block at that sum
    plus the bias. -/
def stepsAt2 (c : Dev nD) : (n : ℕ) → n < cfg2.N → Vec F S256x4096 .f32 × Vec F S256x4096 .f32
  | 0, hn => (outFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((atFirst_iff2 ⟨0, hn⟩).mpr (Nat.zero_mod _)) (fun h => (fun h => by (try dsimp only at h); omega) ((atLast_iff2 ⟨0, hn⟩).mp h)) (iblk2 V c 0 ⟨0, hn⟩) (iblk2 V c 1 ⟨0, hn⟩) (iblk2 V c 2 ⟨0, hn⟩), accFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) accM2 (Memref.isWhole_whole _) ((atFirst_iff2 ⟨0, hn⟩).mpr (Nat.zero_mod _)) (fun h => (fun h => by (try dsimp only at h); omega) ((atLast_iff2 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (outFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((atFirst_iff2 ⟨n + 1, hn⟩).mpr h0) (fun h => h1 ((atLast_iff2 ⟨n + 1, hn⟩).mp h)) (iblk2 V c 0 ⟨n + 1, hn⟩) (iblk2 V c 1 ⟨n + 1, hn⟩) (iblk2 V c 2 ⟨n + 1, hn⟩), accFirst2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) ((atFirst_iff2 ⟨n + 1, hn⟩).mpr h0) (fun h => h1 ((atLast_iff2 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (outLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) ((atLast_iff2 ⟨n + 1, hn⟩).mpr h1) (iblk2 V c 0 ⟨n + 1, hn⟩) (iblk2 V c 1 ⟨n + 1, hn⟩) (iblk2 V c 2 ⟨n + 1, hn⟩) (stepsAt2 c n (Nat.lt_of_succ_lt hn)).2, accLast2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) ((atLast_iff2 ⟨n + 1, hn⟩).mpr h1) (iblk2 V c 0 ⟨n + 1, hn⟩) (iblk2 V c 1 ⟨n + 1, hn⟩) (iblk2 V c 2 ⟨n + 1, hn⟩) (stepsAt2 c n (Nat.lt_of_succ_lt hn)).2)
      else
        (outMiddle2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) (fun h => h1 ((atLast_iff2 ⟨n + 1, hn⟩).mp h)) (iblk2 V c 0 ⟨n + 1, hn⟩) (iblk2 V c 1 ⟨n + 1, hn⟩) (iblk2 V c 2 ⟨n + 1, hn⟩) (stepsAt2 c n (Nat.lt_of_succ_lt hn)).2, accMiddle2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) accM2 (Memref.isWhole_whole _) (fun h => h0 ((atFirst_iff2 ⟨n + 1, hn⟩).mp h)) (fun h => h1 ((atLast_iff2 ⟨n + 1, hn⟩).mp h)) (iblk2 V c 0 ⟨n + 1, hn⟩) (iblk2 V c 1 ⟨n + 1, hn⟩) (iblk2 V c 2 ⟨n + 1, hn⟩) (stepsAt2 c n (Nat.lt_of_succ_lt hn)).2)

/-- `stepsAt2` at a first step. -/
theorem stepsAt_first2 (c : Dev nD) (t : Fin cfg2.N) (h0 : t.val % 8 = 0) (h1 : ¬t.val % 8 = 7) :
    stepsAt2 V c t.val t.isLt = (outFirst2 c (grid2.coords t) (ms2_0 t) (hs2_0 t) (ms2_1 t) (hs2_1 t) (ms2_2 t) (hs2_2 t) (ms2_3 t) (hs2_3 t) accM2 (Memref.isWhole_whole _) ((atFirst_iff2 t).mpr h0) (fun h => h1 ((atLast_iff2 t).mp h)) (iblk2 V c 0 t) (iblk2 V c 1 t) (iblk2 V c 2 t), accFirst2 c (grid2.coords t) (ms2_0 t) (hs2_0 t) (ms2_1 t) (hs2_1 t) (ms2_2 t) (hs2_2 t) (ms2_3 t) (hs2_3 t) accM2 (Memref.isWhole_whole _) ((atFirst_iff2 t).mpr h0) (fun h => h1 ((atLast_iff2 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `stepsAt2` at a middle step: over what the point before left in the accumulator. -/
theorem stepsAt_middle2 (c : Dev nD) (t : Fin cfg2.N) (h0 : ¬t.val % 8 = 0) (h1 : ¬t.val % 8 = 7) :
    stepsAt2 V c t.val t.isLt = (outMiddle2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) (fun h => h1 ((atLast_iff2 t).mp h)) (iblk2 V c 0 t) (iblk2 V c 1 t) (iblk2 V c 2 t) (stepsAt2 V c (t.val - 1) (Nat.lt_of_le_of_lt (Nat.sub_le _ _) t.isLt)).2, accMiddle2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) (fun h => h1 ((atLast_iff2 t).mp h)) (iblk2 V c 0 t) (iblk2 V c 1 t) (iblk2 V c 2 t) (stepsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `stepsAt2` at a last step: over what the point before left in the accumulator. -/
theorem stepsAt_last2 (c : Dev nD) (t : Fin cfg2.N) (h0 : ¬t.val % 8 = 0) (h1 : t.val % 8 = 7) :
    stepsAt2 V c t.val t.isLt = (outLast2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2, accLast2 c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point, the class's invariant (the accumulator at anything); afterwards
    the accumulator at what the point before left in it, beside the other scoped buffers and the generator
    register. -/
def PhiAcc2 (c : Dev nD) : (n : ℕ) → n ≤ cfg2.N → sProp 𝕄
  | 0, _ => Pipeline.ΦA spec2 c
  | n + 1, hn => iprop(iprop(owns (c : Thread nD τ) accM2 fullShare ((stepsAt2 V c n hn).2)
      ∗ Pipeline.scopedRestBut (Ix := Unit) (Name := ℕ) (U := UR sig nD τ) (Lvl := ℕ) (Val := Elt F) spec2 c [cc2_scratch0]) ∗ (∃ r, prngReg c r))

theorem PhiAcc_zero2 (c : Dev nD) (n : ℕ) (h : n ≤ cfg2.N) (hz : n = 0) : PhiAcc2 V c n h = Pipeline.ΦA spec2 c := by
  subst hz; rfl

theorem PhiAcc_succ2 (c : Dev nD) (n : ℕ) (hn : n < cfg2.N) :
    PhiAcc2 V c (n + 1) hn = iprop(iprop(owns (c : Thread nD τ) accM2 fullShare ((stepsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiAcc_pos2 (c : Dev nD) (n : ℕ) (h : n ≤ cfg2.N) (hz : n ≠ 0) :
    PhiAcc2 V c n h = iprop(iprop(owns (c : Thread nD τ) accM2 fullShare ((stepsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the final layer's pipeline on core `c`: the arrays as the region finds them; after the
    body at point `t` each input's buffer at its block and the output's at `stepsAt2`'s first component; the
    invariant `PhiAcc2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (stepsAt2 V c t.val t.isLt).1
  Φ t := PhiAcc2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiAcc_castSucc2 (c : Dev nD) (t : Fin cfg2.N) :
    (dat2 V c).Φ t.castSucc = PhiAcc2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The output block after point `t`: `stepsAt2`'s first component (at k = 7: the accumulated product plus the bias). -/
theorem after2_3 (c : Dev nD) (t : Fin cfg2.N) : (dat2 V c).after 3 t = (stepsAt2 V c t.val t.isLt).1 := by dsimp only [dat2]

theorem before2_0 (c : Dev nD) (t : Fin cfg2.N) (d) : (dat2 V c).before 0 t d = iblk2 V c 0 t :=
  rowsBefore_of2 V (dat2 V c) (A_eq2 V c 0) (after2_0 V c) t d
theorem before2_1 (c : Dev nD) (t : Fin cfg2.N) (d) : (dat2 V c).before 1 t d = iblk2 V c 1 t :=
  weightBefore_of2 V (dat2 V c) (A_eq2 V c 1) (after2_1 V c) t d
theorem before2_2 (c : Dev nD) (t : Fin cfg2.N) (d) : (dat2 V c).before 2 t d = iblk2 V c 2 t :=
  biasBefore_of2 V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms of the two conditions say
    which of the three cases the point is in; the invariant hands the body the accumulator at what the point
    before left (at anything at the very first point) and takes it back at this point's contents; before the
    last step the output's buffer is handed back as found, at the last step it holds the stored block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiAcc2 V c (t.val + 1) t.isLt from rfl, PhiAcc_succ2]
  have hN : t.val < 256 := lt_of_lt_of_eq t.isLt (show cfg2.N = 256 from N_2)
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [Dat.leavesExact_idle (dat2 V c) 3 t (idle2_3 t (fun h => h1 ((atLast_iff2 t).mp h))) (noFlush2_3 t (fun h => h1 ((atLast_iff2 t).mp h)))]
      rw [stepsAt_first2 V c t h0 h1]
      unfold accFirst2; (try dsimp only)
      by_cases hz : t.val = 0
      · rw [PhiAcc_castSucc2 V c t, PhiAcc_zero2 V c _ _ hz, PhiA2_eq]
        iintro ⟨⟨⟨HS, HR⟩, Hg⟩, Ho, ⟨%d0, H0⟩, ⟨%d1, H1⟩, ⟨%d2, H2⟩, ⟨%d3, H3⟩⟩
        iapply ((runFirst2 c (grid2.coords t) _ _ _ _ _ _ _ _ _ _ ((atFirst_iff2 t).mpr h0) (fun h => h1 ((atLast_iff2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst2 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiAcc_castSucc2 V c t, PhiAcc_pos2 V c _ _ hz]
        iintro ⟨⟨⟨HS, HR⟩, Hg⟩, Ho, ⟨%d0, H0⟩, ⟨%d1, H1⟩, ⟨%d2, H2⟩, ⟨%d3, H3⟩⟩
        iapply ((runFirst2 c (grid2.coords t) _ _ _ _ _ _ _ _ _ _ ((atFirst_iff2 t).mpr h0) (fun h => h1 ((atLast_iff2 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverFirst2 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 8 = 7
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [show (dat2 V c).leavesExact 3 t = owns (c : Thread nD τ) (ms2_3 t) fullShare ((dat2 V c).after 3 t) from by
        unfold Dat.leavesExact; rw [live2_3 t ((atLast_iff2 t).mpr h1)], after2_3]
      rw [stepsAt_last2 V c t h0 h1]
      unfold outLast2 accLast2; (try dsimp only)
      by_cases hz : t.val = 0
      · exfalso; omega
      · rw [PhiAcc_castSucc2 V c t, PhiAcc_pos2 V c _ _ hz]
        iintro ⟨⟨⟨HS, HR⟩, Hg⟩, Ho, ⟨%d0, H0⟩, ⟨%d1, H1⟩, ⟨%d2, H2⟩, ⟨%d3, H3⟩⟩
        iapply ((runLast2 c (grid2.coords t) _ _ _ _ _ _ _ _ _ _ (fun h => h0 ((atFirst_iff2 t).mp h)) ((atLast_iff2 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS]; · iexact HS
        iintro ⟨H0, H1, H2, ⟨%e3, H3⟩, ⟨%es, HS⟩⟩
        isplitl [HS HR Hg]
        · isplitl [HS HR]
          · isplitl [HS]
            · unfold owns; iexists _; isplitr
              swap; · iexact HS
              ipureintro; exact View.read_writes_of_cover _ _ _ _ _ (accCoverLast2 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (outCoverLast2 c _ _ _ _ _ _ _ _ _ _ _ _ _ _ _ _ _)
    · rw [show (dat2 V c).leavesExact 0 t = owns (c : Thread nD τ) (ms2_0 t) fullShare ((dat2 V c).after 0 t) from by
        unfold Dat.leavesExact; rw [live2_0 t], after2_0]
      rw [show (dat2 V c).leavesExact 1 t = owns (c : Thread nD τ) (ms2_1 t) fullShare ((dat2 V c).after 1 t) from by
        unfold Dat.leavesExact; rw [live2_1 t], after2_1]
      rw [show (dat2 V c).leavesExact 2 t = owns (c : Thread nD τ) (ms2_2 t) fullShare ((dat2 V c).after 2 t) from by
        unfold Dat.leavesExact; rw [live2_2 t], after2_2]
      rw [Dat.leavesExact_idle (dat2 V c) 3 t (idle2_3 t (fun h => h1 ((atLast_iff2 t).mp h))) (noFlush2_3 t (fun h => h1 ((atLast_iff2 t).mp h)))]
      rw [stepsAt_middle2 V c t h0 h1]
      unfold accMiddle2; (try dsimp only)
      by_cases hz : t.val = 0
      · exfalso; omega
      · rw [PhiAcc_castSucc2 V c t, PhiAcc_pos2 V c _ _ hz]
        iintro ⟨⟨⟨HS, HR⟩, Hg⟩, Ho, ⟨%d0, H0⟩, ⟨%d1, H1⟩, ⟨%d2, H2⟩, ⟨%d3, H3⟩⟩
        iapply ((runMiddle2 c (grid2.coords t) _ _ _ _ _ _ _ _ _ _ (fun h => h0 ((atFirst_iff2 t).mp h)) (fun h => h1 ((atLast_iff2 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS HR Hg]
        · isplitl [HS HR]
          · isplitl [HS]
            · unfold owns; iexists _; isplitr
              swap; · iexact HS
              ipureintro; exact View.read_writes_of_cover _ _ _ _ _ (accCoverMiddle2 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- Before the first point the invariant is the class's. -/
theorem Phi_first2 (c : Dev nD) : (dat2 V c).Φ 0 = Pipeline.ΦA spec2 c := by
  rw [show (dat2 V c).Φ 0 = PhiAcc2 V c 0 (Nat.zero_le _) from rfl, PhiAcc_zero2 V c 0 _ rfl]

/-- After any point the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiAcc2 V c t.val (Nat.le_of_lt_succ t.isLt) from rfl, PhiAcc_pos2 V c _ _ ht, PhiA2_eq]
  iintro ⟨⟨HS, HR⟩, Hg⟩
  isplitl [HS HR]
  · isplitl [HS]
    · iexists _; iexact HS
    iexact HR
  iexact Hg

/-- The same after the last point. -/
theorem Phi_last2 (c : Dev nD) : (dat2 V c).Φ (Fin.last cfg2.N) ⊢ Pipeline.ΦA spec2 c :=
  Phi_out2 V c _ (by rw [Fin.val_last]; have : cfg2.N = 256 := N_2; omega)

end Final

end Cert.KernelIdeal.Pipe

end
-- ==== Proof.Run.lean ====
import proofs.«114173_j69518340653173_2_alg».proof.Proof.LnRegion
import proofs.«114173_j69518340653173_2_alg».proof.Proof.GateRegion
import proofs.«114173_j69518340653173_2_alg».proof.Proof.FinalRegion
import proofs.«114173_j69518340653173_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run: three kernel regions with two stretches of host operations between them

The contents of the core's unscoped buffers at each boundary, folded forward from the launch memory. -/

/-- At launch (region 0 is entered at once). -/
abbrev Bnd0 : Dev nD → Valuation τ sig (Elt F) := fun c b => (s₀ m ρ).mem ((c : Dev nD), b)
abbrev Ent0 : (c : Dev nD) → (b : Ref sig .tc) → Buf (Elt F) ((c : Thread nD τ).loc b) := fun c b => Bnd0 m ρ c b

/-- The buffers when region 0 is left: its windows' arrays at what the write-backs leave, every other buffer as the
    region found it. -/
def Bnd1 (c : Dev nD) : Valuation τ sig (Elt F) :=
  Pipeline.withArrays spec0 c (Bnd0 m ρ c) fun w => (dat0 (Ent0 m ρ) c).arrAt w cfg0.N
theorem Bnd1_arr (c : Dev nD) (w : Fin cfg0.W) :
    Bnd1 m ρ c (Proc.devRef .tc (Pipeline.arrRef spec0 w)) = (dat0 (Ent0 m ρ) c).arrAt w cfg0.N := by
  unfold Bnd1; exact Pipeline.withArrays_arr spec0 launch0.win.arr_inj c _ _ w
theorem Bnd1_of_ne (c : Dev nD) (b : Ref sig .tc) (hb : ∀ w, Pipeline.arrRef spec0 w ≠ b) :
    Bnd1 m ρ c (Proc.devRef .tc b) = Bnd0 m ρ c (Proc.devRef .tc b) := by
  unfold Bnd1; exact Pipeline.withArrays_of_ne spec0 c _ _ b hb
abbrev Ent1 : (c : Dev nD) → (b : Ref sig .tc) → Buf (Elt F) ((c : Thread nD τ).loc b) := fun c b => Bnd1 m ρ c b
theorem exitArr0 (c : Dev nD) (w : Fin cfg0.W) : (dat0 (Ent0 m ρ) c).arrAt w cfg0.N = Ent1 m ρ c (Pipeline.arrRef spec0 w) :=
  (Bnd1_arr m ρ c w).symm
theorem exitRest0 (c : Dev nD) : ∀ b, b ∉ Finset.univ.image (Pipeline.arrRef spec0) → Ent1 m ρ c b = Ent0 m ρ c b :=
  fun b hb => Bnd1_of_ne m ρ c b fun w e => hb (Finset.mem_image.mpr ⟨w, Finset.mem_univ _, e⟩)

/-- After the weight slices and their roundings (region 1's entry). -/
abbrev Bnd2 : Dev nD → Valuation τ sig (Elt F) := fun c => StableHlo.after hostOps1 (Bnd1 m ρ c)
abbrev Ent2 : (c : Dev nD) → (b : Ref sig .tc) → Buf (Elt F) ((c : Thread nD τ).loc b) := fun c b => Bnd2 m ρ c b

/-- The buffers when region 1 is left: its windows' arrays at what the write-backs leave, every other buffer as the
    region found it. -/
def Bnd3 (c : Dev nD) : Valuation τ sig (Elt F) :=
  Pipeline.withArrays spec1 c (Bnd2 m ρ c) fun w => (dat1 (Ent2 m ρ) c).arrAt w cfg1.N
theorem Bnd3_arr (c : Dev nD) (w : Fin cfg1.W) :
    Bnd3 m ρ c (Proc.devRef .tc (Pipeline.arrRef spec1 w)) = (dat1 (Ent2 m ρ) c).arrAt w cfg1.N := by
  unfold Bnd3; exact Pipeline.withArrays_arr spec1 launch1.win.arr_inj c _ _ w
theorem Bnd3_of_ne (c : Dev nD) (b : Ref sig .tc) (hb : ∀ w, Pipeline.arrRef spec1 w ≠ b) :
    Bnd3 m ρ c (Proc.devRef .tc b) = Bnd2 m ρ c (Proc.devRef .tc b) := by
  unfold Bnd3; exact Pipeline.withArrays_of_ne spec1 c _ _ b hb
abbrev Ent3 : (c : Dev nD) → (b : Ref sig .tc) → Buf (Elt F) ((c : Thread nD τ).loc b) := fun c b => Bnd3 m ρ c b
theorem exitArr1 (c : Dev nD) (w : Fin cfg1.W) : (dat1 (Ent2 m ρ) c).arrAt w cfg1.N = Ent3 m ρ c (Pipeline.arrRef spec1 w) :=
  (Bnd3_arr m ρ c w).symm
theorem exitRest1 (c : Dev nD) : ∀ b, b ∉ Finset.univ.image (Pipeline.arrRef spec1) → Ent3 m ρ c b = Ent2 m ρ c b :=
  fun b hb => Bnd3_of_ne m ρ c b fun w e => hb (Finset.mem_image.mpr ⟨w, Finset.mem_univ _, e⟩)

/-- After the output weight's rounding (region 2's entry). -/
abbrev Bnd4 : Dev nD → Valuation τ sig (Elt F) := fun c => StableHlo.after hostOps2 (Bnd3 m ρ c)
abbrev Ent4 : (c : Dev nD) → (b : Ref sig .tc) → Buf (Elt F) ((c : Thread nD τ).loc b) := fun c b => Bnd4 m ρ c b

/-- The buffers when region 2 is left: its windows' arrays at what the write-backs leave, every other buffer as the
    region found it. -/
def Bnd5 (c : Dev nD) : Valuation τ sig (Elt F) :=
  Pipeline.withArrays spec2 c (Bnd4 m ρ c) fun w => (dat2 (Ent4 m ρ) c).arrAt w cfg2.N
theorem Bnd5_arr (c : Dev nD) (w : Fin cfg2.W) :
    Bnd5 m ρ c (Proc.devRef .tc (Pipeline.arrRef spec2 w)) = (dat2 (Ent4 m ρ) c).arrAt w cfg2.N := by
  unfold Bnd5; exact Pipeline.withArrays_arr spec2 launch2.win.arr_inj c _ _ w
theorem Bnd5_of_ne (c : Dev nD) (b : Ref sig .tc) (hb : ∀ w, Pipeline.arrRef spec2 w ≠ b) :
    Bnd5 m ρ c (Proc.devRef .tc b) = Bnd4 m ρ c (Proc.devRef .tc b) := by
  unfold Bnd5; exact Pipeline.withArrays_of_ne spec2 c _ _ b hb
abbrev Ent5 : (c : Dev nD) → (b : Ref sig .tc) → Buf (Elt F) ((c : Thread nD τ).loc b) := fun c b => Bnd5 m ρ c b
theorem exitArr2 (c : Dev nD) (w : Fin cfg2.W) : (dat2 (Ent4 m ρ) c).arrAt w cfg2.N = Ent5 m ρ c (Pipeline.arrRef spec2 w) :=
  (Bnd5_arr m ρ c w).symm
theorem exitRest2 (c : Dev nD) : ∀ b, b ∉ Finset.univ.image (Pipeline.arrRef spec2) → Ent5 m ρ c b = Ent4 m ρ c b :=
  fun b hb => Bnd5_of_ne m ρ c b fun w e => hb (Finset.mem_image.mpr ⟨w, Finset.mem_univ _, e⟩)

/-! ## No step writes an argument: a region only reads it through an input window or does not touch it, and the host
    operations write their own results -/

theorem Bnd5_main_arg0 (c : Dev nD) : Bnd5 m ρ c (Proc.devRef .tc main_arg0) = m ((c : Thread nD τ).loc main_arg0) :=
  calc Bnd5 m ρ c (Proc.devRef .tc main_arg0)
    _ = Bnd4 m ρ c (Proc.devRef .tc main_arg0) := Bnd5_of_ne m ρ c main_arg0 (by decide)
    _ = Bnd3 m ρ c (Proc.devRef .tc main_arg0) := StableHlo.after_of_writes_sub hostOps2 _ hostOps2_writes (by decide)
    _ = Bnd2 m ρ c (Proc.devRef .tc main_arg0) := Bnd3_of_ne m ρ c main_arg0 (by decide)
    _ = Bnd1 m ρ c (Proc.devRef .tc main_arg0) := StableHlo.after_of_writes_sub hostOps1 _ hostOps1_writes (by decide)
    _ = Bnd0 m ρ c (Proc.devRef .tc main_arg0) := (Bnd1_arr m ρ c 0).trans (((dat0 (Ent0 m ρ) c).arrAt_in 0 rfl _).trans (A_eq0 (Ent0 m ρ) c 0))
    _ = m ((c : Thread nD τ).loc main_arg0) := rfl

theorem Bnd5_main_arg1 (c : Dev nD) : Bnd5 m ρ c (Proc.devRef .tc main_arg1) = m ((c : Thread nD τ).loc main_arg1) :=
  calc Bnd5 m ρ c (Proc.devRef .tc main_arg1)
    _ = Bnd4 m ρ c (Proc.devRef .tc main_arg1) := Bnd5_of_ne m ρ c main_arg1 (by decide)
    _ = Bnd3 m ρ c (Proc.devRef .tc main_arg1) := StableHlo.after_of_writes_sub hostOps2 _ hostOps2_writes (by decide)
    _ = Bnd2 m ρ c (Proc.devRef .tc main_arg1) := Bnd3_of_ne m ρ c main_arg1 (by decide)
    _ = Bnd1 m ρ c (Proc.devRef .tc main_arg1) := StableHlo.after_of_writes_sub hostOps1 _ hostOps1_writes (by decide)
    _ = Bnd0 m ρ c (Proc.devRef .tc main_arg1) := (Bnd1_arr m ρ c 1).trans (((dat0 (Ent0 m ρ) c).arrAt_in 1 rfl _).trans (A_eq0 (Ent0 m ρ) c 1))
    _ = m ((c : Thread nD τ).loc main_arg1) := rfl

theorem Bnd5_main_arg2 (c : Dev nD) : Bnd5 m ρ c (Proc.devRef .tc main_arg2) = m ((c : Thread nD τ).loc main_arg2) :=
  calc Bnd5 m ρ c (Proc.devRef .tc main_arg2)
    _ = Bnd4 m ρ c (Proc.devRef .tc main_arg2) := Bnd5_of_ne m ρ c main_arg2 (by decide)
    _ = Bnd3 m ρ c (Proc.devRef .tc main_arg2) := StableHlo.after_of_writes_sub hostOps2 _ hostOps2_writes (by decide)
    _ = Bnd2 m ρ c (Proc.devRef .tc main_arg2) := Bnd3_of_ne m ρ c main_arg2 (by decide)
    _ = Bnd1 m ρ c (Proc.devRef .tc main_arg2) := StableHlo.after_of_writes_sub hostOps1 _ hostOps1_writes (by decide)
    _ = Bnd0 m ρ c (Proc.devRef .tc main_arg2) := (Bnd1_arr m ρ c 2).trans (((dat0 (Ent0 m ρ) c).arrAt_in 2 rfl _).trans (A_eq0 (Ent0 m ρ) c 2))
    _ = m ((c : Thread nD τ).loc main_arg2) := rfl

theorem Bnd5_main_arg3 (c : Dev nD) : Bnd5 m ρ c (Proc.devRef .tc main_arg3) = m ((c : Thread nD τ).loc main_arg3) :=
  calc Bnd5 m ρ c (Proc.devRef .tc main_arg3)
    _ = Bnd4 m ρ c (Proc.devRef .tc main_arg3) := Bnd5_of_ne m ρ c main_arg3 (by decide)
    _ = Bnd3 m ρ c (Proc.devRef .tc main_arg3) := StableHlo.after_of_writes_sub hostOps2 _ hostOps2_writes (by decide)
    _ = Bnd2 m ρ c (Proc.devRef .tc main_arg3) := Bnd3_of_ne m ρ c main_arg3 (by decide)
    _ = Bnd1 m ρ c (Proc.devRef .tc main_arg3) := StableHlo.after_of_writes_sub hostOps1 _ hostOps1_writes (by decide)
    _ = Bnd0 m ρ c (Proc.devRef .tc main_arg3) := (Bnd1_arr m ρ c 3).trans (((dat0 (Ent0 m ρ) c).arrAt_in 3 rfl _).trans (A_eq0 (Ent0 m ρ) c 3))
    _ = m ((c : Thread nD τ).loc main_arg3) := rfl

theorem Bnd5_main_arg4 (c : Dev nD) : Bnd5 m ρ c (Proc.devRef .tc main_arg4) = m ((c : Thread nD τ).loc main_arg4) :=
  calc Bnd5 m ρ c (Proc.devRef .tc main_arg4)
    _ = Bnd4 m ρ c (Proc.devRef .tc main_arg4) := Bnd5_of_ne m ρ c main_arg4 (by decide)
    _ = Bnd3 m ρ c (Proc.devRef .tc main_arg4) := StableHlo.after_of_writes_sub hostOps2 _ hostOps2_writes (by decide)
    _ = Bnd2 m ρ c (Proc.devRef .tc main_arg4) := Bnd3_of_ne m ρ c main_arg4 (by decide)
    _ = Bnd1 m ρ c (Proc.devRef .tc main_arg4) := StableHlo.after_of_writes_sub hostOps1 _ hostOps1_writes (by decide)
    _ = Bnd0 m ρ c (Proc.devRef .tc main_arg4) := (Bnd1_arr m ρ c 4).trans (((dat0 (Ent0 m ρ) c).arrAt_in 4 rfl _).trans (A_eq0 (Ent0 m ρ) c 4))
    _ = m ((c : Thread nD τ).loc main_arg4) := rfl

theorem Bnd5_main_arg5 (c : Dev nD) : Bnd5 m ρ c (Proc.devRef .tc main_arg5) = m ((c : Thread nD τ).loc main_arg5) :=
  calc Bnd5 m ρ c (Proc.devRef .tc main_arg5)
    _ = Bnd4 m ρ c (Proc.devRef .tc main_arg5) := Bnd5_of_ne m ρ c main_arg5 (by decide)
    _ = Bnd3 m ρ c (Proc.devRef .tc main_arg5) := StableHlo.after_of_writes_sub hostOps2 _ hostOps2_writes (by decide)
    _ = Bnd2 m ρ c (Proc.devRef .tc main_arg5) := Bnd3_of_ne m ρ c main_arg5 (by decide)
    _ = Bnd1 m ρ c (Proc.devRef .tc main_arg5) := StableHlo.after_of_writes_sub hostOps1 _ hostOps1_writes (by decide)
    _ = Bnd0 m ρ c (Proc.devRef .tc main_arg5) := (Bnd1_arr m ρ c 5).trans (((dat0 (Ent0 m ρ) c).arrAt_in 5 rfl _).trans (A_eq0 (Ent0 m ρ) c 5))
    _ = m ((c : Thread nD τ).loc main_arg5) := rfl

theorem Bnd5_main_arg6 (c : Dev nD) : Bnd5 m ρ c (Proc.devRef .tc main_arg6) = m ((c : Thread nD τ).loc main_arg6) :=
  calc Bnd5 m ρ c (Proc.devRef .tc main_arg6)
    _ = Bnd4 m ρ c (Proc.devRef .tc main_arg6) := Bnd5_of_ne m ρ c main_arg6 (by decide)
    _ = Bnd3 m ρ c (Proc.devRef .tc main_arg6) := StableHlo.after_of_writes_sub hostOps2 _ hostOps2_writes (by decide)
    _ = Bnd2 m ρ c (Proc.devRef .tc main_arg6) := Bnd3_of_ne m ρ c main_arg6 (by decide)
    _ = Bnd1 m ρ c (Proc.devRef .tc main_arg6) := StableHlo.after_of_writes_sub hostOps1 _ hostOps1_writes (by decide)
    _ = Bnd0 m ρ c (Proc.devRef .tc main_arg6) := Bnd1_of_ne m ρ c main_arg6 (by decide)
    _ = m ((c : Thread nD τ).loc main_arg6) := rfl

theorem Bnd5_main_arg7 (c : Dev nD) : Bnd5 m ρ c (Proc.devRef .tc main_arg7) = m ((c : Thread nD τ).loc main_arg7) :=
  calc Bnd5 m ρ c (Proc.devRef .tc main_arg7)
    _ = Bnd4 m ρ c (Proc.devRef .tc main_arg7) := Bnd5_of_ne m ρ c main_arg7 (by decide)
    _ = Bnd3 m ρ c (Proc.devRef .tc main_arg7) := StableHlo.after_of_writes_sub hostOps2 _ hostOps2_writes (by decide)
    _ = Bnd2 m ρ c (Proc.devRef .tc main_arg7) := (Bnd3_arr m ρ c 5).trans (((dat1 (Ent2 m ρ) c).arrAt_in 5 rfl _).trans (A_eq1 (Ent2 m ρ) c 5))
    _ = Bnd1 m ρ c (Proc.devRef .tc main_arg7) := StableHlo.after_of_writes_sub hostOps1 _ hostOps1_writes (by decide)
    _ = Bnd0 m ρ c (Proc.devRef .tc main_arg7) := Bnd1_of_ne m ρ c main_arg7 (by decide)
    _ = m ((c : Thread nD τ).loc main_arg7) := rfl

theorem Bnd5_main_arg8 (c : Dev nD) : Bnd5 m ρ c (Proc.devRef .tc main_arg8) = m ((c : Thread nD τ).loc main_arg8) :=
  calc Bnd5 m ρ c (Proc.devRef .tc main_arg8)
    _ = Bnd4 m ρ c (Proc.devRef .tc main_arg8) := Bnd5_of_ne m ρ c main_arg8 (by decide)
    _ = Bnd3 m ρ c (Proc.devRef .tc main_arg8) := StableHlo.after_of_writes_sub hostOps2 _ hostOps2_writes (by decide)
    _ = Bnd2 m ρ c (Proc.devRef .tc main_arg8) := (Bnd3_arr m ρ c 4).trans (((dat1 (Ent2 m ρ) c).arrAt_in 4 rfl _).trans (A_eq1 (Ent2 m ρ) c 4))
    _ = Bnd1 m ρ c (Proc.devRef .tc main_arg8) := StableHlo.after_of_writes_sub hostOps1 _ hostOps1_writes (by decide)
    _ = Bnd0 m ρ c (Proc.devRef .tc main_arg8) := Bnd1_of_ne m ρ c main_arg8 (by decide)
    _ = m ((c : Thread nD τ).loc main_arg8) := rfl

theorem Bnd5_main_arg9 (c : Dev nD) : Bnd5 m ρ c (Proc.devRef .tc main_arg9) = m ((c : Thread nD τ).loc main_arg9) :=
  calc Bnd5 m ρ c (Proc.devRef .tc main_arg9)
    _ = Bnd4 m ρ c (Proc.devRef .tc main_arg9) := Bnd5_of_ne m ρ c main_arg9 (by decide)
    _ = Bnd3 m ρ c (Proc.devRef .tc main_arg9) := StableHlo.after_of_writes_sub hostOps2 _ hostOps2_writes (by decide)
    _ = Bnd2 m ρ c (Proc.devRef .tc main_arg9) := (Bnd3_arr m ρ c 6).trans (((dat1 (Ent2 m ρ) c).arrAt_in 6 rfl _).trans (A_eq1 (Ent2 m ρ) c 6))
    _ = Bnd1 m ρ c (Proc.devRef .tc main_arg9) := StableHlo.after_of_writes_sub hostOps1 _ hostOps1_writes (by decide)
    _ = Bnd0 m ρ c (Proc.devRef .tc main_arg9) := Bnd1_of_ne m ρ c main_arg9 (by decide)
    _ = m ((c : Thread nD τ).loc main_arg9) := rfl

theorem Bnd5_main_arg10 (c : Dev nD) : Bnd5 m ρ c (Proc.devRef .tc main_arg10) = m ((c : Thread nD τ).loc main_arg10) :=
  calc Bnd5 m ρ c (Proc.devRef .tc main_arg10)
    _ = Bnd4 m ρ c (Proc.devRef .tc main_arg10) := Bnd5_of_ne m ρ c main_arg10 (by decide)
    _ = Bnd3 m ρ c (Proc.devRef .tc main_arg10) := StableHlo.after_of_writes_sub hostOps2 _ hostOps2_writes (by decide)
    _ = Bnd2 m ρ c (Proc.devRef .tc main_arg10) := Bnd3_of_ne m ρ c main_arg10 (by decide)
    _ = Bnd1 m ρ c (Proc.devRef .tc main_arg10) := StableHlo.after_of_writes_sub hostOps1 _ hostOps1_writes (by decide)
    _ = Bnd0 m ρ c (Proc.devRef .tc main_arg10) := Bnd1_of_ne m ρ c main_arg10 (by decide)
    _ = m ((c : Thread nD τ).loc main_arg10) := rfl

theorem Bnd5_main_arg11 (c : Dev nD) : Bnd5 m ρ c (Proc.devRef .tc main_arg11) = m ((c : Thread nD τ).loc main_arg11) :=
  calc Bnd5 m ρ c (Proc.devRef .tc main_arg11)
    _ = Bnd4 m ρ c (Proc.devRef .tc main_arg11) := (Bnd5_arr m ρ c 2).trans (((dat2 (Ent4 m ρ) c).arrAt_in 2 rfl _).trans (A_eq2 (Ent4 m ρ) c 2))
    _ = Bnd3 m ρ c (Proc.devRef .tc main_arg11) := StableHlo.after_of_writes_sub hostOps2 _ hostOps2_writes (by decide)
    _ = Bnd2 m ρ c (Proc.devRef .tc main_arg11) := Bnd3_of_ne m ρ c main_arg11 (by decide)
    _ = Bnd1 m ρ c (Proc.devRef .tc main_arg11) := StableHlo.after_of_writes_sub hostOps1 _ hostOps1_writes (by decide)
    _ = Bnd0 m ρ c (Proc.devRef .tc main_arg11) := Bnd1_of_ne m ρ c main_arg11 (by decide)
    _ = m ((c : Thread nD τ).loc main_arg11) := rfl

/-! ## The proof data of the three pipelines and the thread state between segments -/

/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (Ent0 m ρ) c
  | ⟨1, _⟩ => fun c => dat1 (Ent2 m ρ) c
  | ⟨2, _⟩ => fun c => dat2 (Ent4 m ρ) c
abbrev 𝒱₀ : Variants := Variants.none
abbrev L : GSem nD τ sig → Finset Unit := fun _ => ∅
abbrev lv : GSem nD τ sig → Unit → ℕ := fun _ _ => 0
/-- Beside the buffers, every segment passes on the generator register at some state and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register. -/
abbrev Tₙ (c : Dev nD) : sProp 𝕄 := iprop(StableHlo.held (c : Thread nD τ) (Pipeline.ucRefs τ sig) (Bnd5 m ρ c) ∗ ∃ r, prngReg c r)

/-! ## The regions as segments -/

set_option backward.isDefEq.respectTransparency.types false in
/-- Region 0 as a segment: entered with every unscoped buffer at `Bnd0`, left with them at `Bnd1`; its windows'
    arrays are split out of the unscoped buffers at entry and put back at exit, the generator register goes into
    the kernel's invariant and comes back, nothing is owed, the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m ρ) c).loose
  hwaits := Pipeline.hwaits_of_owed_zero _ _ _ _ L lv 0 fun _ _ => rfl
  pre c := iprop(StableHlo.held (c : Thread nD τ) (Pipeline.ucRefs τ sig) (Bnd0 m ρ c) ∗ Rest c)
  post c := iprop(StableHlo.held (c : Thread nD τ) (Pipeline.ucRefs τ sig) (Bnd1 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Ent0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi_first0 (Ent0 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (Ent0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent0 m ρ c) (Ent1 m ρ c) ((pdats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `Bnd2`, left with them at `Bnd3`; its windows'
    arrays are split out of the unscoped buffers at entry and put back at exit, the generator register goes into
    the kernel's invariant and comes back, nothing is owed, the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent2 m ρ) c).loose
  hwaits := Pipeline.hwaits_of_owed_zero _ _ _ _ L lv 1 fun _ _ => rfl
  pre c := iprop(StableHlo.held (c : Thread nD τ) (Pipeline.ucRefs τ sig) (Bnd2 m ρ c) ∗ Rest c)
  post c := iprop(StableHlo.held (c : Thread nD τ) (Pipeline.ucRefs τ sig) (Bnd3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (Ent2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi_first1 (Ent2 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (Ent2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent2 m ρ c) (Ent3 m ρ c) ((pdats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Bnd4`, left with them at `Bnd5`; its windows'
    arrays are split out of the unscoped buffers at entry and put back at exit, the generator register goes into
    the kernel's invariant and comes back, nothing is owed, the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent4 m ρ) c).loose
  hwaits := Pipeline.hwaits_of_owed_zero _ _ _ _ L lv 2 fun _ _ => rfl
  pre c := iprop(StableHlo.held (c : Thread nD τ) (Pipeline.ucRefs τ sig) (Bnd4 m ρ c) ∗ Rest c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ent4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi_first2 (Ent4 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi_last2 (Ent4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent4 m ρ c) (Ent5 m ρ c) ((pdats m ρ 2 c).arrAt · cfg2.N) (exitArr2 m ρ c) (exitRest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five segments, and the launch -/

abbrev mainSegs : List (Pipeline.Seg (pcfgs (F := F)) adm (pdats m ρ) () defs₀ 𝒱₀ L lv) :=
  [ .region (reg0 m ρ),
    .host (hseg hostOps1 hostOps1_sub hostOps1_fresh (Bnd1 m ρ)),
    .region (reg1 m ρ),
    .host (hseg hostOps2 hostOps2_sub hostOps2_fresh (Bnd3 m ρ)),
    .region (reg2 m ρ) ]
theorem main_run (c : Dev nD) : main (F := F) c = Pipeline.Seg.run (mainSegs m ρ) := (main_chain c).trans (by chain_rfl)

set_option backward.isDefEq.respectTransparency.types false in
/-- Every weakly fair execution of the program from memory `m` with zero counters terminates without a fault, and the
    final memory holds every unscoped buffer of each core at the end of the fold, `Bnd5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bnd5 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bnd0 m ρ c) ∗ Rest c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Bnd0 m ρ c)
        from Pipeline.unscopedBufs_held c (Bnd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bnd5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bnd5 m ρ c) s')
      isplitl [Hh] <;> iassumption)
    (hQ := fun s h c => h c)

/-- The arguments end as launched. -/
theorem args_kept (c : Dev nD) (s : MemSt nD τ sig (Elt F)) (h : ∀ b ∈ Pipeline.ucRefs τ sig, s.mem (((c : Thread nD τ)).1, b) = Bnd5 m ρ c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨(h _ (mem_uc main_arg0 (by decide))).trans (Bnd5_main_arg0 m ρ c),
   (h _ (mem_uc main_arg1 (by decide))).trans (Bnd5_main_arg1 m ρ c),
   (h _ (mem_uc main_arg2 (by decide))).trans (Bnd5_main_arg2 m ρ c),
   (h _ (mem_uc main_arg3 (by decide))).trans (Bnd5_main_arg3 m ρ c),
   (h _ (mem_uc main_arg4 (by decide))).trans (Bnd5_main_arg4 m ρ c),
   (h _ (mem_uc main_arg5 (by decide))).trans (Bnd5_main_arg5 m ρ c),
   (h _ (mem_uc main_arg6 (by decide))).trans (Bnd5_main_arg6 m ρ c),
   (h _ (mem_uc main_arg7 (by decide))).trans (Bnd5_main_arg7 m ρ c),
   (h _ (mem_uc main_arg8 (by decide))).trans (Bnd5_main_arg8 m ρ c),
   (h _ (mem_uc main_arg9 (by decide))).trans (Bnd5_main_arg9 m ρ c),
   (h _ (mem_uc main_arg10 (by decide))).trans (Bnd5_main_arg10 m ρ c),
   (h _ (mem_uc main_arg11 (by decide))).trans (Bnd5_main_arg11 m ρ c)⟩

/-- The frame: the program runs to the end without a fault and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_kept m ρ c r.2 (h c)) (run_all m ρ)

/-- The run with the result read: the result buffer ends at what region 2's write-backs leave in its output array. -/
theorem run_result : θ_run defs (onTc (τ := τ) (main (F := F))) ⟨m, fun _ => 0, ρ⟩ (fun r => ∀ c : Dev nD,
      r.2.mem ((c.tc : Thread nD τ).loc main_v7) = (dat2 (Ent4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v7 (by decide))).trans (Bnd5_arr m ρ c 3), args_kept m ρ c r.2 (h c)⟩) (run_all m ρ)

end Cert.KernelIdeal.Pipe

end
-- ==== Proof.Spec.lean ====
import Idealize.ShloMosaic.PureOps.Ideal
import Idealize.ShloMosaic.PureOps.Ideal.Laws
import Idealize.ShloMosaic.Lib.ValueIdx

noncomputable section

/-! # What the program computes, row by row, on the extended reals

Every row `r` of the two inputs is normalised (mean and variance over its 4096 entries), the two normalised rows
go through a gate — a hidden layer over their concatenation, two logits, a softmax over the two — that mixes them,
and the mixed row goes through a last affine map. All sums are plain finite sums on the extended reals; the float
literals stay as the binary words both programs print. -/

namespace Cert.Spec

open Idealize.ShloMosaic Idealize.ShloMosaic.ValueIdx

/-- The row length 4096 as the float both programs divide by. -/
abbrev cLen : EReal := Ideal.ofBits .f32 0x45800000#32
/-- The variance offset both programs add. -/
abbrev cEps : EReal := Ideal.ofBits .f32 0x3727C5AC#32

/-- The mean of a row. -/
def mean (x : Fin 4096 → EReal) : EReal := Ideal.div (∑ k, x k) cLen
/-- The mean square deviation of a row. -/
def var (x : Fin 4096 → EReal) : EReal := Ideal.div (∑ k, (x k - mean x) * (x k - mean x)) cLen
/-- A normalised row: centred, scaled by the inverse root of the offset variance, then the affine map `g`, `b`. -/
def lnRow (x g b : Fin 4096 → EReal) (j : Fin 4096) : EReal :=
  (x j - mean x) * Ideal.rsqrt (var x + cEps) * g j + b j

/-- The hidden layer of the gate at one row: the two normalised rows against the two halves of the first weight,
    the bias, and the positive part. -/
def hid (tn kn : Fin 4096 → EReal) (Wa Wb : Fin 4096 → Fin 4096 → EReal) (b1 : Fin 4096 → EReal) (j : Fin 4096) : EReal :=
  max ((∑ k, tn k * Wa k j) + (∑ k, kn k * Wb k j) + b1 j) 0
/-- The two logits of a row. -/
def logit (h : Fin 4096 → EReal) (W2 : Fin 4096 → Fin 2 → EReal) (b2 : Fin 2 → EReal) (c : Fin 2) : EReal :=
  (∑ j, h j * W2 j c) + b2 c
/-- The softmax over two logits, the larger subtracted first. -/
def smax (l : Fin 2 → EReal) (c : Fin 2) : EReal :=
  Ideal.div (Ideal.exp (l c - max (l 0) (l 1))) (Ideal.exp (l 0 - max (l 0) (l 1)) + Ideal.exp (l 1 - max (l 0) (l 1)))
/-- The mixed row: the two normalised rows weighted by the softmax of their logits. -/
def fuseRow (tn kn : Fin 4096 → EReal) (Wa Wb : Fin 4096 → Fin 4096 → EReal) (b1 : Fin 4096 → EReal)
    (W2 : Fin 4096 → Fin 2 → EReal) (b2 : Fin 2 → EReal) (j : Fin 4096) : EReal :=
  smax (logit (hid tn kn Wa Wb b1) W2 b2) 0 * tn j + smax (logit (hid tn kn Wa Wb b1) W2 b2) 1 * kn j
/-- The last affine map at one row. -/
def linRow (f : Fin 4096 → EReal) (Wo : Fin 4096 → Fin 4096 → EReal) (bo : Fin 4096 → EReal) (j : Fin 4096) : EReal :=
  (∑ k, f k * Wo k j) + bo j

/-! ## The same, as whole arrays over literal shapes -/

abbrev SRows : Shape := ⟨2, ![8192, 4096]⟩
abbrev SVec : Shape := ⟨1, ![4096]⟩
abbrev SSq : Shape := ⟨2, ![4096, 4096]⟩
abbrev SW2 : Shape := ⟨2, ![4096, 2]⟩
abbrev SB2 : Shape := ⟨1, ![2]⟩

/-- Row `r` of an array of rows. -/
abbrev rowOf (x : SRows.Idx → EReal) (r : Fin 8192) : Fin 4096 → EReal := fun k => x (ix2 r k)
abbrev vecOf (g : SVec.Idx → EReal) : Fin 4096 → EReal := fun k => g (ix1 k)
abbrev sqOf (w : SSq.Idx → EReal) : Fin 4096 → Fin 4096 → EReal := fun k j => w (ix2 k j)
abbrev w2Of (w : SW2.Idx → EReal) : Fin 4096 → Fin 2 → EReal := fun k c => w (ix2 k c)
abbrev b2Of (b : SB2.Idx → EReal) : Fin 2 → EReal := fun c => b (ix1 c)

/-- Both inputs normalised, row by row. -/
def lnArr (x : SRows.Idx → EReal) (g b : SVec.Idx → EReal) : SRows.Idx → EReal :=
  fun i => lnRow (rowOf x (i 0)) (vecOf g) (vecOf b) (i 1)
/-- The gate's mix of two arrays of rows. -/
def fuseArr (tn kn : SRows.Idx → EReal) (wa wb : SSq.Idx → EReal) (w2 : SW2.Idx → EReal) (b1 : SVec.Idx → EReal) (b2 : SB2.Idx → EReal) :
    SRows.Idx → EReal :=
  fun i => fuseRow (rowOf tn (i 0)) (rowOf kn (i 0)) (sqOf wa) (sqOf wb) (vecOf b1) (w2Of w2) (b2Of b2) (i 1)
/-- The last affine map of an array of rows. -/
def linArr (f : SRows.Idx → EReal) (wo : SSq.Idx → EReal) (bo : SVec.Idx → EReal) : SRows.Idx → EReal :=
  fun i => linRow (rowOf f (i 0)) (sqOf wo) (vecOf bo) (i 1)

end Cert.Spec

end
-- ==== Proof.LnValue.lean ====
import proofs.«114173_j69518340653173_2_alg».proof.Proof.LnRegion
import proofs.«114173_j69518340653173_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the two row normalisations leave in their result arrays

Read at the extended reals, block `t` of each result is the normalised rows `256 t … 256 t + 255` of its
input; the 32 blocks tile the (8192, 4096) result, so each result array ends as the row-by-row
normalisation of the whole input.
-/

set_option maxRecDepth 16384

noncomputable section

namespace Cert.KernelIdeal.Pipe

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## Layout operations of a kept unit column, at an index -/

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the columns of a (256, 4096) block, at row `p`. -/
theorem rowSum_apply (v : FVec Ideal S256x4096 .f32) (h : S256x4096.Reduces [1] S256) (hφ : FKind.Formats .f32)
    (hacc : (0x00000000#32 : BitVec 32) = 0x00000000#32) (p : Fin 256) :
    multiReduction .add [1] S256 v 0x00000000#32 h hφ hacc (ix1 p) = ∑ k : Fin 4096, v (ix2 p k) :=
  (Ideal.multiReduction_add_single v 0x00000000#32 h hφ hacc (ix1 p)).trans
    (Finset.sum_congr rfl fun k _ => congrArg v (funext fun a => match a with | ⟨0, _⟩ => Fin.ext rfl | ⟨1, _⟩ => Fin.ext rfl))

namespace Ln

/-! ## The row statistics the body computes, at an index -/

/-- The column of row means: the row sums over the row length. -/
theorem meanCol_apply (x : FVec Ideal S256x4096 .f32) (h : S256x4096.Reduces [1] S256) (hφ : FKind.Formats .f32)
    (hacc : (0x00000000#32 : BitVec 32) = 0x00000000#32) (hc : S256.ShapeCasts S256x1) (p : Fin 256) (u : Fin 1) :
    divf (shapeCast S256x1 (multiReduction .add [1] S256 x 0x00000000#32 h hφ hacc) hc)
        (broadcast S256x1 (FloatOps.ofBits .f32 0x45800000#32)) (ix2 p u)
      = Cert.Spec.mean (fun k => x (ix2 p k)) := by
  rw [divf_apply, shapeCast_a_a1_apply, rowSum_apply, broadcast_apply]
  rfl

/-- An inverse square root at an index is the inverse square root of the element. -/
theorem rsqrt_idx {s : Shape} {φ : FTy} (a : FVec Ideal s φ) (i : s.Idx) : rsqrt a i = Ideal.rsqrt (a i) := rfl

/-- The column of row variances, over any column `M` holding the row means: the row sums of the squared
    deviations over the row length. -/
theorem varCol_apply (x : FVec Ideal S256x4096 .f32) (M : FVec Ideal S256x1 .f32)
    (hM : ∀ p : Fin 256, M (ix2 p (0 : Fin 1)) = Cert.Spec.mean (fun k => x (ix2 p k)))
    (h : S256x4096.Reduces [1] S256) (hφ : FKind.Formats .f32)
    (hacc : (0x00000000#32 : BitVec 32) = 0x00000000#32) (hc : S256.ShapeCasts S256x1) (hb : S256x1.Broadcasts S256x4096)
    (p : Fin 256) (u : Fin 1) :
    divf (shapeCast S256x1 (multiReduction .add [1] S256
          (mulf (subf x (broadcastTo S256x4096 M hb)) (subf x (broadcastTo S256x4096 M hb))) 0x00000000#32 h hφ hacc) hc)
        (broadcast S256x1 (FloatOps.ofBits .f32 0x45800000#32)) (ix2 p u)
      = Cert.Spec.var (fun k => x (ix2 p k)) := by
  rw [divf_apply, shapeCast_a_a1_apply, rowSum_apply, broadcast_apply]
  unfold Cert.Spec.var
  refine congrArg (fun s => Ideal.div s _) (Finset.sum_congr rfl fun k _ => ?_)
  rw [mulf_apply, subf_apply, broadcastTo_a1_ab_apply, hM]

/-! ## The two stored blocks, at an index -/

/-- The first stored block at `(p, q)`: row `p` of the loaded block normalised, at column `q`. -/
theorem pay2_apply (x : FVec Ideal S256x4096 .f32) (g b : FVec Ideal S4096 .f32) (p : Fin 256) (q : Fin 4096) :
    k0_pay2 (F := Ideal) x g b (ix2 p q) = Cert.Spec.lnRow (fun k => x (ix2 p k)) (fun k => g (ix1 k)) (fun k => b (ix1 k)) q := by
  unfold k0_pay2
  dsimp only
  rw [truncf_apply, addf_apply, mulf_apply, mulf_apply, subf_apply]
  rw [broadcastTo_1b_ab_apply, broadcastTo_1b_ab_apply, shapeCast_a_1a_apply, shapeCast_a_1a_apply]
  rw [broadcastTo_a1_ab_apply, broadcastTo_a1_ab_apply]
  rw [meanCol_apply, rsqrt_idx, addf_apply, broadcast_apply]
  rw [varCol_apply x _ (fun p' => meanCol_apply x _ _ _ _ p' 0)]
  rfl

/-- The second block's column of row means. -/
theorem pay3_apply (y : FVec Ideal S256x4096 .f32) (p : Fin 256) (u : Fin 1) :
    k0_pay3 (F := Ideal) y (ix2 p u) = Cert.Spec.mean (fun k => y (ix2 p k)) := by
  unfold k0_pay3
  dsimp only
  rw [meanCol_apply]

/-- The second block's column of row variances. -/
theorem pay4_apply (y : FVec Ideal S256x4096 .f32) (p : Fin 256) (u : Fin 1) :
    k0_pay4 (F := Ideal) y (ix2 p u) = Cert.Spec.var (fun k => y (ix2 p k)) := by
  unfold k0_pay4
  dsimp only
  rw [varCol_apply y _ (fun p' => pay3_apply y p' 0)]

/-- The second stored block at `(p, q)`: row `p` of the loaded block normalised, at column `q`. -/
theorem pay1_apply (y : FVec Ideal S256x4096 .f32) (g b : FVec Ideal S4096 .f32) (p : Fin 256) (q : Fin 4096) :
    k0_pay1 (F := Ideal) y (k0_pay3 y) (k0_pay4 y) g b (ix2 p q)
      = Cert.Spec.lnRow (fun k => y (ix2 p k)) (fun k => g (ix1 k)) (fun k => b (ix1 k)) q := by
  unfold k0_pay1
  try dsimp only
  rw [truncf_apply, addf_apply, mulf_apply, mulf_apply, subf_apply]
  rw [broadcastTo_1b_ab_apply, broadcastTo_1b_ab_apply, shapeCast_a_1a_apply, shapeCast_a_1a_apply]
  rw [broadcastTo_a1_ab_apply, broadcastTo_a1_ab_apply]
  rw [pay3_apply, rsqrt_idx, addf_apply, broadcast_apply, pay4_apply]
  rfl

/-! ## From blocks to the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index maps over the 32 points: a row-block window is at block `(t, 0)`, a vector window at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 1) = 0 ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Input window 0's block at point `t` is rows `256 t … 256 t + 255` of its array. -/
theorem rowBlock0_0 (c : Dev nD) (t : Fin cfg0.N) (p : Fin 256) (k : Fin 4096) (r : Fin 8192) (hr : r.val = 256 * t.val + p.val) :
    (iblk0 V c 0 t : Vec Ideal S256x4096 .f32) (ix2 p k) = (V c main_arg0 : S8192x4096.Idx → EReal) (ix2 r k) := by
  obtain ⟨e00, e01, e10, e11, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- Input window 1's block at point `t` is rows `256 t … 256 t + 255` of its array. -/
theorem rowBlock0_1 (c : Dev nD) (t : Fin cfg0.N) (p : Fin 256) (k : Fin 4096) (r : Fin 8192) (hr : r.val = 256 * t.val + p.val) :
    (iblk0 V c 1 t : Vec Ideal S256x4096 .f32) (ix2 p k) = (V c main_arg1 : S8192x4096.Idx → EReal) (ix2 r k) := by
  obtain ⟨e00, e01, e10, e11, -⟩ := idx_facts0 t
  show V c main_arg1 (((cfg0.win 1).blk t).view.emb (ix2 p k)) = V c main_arg1 (ix2 r k)
  refine congrArg (V c main_arg1) (funext fun a => Fin.ext ?_)
  match a with
  | ⟨0, _⟩ => show win0_1.index t (0 : Fin 2) * 256 + 1 * p.val = r.val; omega
  | ⟨1, _⟩ => show win0_1.index t (1 : Fin 2) * 4096 + 1 * k.val = k.val; omega

/-- Input window 2's block at any point is its whole vector. -/
theorem vecBlock0_2 (c : Dev nD) (t : Fin cfg0.N) (k : Fin 4096) :
    (iblk0 V c 2 t : Vec Ideal S4096 .f32) (ix1 k) = (V c main_arg2 : S4096.Idx → EReal) (ix1 k) := by
  obtain ⟨-, -, -, -, e2, e3, e4, e5, -⟩ := idx_facts0 t
  show V c main_arg2 (((cfg0.win 2).blk t).view.emb (ix1 k)) = V c main_arg2 (ix1 k)
  refine congrArg (V c main_arg2) (funext fun a => Fin.ext ?_)
  match a with
  | ⟨0, _⟩ => show win0_2.index t (0 : Fin 1) * 4096 + 1 * k.val = k.val; omega

/-- Input window 3's block at any point is its whole vector. -/
theorem vecBlock0_3 (c : Dev nD) (t : Fin cfg0.N) (k : Fin 4096) :
    (iblk0 V c 3 t : Vec Ideal S4096 .f32) (ix1 k) = (V c main_arg3 : S4096.Idx → EReal) (ix1 k) := by
  obtain ⟨-, -, -, -, e2, e3, e4, e5, -⟩ := idx_facts0 t
  show V c main_arg3 (((cfg0.win 3).blk t).view.emb (ix1 k)) = V c main_arg3 (ix1 k)
  refine congrArg (V c main_arg3) (funext fun a => Fin.ext ?_)
  match a with
  | ⟨0, _⟩ => show win0_3.index t (0 : Fin 1) * 4096 + 1 * k.val = k.val; omega

/-- Input window 4's block at any point is its whole vector. -/
theorem vecBlock0_4 (c : Dev nD) (t : Fin cfg0.N) (k : Fin 4096) :
    (iblk0 V c 4 t : Vec Ideal S4096 .f32) (ix1 k) = (V c main_arg4 : S4096.Idx → EReal) (ix1 k) := by
  obtain ⟨-, -, -, -, e2, e3, e4, e5, -⟩ := idx_facts0 t
  show V c main_arg4 (((cfg0.win 4).blk t).view.emb (ix1 k)) = V c main_arg4 (ix1 k)
  refine congrArg (V c main_arg4) (funext fun a => Fin.ext ?_)
  match a with
  | ⟨0, _⟩ => show win0_4.index t (0 : Fin 1) * 4096 + 1 * k.val = k.val; omega

/-- Input window 5's block at any point is its whole vector. -/
theorem vecBlock0_5 (c : Dev nD) (t : Fin cfg0.N) (k : Fin 4096) :
    (iblk0 V c 5 t : Vec Ideal S4096 .f32) (ix1 k) = (V c main_arg5 : S4096.Idx → EReal) (ix1 k) := by
  obtain ⟨-, -, -, -, e2, e3, e4, e5, -⟩ := idx_facts0 t
  show V c main_arg5 (((cfg0.win 5).blk t).view.emb (ix1 k)) = V c main_arg5 (ix1 k)
  refine congrArg (V c main_arg5) (funext fun a => Fin.ext ?_)
  match a with
  | ⟨0, _⟩ => show win0_5.index t (0 : Fin 1) * 4096 + 1 * k.val = k.val; omega

/-- What point `t` writes back to result window 6: block `t` of the row-by-row normalisation of the whole input. -/
theorem flushed0_6_eq (c : Dev nD) (t : Fin cfg0.N) :
    (dat0 (F := Ideal) V c).flushed 6 t
      = ((cfg0.win 6).blk t).view.read (Elt Ideal) (Cert.Spec.lnArr (V c main_arg0) (V c main_arg2) (V c main_arg3)) := by
  show (cfg0.win 6).cut (grid0.coords t) ((dat0 V c).after 6 t) = _
  rw [after0_6]
  unfold out0_6
  rw [View.canon_unit_zero hz2]
  simp only [View.ld_unit_zero (S := S256x4096) hz2, View.ld_unit_zero (S := S4096) hz1]
  funext j
  obtain ⟨p, q, rfl⟩ : ∃ (p : Fin 256) (q : Fin 4096), j = ix2 p q := ⟨j 0, j 1, eq_ix2 j⟩
  refine (pay2_apply _ _ _ p q).trans ?_
  obtain ⟨-, -, -, -, -, -, -, -, e60, e61, e70, e71⟩ := idx_facts0 t
  have ht : t.val < 32 := Nat.lt_of_lt_of_eq t.isLt (show cfg0.N = 32 from N_0)
  have hemb : ((cfg0.win 6).blk t).view.emb (ix2 p q) = ix2 (⟨256 * t.val + p.val, by omega⟩ : Fin 8192) q := by
    funext a; apply Fin.ext
    match a with
    | ⟨0, _⟩ => show win0_6.index t (0 : Fin 2) * 256 + 1 * p.val = 256 * t.val + p.val; omega
    | ⟨1, _⟩ => show win0_6.index t (1 : Fin 2) * 4096 + 1 * q.val = q.val; omega
  show _ = Cert.Spec.lnArr (V c main_arg0) (V c main_arg2) (V c main_arg3) (((cfg0.win 6).blk t).view.emb (ix2 p q))
  rw [hemb]
  show _ = Cert.Spec.lnRow (Cert.Spec.rowOf (V c main_arg0) ⟨256 * t.val + p.val, by omega⟩) (Cert.Spec.vecOf (V c main_arg2)) (Cert.Spec.vecOf (V c main_arg3)) q
  congr 1
  · funext k; exact rowBlock0_0 V c t p k _ rfl
  · funext k; exact vecBlock0_2 V c t k
  · funext k; exact vecBlock0_3 V c t k

/-- What point `t` writes back to result window 7: block `t` of the row-by-row normalisation of the whole input. -/
theorem flushed0_7_eq (c : Dev nD) (t : Fin cfg0.N) :
    (dat0 (F := Ideal) V c).flushed 7 t
      = ((cfg0.win 7).blk t).view.read (Elt Ideal) (Cert.Spec.lnArr (V c main_arg1) (V c main_arg4) (V c main_arg5)) := by
  show (cfg0.win 7).cut (grid0.coords t) ((dat0 V c).after 7 t) = _
  rw [after0_7]
  unfold out0_7
  rw [View.canon_unit_zero hz2]
  simp only [View.ld_unit_zero (S := S256x4096) hz2, View.ld_unit_zero (S := S4096) hz1]
  funext j
  obtain ⟨p, q, rfl⟩ : ∃ (p : Fin 256) (q : Fin 4096), j = ix2 p q := ⟨j 0, j 1, eq_ix2 j⟩
  refine (pay1_apply _ _ _ p q).trans ?_
  obtain ⟨-, -, -, -, -, -, -, -, e60, e61, e70, e71⟩ := idx_facts0 t
  have ht : t.val < 32 := Nat.lt_of_lt_of_eq t.isLt (show cfg0.N = 32 from N_0)
  have hemb : ((cfg0.win 7).blk t).view.emb (ix2 p q) = ix2 (⟨256 * t.val + p.val, by omega⟩ : Fin 8192) q := by
    funext a; apply Fin.ext
    match a with
    | ⟨0, _⟩ => show win0_7.index t (0 : Fin 2) * 256 + 1 * p.val = 256 * t.val + p.val; omega
    | ⟨1, _⟩ => show win0_7.index t (1 : Fin 2) * 4096 + 1 * q.val = q.val; omega
  show _ = Cert.Spec.lnArr (V c main_arg1) (V c main_arg4) (V c main_arg5) (((cfg0.win 7).blk t).view.emb (ix2 p q))
  rw [hemb]
  show _ = Cert.Spec.lnRow (Cert.Spec.rowOf (V c main_arg1) ⟨256 * t.val + p.val, by omega⟩) (Cert.Spec.vecOf (V c main_arg4)) (Cert.Spec.vecOf (V c main_arg5)) q
  congr 1
  · funext k; exact rowBlock0_1 V c t p k _ rfl
  · funext k; exact vecBlock0_4 V c t k
  · funext k; exact vecBlock0_5 V c t k

/-- Every index of result array 6 is in the block of the point its row falls in. -/
theorem cover0_6 (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨t, ht⟩ : ∃ t : Fin cfg0.N, t.val = (i 0).val / 256 := ⟨⟨_, hlt⟩, rfl⟩
  refine ⟨t, flush0_6 t, ?_⟩
  obtain ⟨-, -, -, -, -, -, -, -, e60, e61, e70, e71⟩ := idx_facts0 t
  show i ∈ ((View.whole main_v0_0).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 4096 ≤ (i 1).val ∧ (i 1).val < win0_6.index t (1 : Fin 2) * 4096 + 4096
    omega

/-- Every index of result array 7 is in the block of the point its row falls in. -/
theorem cover0_7 (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨t, ht⟩ : ∃ t : Fin cfg0.N, t.val = (i 0).val / 256 := ⟨⟨_, hlt⟩, rfl⟩
  refine ⟨t, flush0_7 t, ?_⟩
  obtain ⟨-, -, -, -, -, -, -, -, e60, e61, e70, e71⟩ := idx_facts0 t
  show i ∈ ((View.whole main_v0_1).slice (win0_7.rect t)).set
  rw [View.set_slice_whole, Rect.mem_set_unit]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 4096 ≤ (i 1).val ∧ (i 1).val < win0_7.index t (1 : Fin 2) * 4096 + 4096
    omega

end Ln

open Ln

variable (V : (c : Dev nD) → (b : Ref sig .tc) → Buf (Elt Ideal) ((c : Thread nD τ).loc b))

/-! ## The two result arrays after the call -/

/-- Result array 6 after the call: the row-by-row normalisation of the whole input. -/
theorem final0_6 (c : Dev nD) :
    (dat0 (F := Ideal) V c).arrAt 6 cfg0.N = Cert.Spec.lnArr (V c main_arg0) (V c main_arg2) (V c main_arg3) :=
  (dat0 (F := Ideal) V c).arrAt_eq_of_cover 6 (Cert.Spec.lnArr (V c main_arg0) (V c main_arg2) (V c main_arg3))
    (fun t _ => flushed0_6_eq V c t) (cover0_6)

/-- Result array 7 after the call: the row-by-row normalisation of the whole input. -/
theorem final0_7 (c : Dev nD) :
    (dat0 (F := Ideal) V c).arrAt 7 cfg0.N = Cert.Spec.lnArr (V c main_arg1) (V c main_arg4) (V c main_arg5) :=
  (dat0 (F := Ideal) V c).arrAt_eq_of_cover 7 (Cert.Spec.lnArr (V c main_arg1) (V c main_arg4) (V c main_arg5))
    (fun t _ => flushed0_7_eq V c t) (cover0_7)

end Cert.KernelIdeal.Pipe

end
-- ==== Proof.GateValuePieces.lean ====
/- The gating region: each case's found pieces as the kernel's arithmetic over the loaded blocks. -/
import proofs.«114173_j69518340653173_2_alg».proof.Proof.GateRegion
import Idealize.ShloMosaic.Lib.Pipeline.Value

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What each case's stores leave, as the kernel's arithmetic over the loaded blocks

Generic in the float interface: the pieces each whole-body run found, read back, are the step's sum over the row blocks'
256-column slices and the weight blocks (and, at the last step, the epilogue of that sum). -/

theorem gate_hz : (![0, 0] : Fin 2 → Nat) = fun _ => 0 := funext fun a => by fin_cases a <;> rfl
theorem gate_hz1 : (![0] : Fin 1 → Nat) = fun _ => 0 := funext fun a => by fin_cases a <;> rfl

/-- The 256 columns of a row block that reduction step k multiplies: columns 256 k … 256 k + 255. -/
abbrev gateSlice (i : grid1.Coords) : Rect S256x4096 := Rect.unit (s := S256x4096) (k1_off1 i) S256x256.size (k1_off1_inb i)

/-- A middle step leaves in the accumulator what it held plus the two slice products. -/
theorem accMid_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : ¬atLastK i)
    (x0 x1 x2 x3 : Vec F S256x4096 .bf16) (x4 : Vec F S4096x2 .f32) (x5 : Vec F S4096 .f32) (x6 : Vec F S2 .f32) (xs : Vec F S256x4096 .f32) :
    accMid c i arg2 harg2 arg3 harg3 arg4 harg4 arg5 harg5 arg6 harg6 arg7 harg7 arg8 harg8 arg9 harg9 arg10 harg10 hc0 hc1 x0 x1 x2 x3 x4 x5 x6 xs
      = k1_pay2 (View.ld x0 (gateSlice i)) (View.ld x1 (gateSlice i)) xs x2 x3 := by
  unfold accMid
  rw [View.read_writes_eq_canon _ _ _ (accCoverMid c i arg2 harg2 arg3 harg3 arg4 harg4 arg5 harg5 arg6 harg6 arg7 harg7 arg8 harg8 arg9 harg9 arg10 harg10 hc0 hc1 x0 x1 x2 x3 x4 x5 x6 xs)]
  unfold gateRunMid
  dsimp only
  sl_unfold_words
  rw [View.canon_unit_zero gate_hz]
  simp only [View.readAt_eq_ld, harg2.read_unread, harg3.read_unread, harg4.read_unread, harg5.read_unread, harg6.read_unread, harg7.read_unread, harg8.read_unread, harg10.read_unread, View.ld_unit_zero (S := S256x4096) gate_hz, View.ld_unit_zero (S := S4096x2) gate_hz, View.ld_unit_zero (S := S4096) gate_hz1, View.ld_unit_zero (S := S2) gate_hz1]
  rfl

/-- The last step leaves in the accumulator what it held plus the two slice products, -/
theorem accLast_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) :
    accLast c i arg2 harg2 arg3 harg3 arg4 harg4 arg5 harg5 arg6 harg6 arg7 harg7 arg8 harg8 arg9 harg9 arg10 harg10 hc0 hc1 x0 x1 x2 x3 x4 x5 x6 xs
      = k1_pay2 (View.ld x0 (gateSlice i)) (View.ld x1 (gateSlice i)) xs x2 x3 := by
  unfold accLast
  rw [View.read_writes_eq_canon _ _ _ (accCoverLast c i arg2 harg2 arg3 harg3 arg4 harg4 arg5 harg5 arg6 harg6 arg7 harg7 arg8 harg8 arg9 harg9 arg10 harg10 hc0 hc1 x0 x1 x2 x3 x4 x5 x6 xs)]
  unfold gateRunLast
  dsimp only
  sl_unfold_words
  rw [View.canon_unit_zero gate_hz]
  simp only [View.readAt_eq_ld, harg2.read_unread, harg3.read_unread, harg4.read_unread, harg5.read_unread, harg6.read_unread, harg7.read_unread, harg8.read_unread, harg10.read_unread, View.ld_unit_zero (S := S256x4096) gate_hz, View.ld_unit_zero (S := S4096x2) gate_hz, View.ld_unit_zero (S := S4096) gate_hz1, View.ld_unit_zero (S := S2) gate_hz1]
  rfl

/-- and in the output block the epilogue of that: bias (window 5), the product with the second weight (window 4), its bias
    (window 6), and the two whole row blocks. -/
theorem fusedLast_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : ¬atFirstK i) (hc1 : atLastK i)
    (x0 x1 x2 x3 : Vec F S256x4096 .bf16) (x4 : Vec F S4096x2 .f32) (x5 : Vec F S4096 .f32) (x6 : Vec F S2 .f32) (xs : Vec F S256x4096 .f32) :
    fusedLast c i arg2 harg2 arg3 harg3 arg4 harg4 arg5 harg5 arg6 harg6 arg7 harg7 arg8 harg8 arg9 harg9 arg10 harg10 hc0 hc1 x0 x1 x2 x3 x4 x5 x6 xs
      = k1_pay3 (k1_pay2 (View.ld x0 (gateSlice i)) (View.ld x1 (gateSlice i)) xs x2 x3) x5 x4 x6 x0 x1 := by
  unfold fusedLast
  rw [View.read_writes_eq_canon _ _ _ (fusedCoverLast c i arg2 harg2 arg3 harg3 arg4 harg4 arg5 harg5 arg6 harg6 arg7 harg7 arg8 harg8 arg9 harg9 arg10 harg10 hc0 hc1 x0 x1 x2 x3 x4 x5 x6 xs)]
  unfold gateRunLast
  dsimp only
  sl_unfold_words
  rw [View.canon_unit_zero gate_hz]
  rw [View.readCov_unit_zero (S := S256x4096) (off := ![0, 0]) arg10.view gate_hz]
  simp only [View.readAt_eq_ld, harg2.read_unread, harg3.read_unread, harg4.read_unread, harg5.read_unread, harg6.read_unread, harg7.read_unread, harg8.read_unread, harg10.read_unread, View.ld_unit_zero (S := S256x4096) gate_hz, View.ld_unit_zero (S := S4096x2) gate_hz, View.ld_unit_zero (S := S4096) gate_hz1, View.ld_unit_zero (S := S2) gate_hz1]
  rfl

/-- The first step leaves in the accumulator the two slice products over the zero fill. -/
theorem accFirst_eq (c : Dev nD) (i : grid1.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S4096x2 .f32) (harg6 : arg6.IsWhole) (arg7 : Memref sig .tc .vmem S4096 .f32) (harg7 : arg7.IsWhole) (arg8 : Memref sig .tc .vmem S2 .f32) (harg8 : arg8.IsWhole) (arg9 : Memref sig .tc .vmem S256x4096 .bf16) (harg9 : arg9.IsWhole) (arg10 : Memref sig .tc .vmem S256x4096 .f32) (harg10 : arg10.IsWhole) (hc0 : atFirstK i) (hc1 : ¬atLastK i)
    (x0 x1 x2 x3 : Vec F S256x4096 .bf16) (x4 : Vec F S4096x2 .f32) (x5 : Vec F S4096 .f32) (x6 : Vec F S2 .f32) :
    accFirst c i arg2 harg2 arg3 harg3 arg4 harg4 arg5 harg5 arg6 harg6 arg7 harg7 arg8 harg8 arg9 harg9 arg10 harg10 hc0 hc1 x0 x1 x2 x3 x4 x5 x6
      = k1_pay2 (View.ld x0 (gateSlice i)) (View.ld x1 (gateSlice i)) k1_pay1 x2 x3 := by
  unfold accFirst
  rw [View.read_writes_eq_canon _ _ _ (accCoverFirst c i arg2 harg2 arg3 harg3 arg4 harg4 arg5 harg5 arg6 harg6 arg7 harg7 arg8 harg8 arg9 harg9 arg10 harg10 hc0 hc1 x0 x1 x2 x3 x4 x5 x6)]
  unfold gateRunFirst
  dsimp only
  sl_unfold_words
  rw [View.canon_cons_unit_zero gate_hz]
  rw [View.readCov_unit_zero (S := S256x4096) (off := ![0, 0]) arg10.view gate_hz]
  simp only [View.readAt_eq_ld, harg2.read_unread, harg3.read_unread, harg4.read_unread, harg5.read_unread, harg6.read_unread, harg7.read_unread, harg8.read_unread, harg10.read_unread, View.ld_unit_zero (S := S256x4096) gate_hz, View.ld_unit_zero (S := S4096x2) gate_hz, View.ld_unit_zero (S := S4096) gate_hz1, View.ld_unit_zero (S := S2) gate_hz1]
  rfl

end Cert.KernelIdeal.Pipe

end
-- ==== Proof.GateValueIdx.lean ====
/- The gating region: where each loaded block sits in its array. At point t (row block t / 16, reduction step t % 16)
   the two row blocks are rows 256 (t / 16) … of the normalised arrays, the two weight blocks rows 256 (t % 16) … of the two
   halves of the first weight, the second weight and the two biases whole; the step's slice of a row block is its columns
   256 (t % 16) …. -/
import proofs.«114173_j69518340653173_2_alg».proof.Proof.GateValuePieces
import Idealize.ShloMosaic.Lib.ValueIdx

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The step's column offset and the windows' block indices, decided over the grid -/

/-- The slice's offsets: row 0, column 256 (t % 16). -/
theorem gateOff : ∀ t : Fin cfg1.N, k1_off1 (grid1.coords t) 0 = 0 ∧ k1_off1 (grid1.coords t) 1 = 256 * (t.val % 16) :=
  (by decide +kernel : ∀ t : Fin grid1.N, k1_off1 (grid1.coords t) 0 = 0 ∧ k1_off1 (grid1.coords t) 1 = 256 * (t.val % 16))

/-- The block indices: the row blocks move with t / 16, the weight blocks with t % 16, the rest stay. -/
theorem gateIdx : ∀ t : Fin cfg1.N,
    win1_0.index t (0 : Fin 2) = t.val / 16 ∧ win1_0.index t (1 : Fin 2) = 0
    ∧ win1_1.index t (0 : Fin 2) = t.val / 16 ∧ win1_1.index t (1 : Fin 2) = 0
    ∧ win1_2.index t (0 : Fin 2) = t.val % 16 ∧ win1_2.index t (1 : Fin 2) = 0
    ∧ win1_3.index t (0 : Fin 2) = t.val % 16 ∧ win1_3.index t (1 : Fin 2) = 0
    ∧ win1_4.index t (0 : Fin 2) = 0 ∧ win1_4.index t (1 : Fin 2) = 0
    ∧ win1_5.index t (0 : Fin 1) = 0 ∧ win1_6.index t (0 : Fin 1) = 0 :=
  (by decide +kernel : ∀ t : Fin grid1.N, _)

/-- Row `p` of point `t`'s row block, in the arrays of 8192 rows. -/
def gateRow (t : Fin cfg1.N) (p : Fin 256) : Fin 8192 :=
  ⟨256 * (t.val / 16) + p.val, by have h := t.isLt; have hN : cfg1.N = 512 := N_1; omega⟩
/-- Row `q` of point `t`'s weight block, in the weight halves' 4096 rows; also column `q` of the step's slice. -/
def gateInner (t : Fin cfg1.N) (q : Fin 256) : Fin 4096 :=
  ⟨256 * (t.val % 16) + q.val, by omega⟩

theorem gateRow_val (t : Fin cfg1.N) (p : Fin 256) : (gateRow t p).val = 256 * (t.val / 16) + p.val := rfl
theorem gateInner_val (t : Fin cfg1.N) (q : Fin 256) : (gateInner t q).val = 256 * (t.val % 16) + q.val := rfl

/-! ## The loaded blocks at an index -/

theorem iblk1_0_apply (c : Dev nD) (t : Fin cfg1.N) (p : Fin 256) (j : Fin 4096) :
    iblk1 V c 0 t (ix2 p j) = V c main_v0_0 (ix2 (gateRow t p) j) := by
  obtain ⟨e00, e01, e10, e11, e20, e21, e30, e31, e40, e41, e5, e6⟩ := gateIdx t
  show V c main_v0_0 (((cfg1.win 0).blk t).view.emb (ix2 p j)) = _
  refine congrArg (V c main_v0_0) (funext fun a => Fin.ext ?_)
  match a with
  | ⟨0, _⟩ => show win1_0.index t (0 : Fin 2) * 256 + 1 * p.val = 256 * (t.val / 16) + p.val; omega
  | ⟨1, _⟩ => show win1_0.index t (1 : Fin 2) * 4096 + 1 * j.val = j.val; omega

theorem iblk1_1_apply (c : Dev nD) (t : Fin cfg1.N) (p : Fin 256) (j : Fin 4096) :
    iblk1 V c 1 t (ix2 p j) = V c main_v0_1 (ix2 (gateRow t p) j) := by
  obtain ⟨e00, e01, e10, e11, e20, e21, e30, e31, e40, e41, e5, e6⟩ := gateIdx t
  show V c main_v0_1 (((cfg1.win 1).blk t).view.emb (ix2 p j)) = _
  refine congrArg (V c main_v0_1) (funext fun a => Fin.ext ?_)
  match a with
  | ⟨0, _⟩ => show win1_1.index t (0 : Fin 2) * 256 + 1 * p.val = 256 * (t.val / 16) + p.val; omega
  | ⟨1, _⟩ => show win1_1.index t (1 : Fin 2) * 4096 + 1 * j.val = j.val; omega

theorem iblk1_2_apply (c : Dev nD) (t : Fin cfg1.N) (p : Fin 256) (j : Fin 4096) :
    iblk1 V c 2 t (ix2 p j) = V c main_v2 (ix2 (gateInner t p) j) := by
  obtain ⟨e00, e01, e10, e11, e20, e21, e30, e31, e40, e41, e5, e6⟩ := gateIdx t
  show V c main_v2 (((cfg1.win 2).blk t).view.emb (ix2 p j)) = _
  refine congrArg (V c main_v2) (funext fun a => Fin.ext ?_)
  match a with
  | ⟨0, _⟩ => show win1_2.index t (0 : Fin 2) * 256 + 1 * p.val = 256 * (t.val % 16) + p.val; omega
  | ⟨1, _⟩ => show win1_2.index t (1 : Fin 2) * 4096 + 1 * j.val = j.val; omega

theorem iblk1_3_apply (c : Dev nD) (t : Fin cfg1.N) (p : Fin 256) (j : Fin 4096) :
    iblk1 V c 3 t (ix2 p j) = V c main_v4 (ix2 (gateInner t p) j) := by
  obtain ⟨e00, e01, e10, e11, e20, e21, e30, e31, e40, e41, e5, e6⟩ := gateIdx t
  show V c main_v4 (((cfg1.win 3).blk t).view.emb (ix2 p j)) = _
  refine congrArg (V c main_v4) (funext fun a => Fin.ext ?_)
  match a with
  | ⟨0, _⟩ => show win1_3.index t (0 : Fin 2) * 256 + 1 * p.val = 256 * (t.val % 16) + p.val; omega
  | ⟨1, _⟩ => show win1_3.index t (1 : Fin 2) * 4096 + 1 * j.val = j.val; omega

/-- The second weight, whole. -/
theorem iblk1_4_apply (c : Dev nD) (t : Fin cfg1.N) (j : Fin 4096) (k : Fin 2) :
    iblk1 V c 4 t (ix2 j k) = V c main_arg8 (ix2 j k) := by
  obtain ⟨e00, e01, e10, e11, e20, e21, e30, e31, e40, e41, e5, e6⟩ := gateIdx t
  show V c main_arg8 (((cfg1.win 4).blk t).view.emb (ix2 j k)) = _
  refine congrArg (V c main_arg8) (funext fun a => Fin.ext ?_)
  match a with
  | ⟨0, _⟩ => show win1_4.index t (0 : Fin 2) * 4096 + 1 * j.val = j.val; omega
  | ⟨1, _⟩ => show win1_4.index t (1 : Fin 2) * 2 + 1 * k.val = k.val; omega

/-- The first bias, whole. -/
theorem iblk1_5_apply (c : Dev nD) (t : Fin cfg1.N) (j : Fin 4096) :
    iblk1 V c 5 t (ix1 j) = V c main_arg7 (ix1 j) := by
  obtain ⟨e00, e01, e10, e11, e20, e21, e30, e31, e40, e41, e5, e6⟩ := gateIdx t
  show V c main_arg7 (((cfg1.win 5).blk t).view.emb (ix1 j)) = _
  refine congrArg (V c main_arg7) (funext fun a => Fin.ext ?_)
  match a with
  | ⟨0, _⟩ => show win1_5.index t (0 : Fin 1) * 4096 + 1 * j.val = j.val; omega

/-- The second bias, whole. -/
theorem iblk1_6_apply (c : Dev nD) (t : Fin cfg1.N) (k : Fin 2) :
    iblk1 V c 6 t (ix1 k) = V c main_arg9 (ix1 k) := by
  obtain ⟨e00, e01, e10, e11, e20, e21, e30, e31, e40, e41, e5, e6⟩ := gateIdx t
  show V c main_arg9 (((cfg1.win 6).blk t).view.emb (ix1 k)) = _
  refine congrArg (V c main_arg9) (funext fun a => Fin.ext ?_)
  match a with
  | ⟨0, _⟩ => show win1_6.index t (0 : Fin 1) * 2 + 1 * k.val = k.val; omega

/-! ## The step's slice at an index -/

/-- The slice of a row block at `(p, q)`: the block at row `p`, column 256 (t % 16) + q. -/
theorem gateSlice_apply (x : Vec F S256x4096 .bf16) (t : Fin cfg1.N) (p q : Fin 256) :
    View.ld x (gateSlice (grid1.coords t)) (ix2 p q) = x (ix2 p (gateInner t q)) := by
  obtain ⟨o0, o1⟩ := gateOff t
  show x ((gateSlice (grid1.coords t)).idx (ix2 p q)) = _
  refine congrArg x (funext fun a => Fin.ext ?_)
  match a with
  | ⟨0, _⟩ => show k1_off1 (grid1.coords t) 0 + 1 * p.val = p.val; omega
  | ⟨1, _⟩ => show k1_off1 (grid1.coords t) 1 + 1 * q.val = 256 * (t.val % 16) + q.val; omega

end Cert.KernelIdeal.Pipe

end
-- ==== Proof.GateValuePay.lean ====
/- The gating kernel's accumulation step, read at an index on the extended reals. -/
import proofs.«114173_j69518340653173_2_alg».proof.Proof.Gen.KernelIdeal.Skeleton
import proofs.«114173_j69518340653173_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pipe

open Idealize.ShloMosaic Idealize.ShloMosaic.TcCoe Idealize.ShloMosaic.ValueIdx
open Cert.KernelIdeal Cert.KernelIdeal.Gen

/-! # The accumulation step at an index

One reduction step adds to the accumulator, at row `p` and column `j` of the block, the two products over the step's 256
columns: the slice of the first normalised row block against the step's block of the first half of the weight, and likewise
for the second. Read on the extended reals, where a matrix product is its finite sum. -/

/-- The dot's left operand index: its row is the output's row, -/
theorem gateDot_lhs_row (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
/-- its column the contraction index. -/
theorem gateDot_lhs_col (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
/-- The right operand index: its row is the contraction index, -/
theorem gateDot_rhs_row (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
/-- its column the output's column. -/
theorem gateDot_rhs_col (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- A (256 × 256) by (256 × 4096) product accumulated into zero, at row `p` and column `j`: the sum over the 256 inner
    indices of the products. -/
theorem gateDot_apply (a : FVec Ideal S256x256 .bf16) (b : FVec Ideal S256x4096 .bf16) (p : Fin 256) (j : Fin 4096) :
    (matmul (F := Ideal) dot_S256x256_S256x4096_S256x4096_1_0_0_1_n_n none a b (constant S256x4096 .f32 0x00000000#32) (ix2 p j) : EReal)
      = ∑ q : Fin 256, (a (ix2 p q) : EReal) * (b (ix2 q j) : EReal) := by
  refine (Ideal.matmul_constant_zero_apply dot_S256x256_S256x4096_S256x4096_1_0_0_1_n_n none a b (ix2 p j)).trans ?_
  rw [← Equiv.sum_comp (ValueIdx.contrEquiv1 dot_S256x256_S256x4096_S256x4096_1_0_0_1_n_n 256 rfl rfl).symm]
  refine Finset.sum_congr rfl fun k _ => ?_
  have hk := ValueIdx.contrEquiv1_symm_val dot_S256x256_S256x4096_S256x4096_1_0_0_1_n_n 256 rfl rfl k
  have el : dot_S256x256_S256x4096_S256x4096_1_0_0_1_n_n.lhsIdx (ix2 p j) ((ValueIdx.contrEquiv1 dot_S256x256_S256x4096_S256x4096_1_0_0_1_n_n 256 rfl rfl).symm k) = ix2 p k := funext fun a => Fin.ext (by
    match a with
    | ⟨0, _⟩ => exact gateDot_lhs_row _ _
    | ⟨1, _⟩ => exact (gateDot_lhs_col _ _).trans hk)
  have er : dot_S256x256_S256x4096_S256x4096_1_0_0_1_n_n.rhsIdx (ix2 p j) ((ValueIdx.contrEquiv1 dot_S256x256_S256x4096_S256x4096_1_0_0_1_n_n 256 rfl rfl).symm k) = ix2 k j := funext fun a => Fin.ext (by
    match a with
    | ⟨0, _⟩ => exact (gateDot_rhs_row _ _).trans hk
    | ⟨1, _⟩ => exact gateDot_rhs_col _ _)
  rw [el, er]

/-- THE STEP: the accumulator's new value at `(p, j)` is its old value there plus the two slice products. -/
theorem k1_pay2_apply (ts ks : Vec Ideal S256x256 .bf16) (acc : Vec Ideal S256x4096 .f32) (wa wb : Vec Ideal S256x4096 .bf16)
    (p : Fin 256) (j : Fin 4096) :
    k1_pay2 (F := Ideal) ts ks acc wa wb (ix2 p j)
      = (acc (ix2 p j) : EReal) + ((∑ q : Fin 256, (ts (ix2 p q) : EReal) * (wa (ix2 q j) : EReal)) + (∑ q : Fin 256, (ks (ix2 p q) : EReal) * (wb (ix2 q j) : EReal))) := by
  unfold k1_pay2
  simp only [shapeCast_self]
  exact congrArg ((acc (ix2 p j) : EReal) + ·) (congrArg₂ (· + ·) (gateDot_apply ts wa p j) (gateDot_apply ks wb p j))

/-- The zero fill at an index: the extended real zero. -/
theorem k1_pay1_apply (y : S256x4096.Idx) : (k1_pay1 (F := Ideal) y : EReal) = 0 := by
  unfold k1_pay1
  simp only [shapeCast_self]
  exact Ideal.ofBits_zero_f32

end Cert.KernelIdeal.Pipe

end
-- ==== Proof.GateValueSum.lean ====
import proofs.«114173_j69518340653173_2_alg».proof.Proof.Spec

/-!
# The hidden layer's sums, block by block

A sum over the 4096 positions of a row is the sum, over the 16 blocks of 256 consecutive positions, of the sums
within each block. The hidden layer's two sums, taken block by block and added up, are therefore the two sums
of the row-by-row description.
-/

noncomputable section

namespace Cert.KernelIdeal.Pipe.GateSum

open scoped BigOperators

/-- The 4096 positions as 16 blocks of 256: position `256 * block + offset`. -/
def gateBlockEquiv : Fin 16 × Fin 256 ≃ Fin 4096 where
  toFun a := ⟨256 * a.1.val + a.2.val, by have := a.1.isLt; have := a.2.isLt; omega⟩
  invFun k := (⟨k.val / 256, by have := k.isLt; omega⟩, ⟨k.val % 256, Nat.mod_lt _ (by decide)⟩)
  left_inv a := by
    have h1 := a.1.isLt
    have h2 := a.2.isLt
    refine Prod.ext (Fin.ext ?_) (Fin.ext ?_)
    · show (256 * a.1.val + a.2.val) / 256 = a.1.val
      omega
    · show (256 * a.1.val + a.2.val) % 256 = a.2.val
      omega
  right_inv k := Fin.ext (by
    show 256 * (k.val / 256) + k.val % 256 = k.val
    omega)

/-- A sum over the 4096 positions, block by block, for any way `c` of writing position `256 * block + offset`. -/
theorem gateSum_blocks16 {M : Type*} [AddCommMonoid M] (f : Fin 4096 → M) (c : Fin 16 → Fin 256 → Fin 4096)
    (hc : ∀ kb q, (c kb q).val = 256 * kb.val + q.val) :
    ∑ k : Fin 4096, f k = ∑ kb : Fin 16, ∑ q : Fin 256, f (c kb q) := by
  rw [← Equiv.sum_comp gateBlockEquiv f, Fintype.sum_prod_type]
  exact Finset.sum_congr rfl fun kb _ => Finset.sum_congr rfl fun q _ => congrArg f (Fin.ext (hc kb q).symm)

/-- The same with the position written out. -/
theorem gateSum_blocks16_lit {M : Type*} [AddCommMonoid M] (f : Fin 4096 → M) :
    ∑ k : Fin 4096, f k
      = ∑ kb : Fin 16, ∑ q : Fin 256, f ⟨256 * kb.val + q.val, by have := kb.isLt; have := q.isLt; omega⟩ :=
  gateSum_blocks16 f (fun kb q => ⟨256 * kb.val + q.val, by have := kb.isLt; have := q.isLt; omega⟩) fun _ _ => rfl

/-- The same with the blocks counted by a natural number below 16. -/
theorem gateSum_blocks_range {M : Type*} [AddCommMonoid M] (f : Fin 4096 → M) (g : ℕ → M)
    (hg : ∀ kb : Fin 16, g kb.val = ∑ q : Fin 256, f ⟨256 * kb.val + q.val, by have := kb.isLt; have := q.isLt; omega⟩) :
    ∑ i ∈ Finset.range 16, g i = ∑ k : Fin 4096, f k := by
  rw [Finset.sum_range, gateSum_blocks16_lit f]
  exact Finset.sum_congr rfl fun kb _ => hg kb

/-- The hidden layer at one position: the block sums of the two products added up, plus the bias, positive part. -/
theorem gateHid_of_blocks (tn kn : Fin 4096 → EReal) (Wa Wb : Fin 4096 → Fin 4096 → EReal) (b1 : Fin 4096 → EReal)
    (j : Fin 4096) (c : Fin 16 → Fin 256 → Fin 4096) (hc : ∀ kb q, (c kb q).val = 256 * kb.val + q.val) :
    max ((∑ kb : Fin 16, ((∑ q : Fin 256, tn (c kb q) * Wa (c kb q) j) + (∑ q : Fin 256, kn (c kb q) * Wb (c kb q) j)))
        + b1 j) 0
      = Cert.Spec.hid tn kn Wa Wb b1 j := by
  have h1 : ∑ k, tn k * Wa k j = ∑ kb : Fin 16, ∑ q : Fin 256, tn (c kb q) * Wa (c kb q) j :=
    gateSum_blocks16 (fun k => tn k * Wa k j) c hc
  have h2 : ∑ k, kn k * Wb k j = ∑ kb : Fin 16, ∑ q : Fin 256, kn (c kb q) * Wb (c kb q) j :=
    gateSum_blocks16 (fun k => kn k * Wb k j) c hc
  unfold Cert.Spec.hid
  rw [Finset.sum_add_distrib, ← h1, ← h2]

/-- The same with the position written out. -/
theorem gateHid_of_blocks_lit (tn kn : Fin 4096 → EReal) (Wa Wb : Fin 4096 → Fin 4096 → EReal) (b1 : Fin 4096 → EReal)
    (j : Fin 4096) :
    max ((∑ kb : Fin 16,
          ((∑ q : Fin 256, tn ⟨256 * kb.val + q.val, by have := kb.isLt; have := q.isLt; omega⟩
              * Wa ⟨256 * kb.val + q.val, by have := kb.isLt; have := q.isLt; omega⟩ j)
            + (∑ q : Fin 256, kn ⟨256 * kb.val + q.val, by have := kb.isLt; have := q.isLt; omega⟩
              * Wb ⟨256 * kb.val + q.val, by have := kb.isLt; have := q.isLt; omega⟩ j)))
        + b1 j) 0
      = Cert.Spec.hid tn kn Wa Wb b1 j :=
  gateHid_of_blocks tn kn Wa Wb b1 j
    (fun kb q => ⟨256 * kb.val + q.val, by have := kb.isLt; have := q.isLt; omega⟩) fun _ _ => rfl

/-- The hidden layer from a running total that starts at zero and adds one block's two sums at each of the
    16 steps, the steps counted by a natural number: `g i` is step `i`'s contribution. -/
theorem gateHid_of_range (tn kn : Fin 4096 → EReal) (Wa Wb : Fin 4096 → Fin 4096 → EReal) (b1 : Fin 4096 → EReal)
    (j : Fin 4096) (c : Fin 16 → Fin 256 → Fin 4096) (hc : ∀ kb q, (c kb q).val = 256 * kb.val + q.val)
    (g : ℕ → EReal)
    (hg : ∀ kb : Fin 16, g kb.val
      = (∑ q : Fin 256, tn (c kb q) * Wa (c kb q) j) + (∑ q : Fin 256, kn (c kb q) * Wb (c kb q) j)) :
    max ((0 + ∑ i ∈ Finset.range 16, g i) + b1 j) 0 = Cert.Spec.hid tn kn Wa Wb b1 j := by
  rw [zero_add, Finset.sum_range, ← gateHid_of_blocks tn kn Wa Wb b1 j c hc]
  exact congrArg (fun s => max (s + b1 j) 0) (Finset.sum_congr rfl fun kb _ => hg kb)

end Cert.KernelIdeal.Pipe.GateSum

end
-- ==== Proof.GateValueAcc.lean ====
/- The gating region's accumulator in closed form, on the extended reals: after the point at reduction step k of a row
   block it holds, at row p and column j, the sum over the steps 0 … k of the two products of the step's 256 columns of the
   row with the step's 256 rows of the weight halves; after the last step, the two whole products over all 4096 columns. -/
import proofs.«114173_j69518340653173_2_alg».proof.Proof.GateValueIdx
import proofs.«114173_j69518340653173_2_alg».proof.Proof.GateValuePay
import proofs.«114173_j69518340653173_2_alg».proof.Proof.GateValueSum

set_option maxRecDepth 16384

noncomputable section

namespace Cert.KernelIdeal.Pipe

open Idealize.ShloMosaic Idealize.ShloMosaic.TcCoe Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! ## One step's contribution -/

/-- What the reduction step of point `t` adds at row `p` of its row block and column `j`: the step's 256 columns of the two
    normalised rows against the step's 256 rows of the two weight halves. -/
def gateStep (c : Dev nD) (t : Fin cfg1.N) (p : Fin 256) (j : Fin 4096) : EReal :=
  (∑ q : Fin 256, Cert.Spec.rowOf (V c main_v0_0) (gateRow t p) (gateInner t q) * Cert.Spec.sqOf (V c main_v2) (gateInner t q) j)
    + (∑ q : Fin 256, Cert.Spec.rowOf (V c main_v0_1) (gateRow t p) (gateInner t q) * Cert.Spec.sqOf (V c main_v4) (gateInner t q) j)

/-- The kernel's step over point `t`'s loaded blocks adds exactly that to whatever the accumulator held. -/
theorem gateStep_of (c : Dev nD) (t : Fin cfg1.N) (p : Fin 256) (j : Fin 4096) (acc : Vec Ideal S256x4096 .f32) :
    (k1_pay2 (F := Ideal) (View.ld (iblk1 V c 0 t) (gateSlice (grid1.coords t))) (View.ld (iblk1 V c 1 t) (gateSlice (grid1.coords t)))
        acc (iblk1 V c 2 t) (iblk1 V c 3 t) (ix2 p j) : EReal)
      = (acc (ix2 p j) : EReal) + gateStep V c t p j := by
  refine (k1_pay2_apply _ _ acc _ _ p j).trans ?_
  unfold gateStep
  refine congrArg ((acc (ix2 p j) : EReal) + ·) (congrArg₂ (· + ·) (Finset.sum_congr rfl fun q _ => ?_) (Finset.sum_congr rfl fun q _ => ?_))
  · exact congrArg₂ (fun x y : EReal => x * y) ((gateSlice_apply (iblk1 V c 0 t) t p q).trans (iblk1_0_apply V c t p (gateInner t q))) (iblk1_2_apply V c t q j)
  · exact congrArg₂ (fun x y : EReal => x * y) ((gateSlice_apply (iblk1 V c 1 t) t p q).trans (iblk1_1_apply V c t p (gateInner t q))) (iblk1_3_apply V c t q j)

/-- The step of position `s`, zero past the grid: so that sums over positions need no bound in their index. -/
def gateStepN (c : Dev nD) (s : ℕ) (p : Fin 256) (j : Fin 4096) : EReal :=
  if h : s < cfg1.N then gateStep V c ⟨s, h⟩ p j else 0

theorem gateStepN_of_lt (c : Dev nD) (s : ℕ) (h : s < cfg1.N) (p : Fin 256) (j : Fin 4096) :
    gateStepN V c s p j = gateStep V c ⟨s, h⟩ p j := dif_pos h

/-! ## The accumulator after each point -/

/-- THE ACCUMULATOR after the point at position `n`: the steps of its row block so far, positions 16 (n / 16) … n. By induction
    on the position along the three cases: at step 0 the sum restarts from the zero fill, afterwards it extends by one. -/
theorem gateAcc_closed (c : Dev nD) (p : Fin 256) (j : Fin 4096) : ∀ (n : ℕ) (hn : n < cfg1.N),
    ((outsAt1 V c n hn).2 (ix2 p j) : EReal) = ∑ k ∈ Finset.range (n % 16 + 1), gateStepN V c (16 * (n / 16) + k) p j := by
  intro n
  induction n using Nat.strong_induction_on with
  | _ n ih =>
    intro hn
    have hN : n < 512 := lt_of_lt_of_eq hn (show cfg1.N = 512 from N_1)
    have hself : 16 * (n / 16) + n % 16 = n := Nat.div_add_mod n 16
    set t : Fin cfg1.N := ⟨n, hn⟩ with ht
    by_cases h0 : n % 16 = 0
    · have h1 : ¬n % 16 = 15 := by omega
      have e := congrArg Prod.snd (outsAt1_first V c t h0 h1)
      dsimp only at e
      rw [show (outsAt1 V c n hn).2 = (outsAt1 V c t.val t.isLt).2 from rfl, e, accFirst_eq c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) ((atFirstK_iff t).mpr h0) (fun h => h1 ((atLastK_iff t).mp h)) (iblk1 V c 0 t) (iblk1 V c 1 t) (iblk1 V c 2 t) (iblk1 V c 3 t) (iblk1 V c 4 t) (iblk1 V c 5 t) (iblk1 V c 6 t)]
      refine (gateStep_of V c t p j (k1_pay1 (F := Ideal))).trans ?_
      rw [k1_pay1_apply, zero_add]
      rw [show n % 16 + 1 = 1 from by omega, Finset.sum_range_one, Nat.add_zero, show 16 * (n / 16) = n from by omega]
      exact (gateStepN_of_lt V c n hn p j).symm
    · have hprev : n - 1 < n := by omega
      have hpm : (n - 1) % 16 + 1 = n % 16 := by omega
      have hpd : (n - 1) / 16 = n / 16 := by omega
      have hacc := ih (n - 1) hprev (Nat.lt_of_le_of_lt (Nat.sub_le _ _) t.isLt)
      have hsum : (∑ k ∈ Finset.range (n % 16 + 1), gateStepN V c (16 * (n / 16) + k) p j)
          = (∑ k ∈ Finset.range ((n - 1) % 16 + 1), gateStepN V c (16 * ((n - 1) / 16) + k) p j) + gateStep V c t p j := by
        rw [Finset.sum_range_succ, hself, gateStepN_of_lt V c n hn p j, hpm, hpd]
      by_cases h1 : n % 16 = 15
      · have e := congrArg Prod.snd (outsAt1_last V c t h0 h1)
        dsimp only at e
        rw [show (outsAt1 V c n hn).2 = (outsAt1 V c t.val t.isLt).2 from rfl, e, accLast_eq c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2]
        refine (gateStep_of V c t p j _).trans ?_
        rw [hsum]
        exact congrArg (· + gateStep V c t p j) hacc
      · have e := congrArg Prod.snd (outsAt1_mid V c t h0 h1)
        dsimp only at e
        rw [show (outsAt1 V c n hn).2 = (outsAt1 V c t.val t.isLt).2 from rfl, e, accMid_eq c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) (fun h => h1 ((atLastK_iff t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2]
        refine (gateStep_of V c t p j _).trans ?_
        rw [hsum]
        exact congrArg (· + gateStep V c t p j) hacc

/-! ## After the last step: the two whole products -/

/-- The point at reduction step `kb` of the row block of point `t`. -/
def gatePt (t : Fin cfg1.N) (kb : Fin 16) : Fin cfg1.N :=
  ⟨16 * (t.val / 16) + kb.val, by have h := t.isLt; have hN : cfg1.N = 512 := N_1; have := kb.isLt; omega⟩

/-- Its step's columns are 256 kb …, -/
theorem gatePt_inner (t : Fin cfg1.N) (kb : Fin 16) (q : Fin 256) : (gateInner (gatePt t kb) q).val = 256 * kb.val + q.val := by
  show 256 * ((16 * (t.val / 16) + kb.val) % 16) + q.val = _
  have := kb.isLt; omega
/-- and its rows are the rows of `t`'s row block. -/
theorem gatePt_row (t : Fin cfg1.N) (kb : Fin 16) (p : Fin 256) : gateRow (gatePt t kb) p = gateRow t p := Fin.ext (by
  show 256 * ((16 * (t.val / 16) + kb.val) / 16) + p.val = 256 * (t.val / 16) + p.val
  have := kb.isLt; omega)

/-- THE ACCUMULATOR AFTER THE LAST STEP of a row block: at row `p` and column `j`, the row of the first normalised array against
    column `j` of the first weight half plus the row of the second against column `j` of the second half, each over all 4096
    inner indices — the sixteen steps' 256-column sums put together. -/
theorem gateAcc_last (c : Dev nD) (t : Fin cfg1.N) (ht : t.val % 16 = 15) (p : Fin 256) (j : Fin 4096) :
    ((outsAt1 V c t.val t.isLt).2 (ix2 p j) : EReal)
      = (∑ k : Fin 4096, Cert.Spec.rowOf (V c main_v0_0) (gateRow t p) k * Cert.Spec.sqOf (V c main_v2) k j)
        + (∑ k : Fin 4096, Cert.Spec.rowOf (V c main_v0_1) (gateRow t p) k * Cert.Spec.sqOf (V c main_v4) k j) := by
  rw [gateAcc_closed V c p j t.val t.isLt, show t.val % 16 + 1 = 16 from by omega]
  rw [← Fin.sum_univ_eq_sum_range (fun k => gateStepN V c (16 * (t.val / 16) + k) p j) 16]
  rw [GateSum.gateSum_blocks16 (fun k => Cert.Spec.rowOf (V c main_v0_0) (gateRow t p) k * Cert.Spec.sqOf (V c main_v2) k j) (fun kb q => gateInner (gatePt t kb) q) (gatePt_inner t),
    GateSum.gateSum_blocks16 (fun k => Cert.Spec.rowOf (V c main_v0_1) (gateRow t p) k * Cert.Spec.sqOf (V c main_v4) k j) (fun kb q => gateInner (gatePt t kb) q) (gatePt_inner t),
    ← Finset.sum_add_distrib]
  refine Finset.sum_congr rfl fun kb _ => ?_
  rw [gateStepN_of_lt V c (16 * (t.val / 16) + kb.val) (gatePt t kb).isLt p j]
  show gateStep V c (gatePt t kb) p j = _
  unfold gateStep
  rw [gatePt_row t kb p]

end Cert.KernelIdeal.Pipe

end
-- ==== Proof.GateValueEpi.lean ====
import proofs.«114173_j69518340653173_2_alg».proof.Proof.Gen.KernelIdeal.Skeleton
import proofs.«114173_j69518340653173_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The last step of the gate, read at an index

At its last step the gate holds, in the loaded accumulator, the two matrix products of a block of 256 rows.
It adds the first bias and takes the positive part (the hidden rows), multiplies the hidden rows with the
second weight and adds the second bias (two logits per row), takes the softmax of each row's two logits with
the larger subtracted first, and mixes the two normalised row blocks with the two softmax weights. Read on the
extended reals, where the narrowing and widening format changes are the identity, the stored block at `(p, q)`
is `smax l 0 * t (p, q) + smax l 1 * k (p, q)` with `l` the two logits of row `p`.
-/

set_option maxRecDepth 16384

noncomputable section

namespace Cert.KernelIdeal.Pipe.Epi

open Cert.KernelIdeal Cert.KernelIdeal.Gen Idealize.ShloMosaic Idealize.ShloMosaic.ValueIdx Idealize.SL.Sem
open scoped BigOperators

/-! ## Layout operations around a kept unit column, at an index -/

/-- A vector `[a]` cast to a column `[a, 1]` reads, at `(i, u)`, the vector at `i`. -/
theorem colCast_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The unit-wide slice of a two-column block at column offset 0 reads the first column. -/
theorem sliceCol0_apply {α : Type} (v : S256x2.Idx → α) (h : S256x2.Slices ![0, 0] S256x1) (p : Fin 256) (u : Fin 1) :
    extractStridedSlice S256x1 ![0, 0] v h (ix2 p u) = v (ix2 p (0 : Fin 2)) :=
  extractStridedSlice_apply ![0, 0] v h (ix2 p u) (ix2 p (0 : Fin 2)) fun ax =>
    match ax with
    | ⟨0, _⟩ => (Nat.zero_add _).symm
    | ⟨1, _⟩ => by
      have hu : u.val = 0 := by omega
      show (0 : ℕ) = 0 + u.val
      rw [hu]

/-- The unit-wide slice of a two-column block at column offset 1 reads the second column. -/
theorem sliceCol1_apply {α : Type} (v : S256x2.Idx → α) (h : S256x2.Slices ![0, 1] S256x1) (p : Fin 256) (u : Fin 1) :
    extractStridedSlice S256x1 ![0, 1] v h (ix2 p u) = v (ix2 p (1 : Fin 2)) :=
  extractStridedSlice_apply ![0, 1] v h (ix2 p u) (ix2 p (1 : Fin 2)) fun ax =>
    match ax with
    | ⟨0, _⟩ => (Nat.zero_add _).symm
    | ⟨1, _⟩ => by
      have hu : u.val = 0 := by omega
      show (1 : ℕ) = 1 + u.val
      rw [hu]

/-- An exponential at an index is the exponential of the element. -/
theorem exp_idx {s : Shape} {φ : FTy} (a : FVec Ideal s φ) (i : s.Idx) : exp a i = Ideal.exp (a i) := rfl

/-! ## The two reductions over the two columns, at a row -/

/-- The index of a two-column block over row `p` with column `k` inserted. -/
theorem lift_two (h : S256x2.Reduces [1] S256) (p : Fin 256) (k : Fin 2) :
    h.lift (ix1 p) k = ix2 p k :=
  funext fun a => match a with | ⟨0, _⟩ => Fin.ext rfl | ⟨1, _⟩ => Fin.ext rfl

/-- The sum over the two columns of a (256, 2) block, at row `p`. -/
theorem pairSum_apply (v : FVec Ideal S256x2 .f32) (h : S256x2.Reduces [1] S256) (hφ : FKind.Formats .f32)
    (hacc : (0x00000000#32 : BitVec 32) = 0x00000000#32) (p : Fin 256) :
    multiReduction .add [1] S256 v 0x00000000#32 h hφ hacc (ix1 p) = v (ix2 p (0 : Fin 2)) + v (ix2 p (1 : Fin 2)) :=
  (Ideal.multiReduction_add_single v 0x00000000#32 h hφ hacc (ix1 p)).trans
    ((Fin.sum_univ_two (fun k : Fin 2 => v (h.lift (ix1 p) k))).trans
      (by rw [lift_two, lift_two]))

/-- A fold of `max` over the two-element index set, from `b`. -/
theorem fold_max_pair (b : EReal) (g : Fin 2 → EReal) :
    (Finset.univ : Finset (Fin 2)).fold max b g = max (g 0) (max (g 1) b) := by
  rw [show (Finset.univ : Finset (Fin 2)) = {0, 1} from by decide, Finset.fold_insert (by decide), Finset.fold_singleton]

/-- The word of minus infinity reads as the bottom element. -/
theorem ofBits_negInf : Ideal.ofBits .f32 0xFF800000#32 = (⊥ : EReal) := by simp [Ideal.ofBits, Ideal.ieee]

/-- The maximum over the two columns of a (256, 2) block, at row `p`. -/
theorem pairMax_apply (v : FVec Ideal S256x2 .f32) (h : S256x2.Reduces [1] S256) (hφ : FKind.Formats .f32)
    (hacc : (0xFF800000#32 : BitVec 32) = 0xFF800000#32) (p : Fin 256) :
    multiReduction .maximumf [1] S256 v 0xFF800000#32 h hφ hacc (ix1 p) = max (v (ix2 p (0 : Fin 2))) (v (ix2 p (1 : Fin 2))) :=
  (Ideal.multiReduction_maximumf_single v 0xFF800000#32 h hφ hacc (ix1 p)).trans
    ((fold_max_pair _ (v ∘ h.lift (ix1 p))).trans (by
      show max (v (h.lift (ix1 p) (0 : Fin 2))) (max (v (h.lift (ix1 p) (1 : Fin 2))) (Ideal.ofBits .f32 0xFF800000#32)) = _
      rw [lift_two, lift_two, ofBits_negInf, max_bot_right]))

/-! ## The product with the second weight, at an index -/

/-- Off the contracted axis the left operand's index keeps the result's row. -/
theorem dotLhs_row (i : S256x2.Idx) (q : dot_S256x4096_S4096x2_S256x2_1_0_0_1_n_n.contr.Idx) :
    (dot_S256x4096_S4096x2_S256x2_1_0_0_1_n_n.lhsIdx i q 0).val = (i 0).val := by
  unfold DotDims.lhsIdx
  rw [dif_neg (show ¬(0 : Fin S256x4096.rank) ∈ dot_S256x4096_S4096x2_S256x2_1_0_0_1_n_n.lhsBatch by decide),
    dif_pos (show (0 : Fin S256x4096.rank) ∈ dot_S256x4096_S4096x2_S256x2_1_0_0_1_n_n.lhsNonContracting by decide)]
  rfl

/-- Off the contracted axis the right operand's index keeps the result's column. -/
theorem dotRhs_col (i : S256x2.Idx) (q : dot_S256x4096_S4096x2_S256x2_1_0_0_1_n_n.contr.Idx) :
    (dot_S256x4096_S4096x2_S256x2_1_0_0_1_n_n.rhsIdx i q 1).val = (i 1).val := by
  unfold DotDims.rhsIdx
  rw [dif_neg (show ¬(1 : Fin S4096x2.rank) ∈ dot_S256x4096_S4096x2_S256x2_1_0_0_1_n_n.rhsBatch by decide),
    dif_pos (show (1 : Fin S4096x2.rank) ∈ dot_S256x4096_S4096x2_S256x2_1_0_0_1_n_n.rhsNonContracting by decide)]
  rfl

/-- The (256, 4096) by (4096, 2) product into a zero accumulator, at `(p, c)`: row `p` against column `c`. -/
theorem hidDot_apply (x : FVec Ideal S256x4096 .bf16) (w : FVec Ideal S4096x2 .bf16) (p : Fin 256) (c : Fin 2) :
    matmul dot_S256x4096_S4096x2_S256x2_1_0_0_1_n_n none x w (constant (F := Ideal) S256x2 .f32 0x00000000#32) (ix2 p c)
      = ∑ j : Fin 4096, x (ix2 p j) * w (ix2 j c) := by
  show FloatOps.matmul dot_S256x4096_S4096x2_S256x2_1_0_0_1_n_n none x w (constant (F := Ideal) S256x2 .f32 0x00000000#32) (ix2 p c) = _
  rw [Ideal.matmul_constant_zero_apply, ← Equiv.sum_comp (contrEquiv1 dot_S256x4096_S4096x2_S256x2_1_0_0_1_n_n 4096 rfl rfl).symm]
  refine Finset.sum_congr rfl fun k _ => ?_
  have hk := contrEquiv1_symm_val dot_S256x4096_S4096x2_S256x2_1_0_0_1_n_n 4096 rfl rfl k
  have el : dot_S256x4096_S4096x2_S256x2_1_0_0_1_n_n.lhsIdx (ix2 p c) ((contrEquiv1 dot_S256x4096_S4096x2_S256x2_1_0_0_1_n_n 4096 rfl rfl).symm k) = ix2 p k :=
    funext fun a => Fin.ext (by
      match a with
      | ⟨0, _⟩ => exact dotLhs_row _ _
      | ⟨1, _⟩ => exact (dot_S256x4096_S4096x2_S256x2_1_0_0_1_n_n.lhsIdx_val_of_single rfl _ _).trans hk)
  have er : dot_S256x4096_S4096x2_S256x2_1_0_0_1_n_n.rhsIdx (ix2 p c) ((contrEquiv1 dot_S256x4096_S4096x2_S256x2_1_0_0_1_n_n 4096 rfl rfl).symm k) = ix2 k c :=
    funext fun a => Fin.ext (by
      match a with
      | ⟨0, _⟩ => exact (dot_S256x4096_S4096x2_S256x2_1_0_0_1_n_n.rhsIdx_val_of_single rfl _ _).trans hk
      | ⟨1, _⟩ => exact dotRhs_col _ _)
  rw [el, er]

/-! ## The blocks of the epilogue, at an index -/

/-- The hidden row: the loaded sums plus the bias, positive part. -/
theorem hidden_apply (acc : FVec Ideal S256x4096 .f32) (b1 : FVec Ideal S4096 .f32)
    (hc : S4096.ShapeCasts S1x4096) (hb : S1x4096.Broadcasts S256x4096) (p : Fin 256) (j : Fin 4096) :
    maximumf (addf acc (broadcastTo S256x4096 (shapeCast S1x4096 b1 hc) hb))
        (broadcast S256x4096 (Scalar.ofBits (F := Ideal) .f32 0x00000000#32)) (ix2 p j)
      = max (acc (ix2 p j) + b1 (ix1 j)) 0 := by
  rw [maximumf_apply, addf_apply, broadcastTo_1b_ab_apply, shapeCast_a_1a_apply, broadcast_apply]
  exact congrArg (max _) Ideal.ofBits_zero_f32

/-- The two logits of row `p`: the hidden row against the second weight, plus the second bias. -/
theorem logits_apply (H : FVec Ideal S256x4096 .bf16) (W : FVec Ideal S4096x2 .bf16) (b2 : FVec Ideal S2 .f32)
    (hc : S2.ShapeCasts S1x2) (hb : S1x2.Broadcasts S256x2) (p : Fin 256) (c : Fin 2) :
    addf (matmul dot_S256x4096_S4096x2_S256x2_1_0_0_1_n_n none H W (constant (F := Ideal) S256x2 .f32 0x00000000#32))
        (broadcastTo S256x2 (shapeCast S1x2 b2 hc) hb) (ix2 p c)
      = Cert.Spec.logit (fun j => H (ix2 p j)) (fun j c => W (ix2 j c)) (fun c => b2 (ix1 c)) c := by
  rw [addf_apply, hidDot_apply, broadcastTo_1b_ab_apply, shapeCast_a_1a_apply]
  rfl

/-- A two-column block less its row maxima, at `(p, c)`. -/
theorem shifted_apply (L : FVec Ideal S256x2 .f32) (hr : S256x2.Reduces [1] S256) (hφ : FKind.Formats .f32)
    (hm : (0xFF800000#32 : BitVec 32) = 0xFF800000#32) (hc : S256.ShapeCasts S256x1) (hb : S256x1.Broadcasts S256x2)
    (p : Fin 256) (c : Fin 2) :
    subf L (broadcastTo S256x2 (shapeCast S256x1
        (maximumf (broadcast S256 (Scalar.ofBits (F := Ideal) .f32 0xFF800000#32))
          (multiReduction .maximumf [1] S256 L 0xFF800000#32 hr hφ hm)) hc) hb) (ix2 p c)
      = L (ix2 p c) - max (L (ix2 p (0 : Fin 2))) (L (ix2 p (1 : Fin 2))) := by
  rw [subf_apply, colBroadcast_apply, colCast_apply, maximumf_apply, broadcast_apply, pairMax_apply]
  refine congrArg (fun m => L (ix2 p c) - m) ?_
  show max (Ideal.ofBits .f32 0xFF800000#32) _ = _
  rw [ofBits_negInf, max_bot_left]

/-- A two-column block over its row sums, at `(p, c)`. -/
theorem normalised_apply (E : FVec Ideal S256x2 .f32) (hr : S256x2.Reduces [1] S256) (hφ : FKind.Formats .f32)
    (hs : (0x00000000#32 : BitVec 32) = 0x00000000#32) (hc : S256.ShapeCasts S256x1) (hb : S256x1.Broadcasts S256x2)
    (p : Fin 256) (c : Fin 2) :
    divf E (broadcastTo S256x2 (shapeCast S256x1 (multiReduction .add [1] S256 E 0x00000000#32 hr hφ hs) hc) hb) (ix2 p c)
      = Ideal.div (E (ix2 p c)) (E (ix2 p (0 : Fin 2)) + E (ix2 p (1 : Fin 2))) := by
  rw [divf_apply, colBroadcast_apply, colCast_apply, pairSum_apply]

/-- The softmax of a two-column block, row by row, at `(p, c)`. -/
theorem softmax_apply (L : FVec Ideal S256x2 .f32) (hr : S256x2.Reduces [1] S256) (hφ : FKind.Formats .f32)
    (hm : (0xFF800000#32 : BitVec 32) = 0xFF800000#32) (hs : (0x00000000#32 : BitVec 32) = 0x00000000#32)
    (hc : S256.ShapeCasts S256x1) (hb : S256x1.Broadcasts S256x2) (p : Fin 256) (c : Fin 2) :
    divf (exp (subf L (broadcastTo S256x2 (shapeCast S256x1
            (maximumf (broadcast S256 (Scalar.ofBits (F := Ideal) .f32 0xFF800000#32))
              (multiReduction .maximumf [1] S256 L 0xFF800000#32 hr hφ hm)) hc) hb)))
        (broadcastTo S256x2 (shapeCast S256x1 (multiReduction .add [1] S256
          (exp (subf L (broadcastTo S256x2 (shapeCast S256x1
            (maximumf (broadcast S256 (Scalar.ofBits (F := Ideal) .f32 0xFF800000#32))
              (multiReduction .maximumf [1] S256 L 0xFF800000#32 hr hφ hm)) hc) hb))) 0x00000000#32 hr hφ hs) hc) hb) (ix2 p c)
      = Cert.Spec.smax (fun c => L (ix2 p c)) c := by
  rw [normalised_apply, exp_idx, exp_idx, exp_idx, shifted_apply, shifted_apply, shifted_apply]
  rfl

/-- The stored block at `(p, q)`: the two loaded row blocks mixed by the softmax of row `p`'s two logits. -/
theorem k1_pay3_apply (acc : Vec Ideal S256x4096 .f32) (b1 : Vec Ideal S4096 .f32) (w2 : Vec Ideal S4096x2 .f32)
    (b2 : Vec Ideal S2 .f32) (tn kn : Vec Ideal S256x4096 .bf16) (p : Fin 256) (q : Fin 4096) :
    k1_pay3 (F := Ideal) acc b1 w2 b2 tn kn (ix2 p q)
      = Cert.Spec.smax (Cert.Spec.logit (fun j => max (acc (ix2 p j) + b1 (ix1 j)) 0) (fun j c => w2 (ix2 j c)) (fun c => b2 (ix1 c))) 0 * tn (ix2 p q)
      + Cert.Spec.smax (Cert.Spec.logit (fun j => max (acc (ix2 p j) + b1 (ix1 j)) 0) (fun j c => w2 (ix2 j c)) (fun c => b2 (ix1 c))) 1 * kn (ix2 p q) := by
  unfold k1_pay3
  dsimp only
  rw [truncf_apply, addf_apply, mulf_apply, mulf_apply, extf_apply, extf_apply, shapeCast_self, shapeCast_self]
  rw [colBroadcast_apply, colBroadcast_apply, sliceCol0_apply, sliceCol1_apply]
  rw [softmax_apply, softmax_apply]
  simp only [logits_apply, truncf_apply, hidden_apply]

end Cert.KernelIdeal.Pipe.Epi

end
-- ==== Proof.GateArray.lean ====
import proofs.«114173_j69518340653173_2_alg».proof.Proof.GateRegion
import proofs.«114173_j69518340653173_2_alg».proof.Proof.Spec
import Idealize.ShloMosaic.Lib.Pipeline.Value
import Idealize.ShloMosaic.Lib.ValueIdx

/-!
# From the gate's row blocks to its result array

The second call walks 32 row blocks, 16 reduction steps each; its result window is written back only at the
last step of a row block (the points `t` with `t % 16 = 15`), as block `t / 16` of the (8192, 4096) result.
Those 32 blocks tile the result: row `r` lies in the block written at point `16 (r / 256) + 15`.  So a function `G`
of the whole array that agrees, block by block, with what the body leaves at those points is what the array ends
holding.
-/

set_option maxRecDepth 16384

noncomputable section

namespace Cert.KernelIdeal.Pipe

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace GateArr

/-- The result window's block index over the 512 points: row block `t / 16`, column block 0. -/
theorem idx_facts1_7 : ∀ t : Fin cfg1.N, win1_7.index t (0 : Fin 2) = t.val / 16 ∧ win1_7.index t (1 : Fin 2) = 0 :=
  (by decide +kernel : ∀ t : Fin grid1.N, _)

/-- Inside the result window's block at point `t`, `(p, q)` is the array's `(256 (t / 16) + p, q)`. -/
theorem emb1_7 (t : Fin cfg1.N) (p : Fin 256) (q : Fin 4096) (r : Fin 8192) (hr : r.val = 256 * (t.val / 16) + p.val) :
    ((cfg1.win 7).blk t).view.emb (ix2 p q) = (ix2 r q : S8192x4096.Idx) := by
  obtain ⟨e0, e1⟩ := idx_facts1_7 t
  funext a; apply Fin.ext
  match a with
  | ⟨0, _⟩ => show win1_7.index t (0 : Fin 2) * 256 + 1 * p.val = r.val; omega
  | ⟨1, _⟩ => show win1_7.index t (1 : Fin 2) * 4096 + 1 * q.val = q.val; omega

/-- What a point that writes back writes: the block of `G` there, when `G` agrees with what the body leaves. -/
theorem flushed1_7_eq (c : Dev nD) (G : Cert.Spec.SRows.Idx → EReal)
    (hblk : ∀ (t : Fin cfg1.N), t.val % 16 = 15 → ∀ (p : Fin 256) (q : Fin 4096) (r : Fin 8192),
      r.val = 256 * (t.val / 16) + p.val → (dat1 (F := Ideal) V c).after 7 t (ix2 p q) = G (ix2 r q))
    (t : Fin cfg1.N) (hf : (cfg1.win 7).flush t = true) :
    (dat1 (F := Ideal) V c).flushed 7 t = ((cfg1.win 7).blk t).view.read (Elt Ideal) G := by
  have h15 : t.val % 16 = 15 := (flush1_7 t).mp hf
  have ht : t.val < 512 := Nat.lt_of_lt_of_eq t.isLt (show cfg1.N = 512 from N_1)
  show (cfg1.win 7).cut (grid1.coords t) ((dat1 V c).after 7 t) = _
  funext j
  obtain ⟨p, q, rfl⟩ : ∃ (p : Fin 256) (q : Fin 4096), j = ix2 p q := ⟨j 0, j 1, eq_ix2 j⟩
  show (dat1 V c).after 7 t (ix2 p q) = G (((cfg1.win 7).blk t).view.emb (ix2 p q))
  rw [emb1_7 t p q ⟨256 * (t.val / 16) + p.val, by omega⟩ rfl]
  exact hblk t h15 p q _ rfl

/-- Every index of the result array is in the block written at the last step of its row block. -/
theorem cover1_7 (i : S8192x4096.Idx) :
    ∃ t : Fin cfg1.N, (cfg1.win 7).flush t = true ∧ i ∈ ((cfg1.win 7).blk t).view.set := by
  have hi0 : (i 0).val < 8192 := (i 0).isLt
  have hi1 : (i 1).val < 4096 := (i 1).isLt
  have hN : cfg1.N = 512 := N_1
  have hlt : (i 0).val / 256 * 16 + 15 < cfg1.N := by rw [hN]; omega
  obtain ⟨t, ht⟩ : ∃ t : Fin cfg1.N, t.val = (i 0).val / 256 * 16 + 15 := ⟨⟨_, hlt⟩, rfl⟩
  refine ⟨t, (flush1_7 t).mpr (by omega), ?_⟩
  obtain ⟨e0, e1⟩ := idx_facts1_7 t
  show i ∈ ((View.whole main_v5).slice (win1_7.rect t)).set
  rw [View.set_slice_whole, Rect.mem_set_unit]
  intro a
  match a with
  | ⟨0, _⟩ =>
    show win1_7.index t (0 : Fin 2) * 256 ≤ (i 0).val ∧ (i 0).val < win1_7.index t (0 : Fin 2) * 256 + 256
    omega
  | ⟨1, _⟩ =>
    show win1_7.index t (1 : Fin 2) * 4096 ≤ (i 1).val ∧ (i 1).val < win1_7.index t (1 : Fin 2) * 4096 + 4096
    omega

end GateArr

open GateArr

/-- The gate's result array after the call is any whole-array function `G` that, at every last step `t` of a row
    block, agrees on rows `256 (t / 16) … 256 (t / 16) + 255` with what the body leaves in the result block. -/
theorem final1_7_of (c : Dev nD) (G : Cert.Spec.SRows.Idx → EReal)
    (hblk : ∀ (t : Fin cfg1.N), t.val % 16 = 15 → ∀ (p : Fin 256) (q : Fin 4096) (r : Fin 8192),
      r.val = 256 * (t.val / 16) + p.val → (dat1 (F := Ideal) V c).after 7 t (ix2 p q) = G (ix2 r q)) :
    (dat1 (F := Ideal) V c).arrAt 7 cfg1.N = G :=
  (dat1 (F := Ideal) V c).arrAt_eq_of_cover 7 G (flushed1_7_eq V c G hblk) cover1_7

end Cert.KernelIdeal.Pipe

end
-- ==== Proof.GateValue.lean ====
/- The gating region's value on the extended reals: the array the region leaves is the gate's mix of the two normalised
   arrays, row by row. At the last reduction step of a row block the output block is the epilogue of the accumulator, which
   by then holds each row's two products over all 4096 inner indices; adding the bias and taking the positive part gives the
   hidden layer, its product with the second weight plus its bias the two logits, their softmax the two weights of the mix.
   Each row of the array is written by the last step of its row block and by no other point. -/
import proofs.«114173_j69518340653173_2_alg».proof.Proof.GateValueAcc
import proofs.«114173_j69518340653173_2_alg».proof.Proof.GateValueEpi
import proofs.«114173_j69518340653173_2_alg».proof.Proof.GateArray

set_option maxRecDepth 16384

noncomputable section

namespace Cert.KernelIdeal.Pipe

open Idealize.ShloMosaic Idealize.ShloMosaic.TcCoe Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- THE OUTPUT BLOCK AT THE LAST STEP of a row block, at row `p` and column `q`: the mixed row of the spec at the array's row
    256 (t / 16) + p. The block is the epilogue of the accumulator after this step (its piece read back); the accumulator is
    the two whole products; the bias, the second weight and its bias are the whole arrays; the two row blocks are the
    array's rows. -/
theorem gate_hblk (c : Dev nD) (t : Fin cfg1.N) (ht : t.val % 16 = 15) (p : Fin 256) (q : Fin 4096) (r : Fin 8192)
    (hr : r.val = 256 * (t.val / 16) + p.val) :
    (dat1 (F := Ideal) V c).after 7 t (ix2 p q)
      = Cert.Spec.fuseArr (V c main_v0_0) (V c main_v0_1) (V c main_v2) (V c main_v4) (V c main_arg8) (V c main_arg7) (V c main_arg9) (ix2 r q) := by
  have h0 : ¬t.val % 16 = 0 := by omega
  obtain rfl : r = gateRow t p := Fin.ext (hr.trans (gateRow_val t p).symm)
  have e := congrArg Prod.fst (outsAt1_last V c t h0 ht)
  dsimp only at e
  have ea := congrArg Prod.snd (outsAt1_last V c t h0 ht)
  dsimp only at ea
  rw [after1_7, e, fusedLast_eq c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr ht) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, ← accLast_eq c (grid1.coords t) (buf1_0 t) (whole1_0 t) (buf1_1 t) (whole1_1 t) (buf1_2 t) (whole1_2 t) (buf1_3 t) (whole1_3 t) (buf1_4 t) (whole1_4 t) (buf1_5 t) (whole1_5 t) (buf1_6 t) (whole1_6 t) (buf1_7 t) (whole1_7 t) accM (Memref.isWhole_whole _) (fun h => h0 ((atFirstK_iff t).mp h)) ((atLastK_iff t).mpr ht) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, ← ea]
  refine (Epi.k1_pay3_apply _ _ _ _ _ _ p q).trans ?_
  simp only [gateAcc_last V c t ht p, iblk1_5_apply, iblk1_4_apply, iblk1_6_apply, iblk1_0_apply, iblk1_1_apply]
  rfl

/-- THE REGION'S VALUE: after the last point the output array is the gate's mix of the two normalised arrays, every row. -/
theorem final1_7 (c : Dev nD) : (dat1 (F := Ideal) V c).arrAt 7 cfg1.N
    = Cert.Spec.fuseArr (V c main_v0_0) (V c main_v0_1) (V c main_v2) (V c main_v4) (V c main_arg8) (V c main_arg7) (V c main_arg9) :=
  final1_7_of V c _ (fun t ht p q r hr => gate_hblk V c t ht p q r hr)

end Cert.KernelIdeal.Pipe

end
-- ==== Proof.FinalValue.lean ====
/- The final linear layer, region 2, read as values on the extended reals: after the last
   reduction step of row block b the output block holds, at (p, j),
   (∑ k, f (256 b + p, k) * w (k, j)) + bias j; so the output array ends holding the affine map of
   the rows of f. -/
import proofs.«114173_j69518340653173_2_alg».proof.Proof.FinalRegion
import proofs.«114173_j69518340653173_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pipe

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

namespace FinalV

/-! ## What each step's stores leave, as the step's arithmetic of what it loads -/

section Pieces
variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a; rfl

/-- A first step leaves the zero block plus the step's product in the accumulator. -/
theorem accFirst_eq (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : atFirst2 i) (hc1 : ¬atLast2 i)
    (x0 : Vec F S256x512 .bf16) (x1 : Vec F S512x4096 .bf16) (x2 : Vec F S4096 .f32) :
    accFirst2 c i arg2 harg2 arg3 harg3 arg4 harg4 arg5 harg5 arg6 harg6 hc0 hc1 x0 x1 x2 = k2_pay2 (k2_pay1 (F := F)) x0 x1 := by
  unfold accFirst2
  rw [View.read_writes_junk_eq_canon]
  unfold runFirst2
  dsimp only
  sl_unfold_run_names
  rw [View.canon_cons_unit_zero (S := S256x4096) zeros2, View.readCov_unit_zero (S := S256x4096) _ zeros2]
  simp only [View.readAt_eq_ld, harg2.read_unread, harg3.read_unread, View.ld_unit_zero (S := S256x512) zeros2, View.ld_unit_zero (S := S512x4096) zeros2]

/-- A middle step leaves what the accumulator held plus the step's product. -/
theorem accMiddle_eq (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : ¬atLast2 i)
    (x0 : Vec F S256x512 .bf16) (x1 : Vec F S512x4096 .bf16) (x2 : Vec F S4096 .f32) (xs : Vec F S256x4096 .f32) :
    accMiddle2 c i arg2 harg2 arg3 harg3 arg4 harg4 arg5 harg5 arg6 harg6 hc0 hc1 x0 x1 x2 xs = k2_pay2 xs x0 x1 := by
  unfold accMiddle2
  rw [View.read_writes_junk_eq_canon]
  unfold runMiddle2
  dsimp only
  sl_unfold_run_names
  rw [View.canon_unit_zero (S := S256x4096) zeros2]
  simp only [View.readAt_eq_ld, harg2.read_unread, harg3.read_unread, harg6.read_unread, View.ld_unit_zero (S := S256x512) zeros2, View.ld_unit_zero (S := S512x4096) zeros2, View.ld_unit_zero (S := S256x4096) zeros2]

/-- A last step leaves the same in the accumulator, -/
theorem accLast_eq (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i)
    (x0 : Vec F S256x512 .bf16) (x1 : Vec F S512x4096 .bf16) (x2 : Vec F S4096 .f32) (xs : Vec F S256x4096 .f32) :
    accLast2 c i arg2 harg2 arg3 harg3 arg4 harg4 arg5 harg5 arg6 harg6 hc0 hc1 x0 x1 x2 xs = k2_pay2 xs x0 x1 := by
  unfold accLast2
  rw [View.read_writes_junk_eq_canon]
  unfold runLast2
  dsimp only
  sl_unfold_run_names
  rw [View.canon_unit_zero (S := S256x4096) zeros2]
  simp only [View.readAt_eq_ld, harg2.read_unread, harg3.read_unread, harg6.read_unread, View.ld_unit_zero (S := S256x512) zeros2, View.ld_unit_zero (S := S512x4096) zeros2, View.ld_unit_zero (S := S256x4096) zeros2]

/-- and that sum plus the bias in the output block. -/
theorem outLast_eq (c : Dev nD) (i : grid2.Coords) (arg2 : Memref sig .tc .vmem S256x512 .bf16) (harg2 : arg2.IsWhole) (arg3 : Memref sig .tc .vmem S512x4096 .bf16) (harg3 : arg3.IsWhole) (arg4 : Memref sig .tc .vmem S4096 .f32) (harg4 : arg4.IsWhole) (arg5 : Memref sig .tc .vmem S256x4096 .f32) (harg5 : arg5.IsWhole) (arg6 : Memref sig .tc .vmem S256x4096 .f32) (harg6 : arg6.IsWhole) (hc0 : ¬atFirst2 i) (hc1 : atLast2 i)
    (x0 : Vec F S256x512 .bf16) (x1 : Vec F S512x4096 .bf16) (x2 : Vec F S4096 .f32) (xs : Vec F S256x4096 .f32) :
    outLast2 c i arg2 harg2 arg3 harg3 arg4 harg4 arg5 harg5 arg6 harg6 hc0 hc1 x0 x1 x2 xs = k2_pay3 (k2_pay2 xs x0 x1) x2 := by
  unfold outLast2
  rw [View.read_writes_junk_eq_canon]
  unfold runLast2
  dsimp only
  sl_unfold_run_names
  rw [View.canon_unit_zero (S := S256x4096) zeros2, View.readCov_unit_zero (S := S256x4096) _ zeros2]
  simp only [View.readAt_eq_ld, harg2.read_unread, harg3.read_unread, harg4.read_unread, harg6.read_unread, View.ld_unit_zero (S := S256x512) zeros2, View.ld_unit_zero (S := S512x4096) zeros2, View.ld_unit_zero (S := S256x4096) zeros2, View.ld_unit_zero (S := S4096) zeros1]

end Pieces

/-! ## The steps' arithmetic at an index, on the extended reals -/

section AtIndex

/-- The zero block is zero everywhere. -/
theorem pay1_apply (y : S256x4096.Idx) : k2_pay1 (F := Ideal) y = 0 := by
  unfold k2_pay1
  simp only [shapeCast_self]
  exact Ideal.ofBits_zero_f32

theorem prodL0 (i : S256x4096.Idx) (q : dot_S256x512_S512x4096_S256x4096_1_0_0_1_n_n.contr.Idx) : (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
theorem prodL1 (i : S256x4096.Idx) (q : dot_S256x512_S512x4096_S256x4096_1_0_0_1_n_n.contr.Idx) : (dot_S256x512_S512x4096_S256x4096_1_0_0_1_n_n.lhsIdx i q 1).val = (q ⟨0, by decide⟩).val :=
  dot_S256x512_S512x4096_S256x4096_1_0_0_1_n_n.lhsIdx_val_of_single rfl i q
theorem prodR0 (i : S256x4096.Idx) (q : dot_S256x512_S512x4096_S256x4096_1_0_0_1_n_n.contr.Idx) : (dot_S256x512_S512x4096_S256x4096_1_0_0_1_n_n.rhsIdx i q 0).val = (q ⟨0, by decide⟩).val :=
  dot_S256x512_S512x4096_S256x4096_1_0_0_1_n_n.rhsIdx_val_of_single rfl i q
theorem prodR1 (i : S256x4096.Idx) (q : dot_S256x512_S512x4096_S256x4096_1_0_0_1_n_n.contr.Idx) : (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- One step's product, at (p, j): the row block's row p against the weight block's column j. -/
theorem prod_apply (x0 : FVec Ideal S256x512 .bf16) (x1 : FVec Ideal S512x4096 .bf16) (p : Fin 256) (j : Fin 4096) :
    FloatOps.matmul (φ₁ := .bf16) (φ₂ := .bf16) dot_S256x512_S512x4096_S256x4096_1_0_0_1_n_n none x0 x1 (constant (F := Ideal) S256x4096 .f32 0x00000000#32) (ix2 p j)
      = ∑ q : Fin 512, x0 (ix2 p q) * x1 (ix2 q j) := by
  refine (Ideal.matmul_constant_zero_apply dot_S256x512_S512x4096_S256x4096_1_0_0_1_n_n none x0 x1 (ix2 p j)).trans ?_
  rw [← Equiv.sum_comp (ValueIdx.contrEquiv1 dot_S256x512_S512x4096_S256x4096_1_0_0_1_n_n 512 rfl rfl).symm]
  refine Finset.sum_congr rfl fun q _ => ?_
  have hq := ValueIdx.contrEquiv1_symm_val dot_S256x512_S512x4096_S256x4096_1_0_0_1_n_n 512 rfl rfl q
  have el : dot_S256x512_S512x4096_S256x4096_1_0_0_1_n_n.lhsIdx (ix2 p j) ((ValueIdx.contrEquiv1 dot_S256x512_S512x4096_S256x4096_1_0_0_1_n_n 512 rfl rfl).symm q) = ix2 p q := funext fun a => Fin.ext (by
    match a with
    | ⟨0, _⟩ => exact prodL0 _ _
    | ⟨1, _⟩ => exact (prodL1 _ _).trans hq)
  have er : dot_S256x512_S512x4096_S256x4096_1_0_0_1_n_n.rhsIdx (ix2 p j) ((ValueIdx.contrEquiv1 dot_S256x512_S512x4096_S256x4096_1_0_0_1_n_n 512 rfl rfl).symm q) = ix2 q j := funext fun a => Fin.ext (by
    match a with
    | ⟨0, _⟩ => exact (prodR0 _ _).trans hq
    | ⟨1, _⟩ => exact prodR1 _ _)
  rw [el, er]

/-- A step adds its product to what the accumulator held. -/
theorem pay2_apply (s : Vec Ideal S256x4096 .f32) (x0 : Vec Ideal S256x512 .bf16) (x1 : Vec Ideal S512x4096 .bf16) (p : Fin 256) (j : Fin 4096) :
    k2_pay2 (F := Ideal) s x0 x1 (ix2 p j) = s (ix2 p j) + ∑ q : Fin 512, x0 (ix2 p q) * x1 (ix2 q j) := by
  unfold k2_pay2
  simp only [shapeCast_self]
  exact congrArg (s (ix2 p j) + ·) (prod_apply x0 x1 p j)

/-- The last step adds the bias, the same along every row. -/
theorem pay3_apply (a : Vec Ideal S256x4096 .f32) (x2 : Vec Ideal S4096 .f32) (p : Fin 256) (j : Fin 4096) :
    k2_pay3 (F := Ideal) a x2 (ix2 p j) = a (ix2 p j) + x2 (ix1 j) := by
  unfold k2_pay3
  refine congrArg (a (ix2 p j) + ·) ?_
  refine (broadcastTo_apply _ broadcasts_S1x4096_S256x4096 (ix2 p j) (ix2 (0 : Fin 1) j) (fun a => by
    match a with
    | ⟨0, _⟩ => rfl
    | ⟨1, _⟩ => rfl)).trans ?_
  exact shapeCast_a_1a_apply x2 shapeCasts_S4096_S1x4096 0 j

end AtIndex

/-! ## The accumulator and the output block after a point, as the steps' arithmetic of the blocks -/

section Steps
variable {F : FTy → Type} [FloatOps F]
variable (V : (c : Dev nD) → (b : Ref sig .tc) → Buf (Elt F) ((c : Thread nD τ).loc b))

/-- After a first step: the zero block plus the step's product. -/
theorem acc_first (c : Dev nD) (t : Fin cfg2.N) (h0 : t.val % 8 = 0) :
    (stepsAt2 V c t.val t.isLt).2 = k2_pay2 (k2_pay1 (F := F)) (iblk2 V c 0 t) (iblk2 V c 1 t) := by
  have h1 : ¬t.val % 8 = 7 := by omega
  have e := accFirst_eq c (grid2.coords t) (ms2_0 t) (hs2_0 t) (ms2_1 t) (hs2_1 t) (ms2_2 t) (hs2_2 t) (ms2_3 t) (hs2_3 t) accM2 (Memref.isWhole_whole _) ((atFirst_iff2 t).mpr h0) (fun h => h1 ((atLast_iff2 t).mp h)) (iblk2 V c 0 t) (iblk2 V c 1 t) (iblk2 V c 2 t)
  have s := stepsAt_first2 V c t h0 h1
  rw [s, ← e]

/-- After a later step: what the point before left plus the step's product. -/
theorem acc_later (c : Dev nD) (t : Fin cfg2.N) (h0 : ¬t.val % 8 = 0) :
    (stepsAt2 V c t.val t.isLt).2 = k2_pay2 (stepsAt2 V c (t.val - 1) (Nat.lt_of_le_of_lt (Nat.sub_le _ _) t.isLt)).2 (iblk2 V c 0 t) (iblk2 V c 1 t) := by
  by_cases h1 : t.val % 8 = 7
  · have e := accLast_eq c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2
    have s := stepsAt_last2 V c t h0 h1
    rw [s, ← e]
  · have e := accMiddle_eq c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) (fun h => h1 ((atLast_iff2 t).mp h)) (iblk2 V c 0 t) (iblk2 V c 1 t) (iblk2 V c 2 t) (stepsAt2 V c (t.val - 1) (Nat.lt_of_le_of_lt (Nat.sub_le _ _) t.isLt)).2
    have s := stepsAt_middle2 V c t h0 h1
    rw [s, ← e]

/-- After a last step the output block is the accumulator plus the bias. -/
theorem out_last (c : Dev nD) (t : Fin cfg2.N) (h1 : t.val % 8 = 7) :
    (stepsAt2 V c t.val t.isLt).1 = k2_pay3 (stepsAt2 V c t.val t.isLt).2 (iblk2 V c 2 t) := by
  have h0 : ¬t.val % 8 = 0 := by omega
  have eo := outLast_eq c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2
  have ea := accLast_eq c (grid2.coords t) (ms2_0 t) (hs2_0 t) (ms2_1 t) (hs2_1 t) (ms2_2 t) (hs2_2 t) (ms2_3 t) (hs2_3 t) accM2 (Memref.isWhole_whole _) (fun h => h0 ((atFirst_iff2 t).mp h)) ((atLast_iff2 t).mpr h1) (iblk2 V c 0 t) (iblk2 V c 1 t) (iblk2 V c 2 t) (stepsAt2 V c (t.val - 1) (Nat.lt_of_le_of_lt (Nat.sub_le _ _) t.isLt)).2
  have s := stepsAt_last2 V c t h0 h1
  have s1 := congrArg Prod.fst s
  have s2 := congrArg Prod.snd s
  dsimp only at s1 s2
  rw [s1, s2, ea, eo]

end Steps

/-! ## The blocks read off the arrays -/

section Blocks
variable (V : (c : Dev nD) → (b : Ref sig .tc) → Buf (Elt Ideal) ((c : Thread nD τ).loc b))

/-- The windows' block indices at point t: the row block is t / 8, the reduction step t mod 8. -/
theorem blockIdx : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 1) = 0
    ∧ win2_3.index t (0 : Fin 2) = t.val / 8 ∧ win2_3.index t (1 : Fin 2) = 0 :=
  (by decide +kernel : ∀ t : Fin grid2.N, _)

/-- Entry (r, k) of the array of rows; zero off the array. -/
def rowsAt (f : S8192x4096.Idx → EReal) (r k : ℕ) : EReal :=
  if h : r < 8192 ∧ k < 4096 then f (ix2 ⟨r, h.1⟩ ⟨k, h.2⟩) else 0
/-- Entry (k, j) of the weight; zero off the array. -/
def weightAt (w : S4096x4096.Idx → EReal) (k : ℕ) (j : Fin 4096) : EReal :=
  if h : k < 4096 then w (ix2 ⟨k, h⟩ j) else 0

/-- The row block at point t, at (p, q): row 256 (t / 8) + p, column 512 (t mod 8) + q. -/
theorem rows_apply (c : Dev nD) (t : Fin cfg2.N) (p : Fin 256) (q : Fin 512) :
    (iblk2 V c 0 t : Vec Ideal S256x512 .bf16) (ix2 p q) = rowsAt (V c main_v5) (256 * (t.val / 8) + p.val) (512 * (t.val % 8) + q.val) := by
  have hN : t.val < 256 := lt_of_lt_of_eq t.isLt (show cfg2.N = 256 from N_2)
  have hp := p.isLt
  have hq := q.isLt
  obtain ⟨e0, e1, -⟩ := blockIdx t
  unfold iblk2 rowsAt
  rw [View.read_apply, dif_pos ⟨by omega, by omega⟩]
  show V c main_v5 (((cfg2.win 0).blk t).view.emb (ix2 p q)) = V c main_v5 _
  congr 1
  funext a; apply Fin.ext
  match a with
  | ⟨0, _⟩ => show win2_0.index t (0 : Fin 2) * 256 + 1 * p.val = 256 * (t.val / 8) + p.val; rw [e0]; omega
  | ⟨1, _⟩ => show win2_0.index t (1 : Fin 2) * 512 + 1 * q.val = 512 * (t.val % 8) + q.val; rw [e1]; omega

/-- The weight block at point t, at (q, j): row 512 (t mod 8) + q, column j. -/
theorem weight_apply (c : Dev nD) (t : Fin cfg2.N) (q : Fin 512) (j : Fin 4096) :
    (iblk2 V c 1 t : Vec Ideal S512x4096 .bf16) (ix2 q j) = weightAt (V c main_v6) (512 * (t.val % 8) + q.val) j := by
  have hq := q.isLt
  have hj := j.isLt
  obtain ⟨-, -, e0, e1, -⟩ := blockIdx t
  unfold iblk2 weightAt
  rw [View.read_apply, dif_pos (by omega)]
  show V c main_v6 (((cfg2.win 1).blk t).view.emb (ix2 q j)) = V c main_v6 _
  congr 1
  funext a; apply Fin.ext
  match a with
  | ⟨0, _⟩ => show win2_1.index t (0 : Fin 2) * 512 + 1 * q.val = 512 * (t.val % 8) + q.val; rw [e0]; omega
  | ⟨1, _⟩ => show win2_1.index t (1 : Fin 2) * 4096 + 1 * j.val = j.val; rw [e1]; omega

/-- The bias block is the bias. -/
theorem bias_apply (c : Dev nD) (t : Fin cfg2.N) (j : Fin 4096) :
    (iblk2 V c 2 t : Vec Ideal S4096 .f32) (ix1 j) = V c main_arg11 (ix1 j) := by
  obtain ⟨-, -, -, -, e0, -⟩ := blockIdx t
  unfold iblk2
  rw [View.read_apply]
  show V c main_arg11 (((cfg2.win 2).blk t).view.emb (ix1 j)) = V c main_arg11 _
  congr 1
  funext a; apply Fin.ext
  match a with
  | ⟨0, _⟩ => show win2_2.index t (0 : Fin 1) * 4096 + 1 * j.val = j.val; rw [e0]; omega

end Blocks

/-! ## The accumulator after point t: the partial sum of row 256 (t / 8) + p against column j -/

section Sums
variable (V : (c : Dev nD) → (b : Ref sig .tc) → Buf (Elt Ideal) ((c : Thread nD τ).loc b))

/-- Reduction step k' of row r against column j: the 512 products of the step's columns. -/
def stepTerm (f : S8192x4096.Idx → EReal) (w : S4096x4096.Idx → EReal) (r : ℕ) (j : Fin 4096) (k' : ℕ) : EReal :=
  ∑ q : Fin 512, rowsAt f r (512 * k' + q.val) * weightAt w (512 * k' + q.val) j

/-- At a first step the accumulator holds step 0's products. -/
theorem acc_apply_first (c : Dev nD) (t : Fin cfg2.N) (h0 : t.val % 8 = 0) (p : Fin 256) (j : Fin 4096) :
    (stepsAt2 V c t.val t.isLt).2 (ix2 p j)
      = ∑ k' ∈ Finset.range (t.val % 8 + 1), stepTerm (V c main_v5) (V c main_v6) (256 * (t.val / 8) + p.val) j k' := by
  rw [acc_first V c t h0]
  refine (pay2_apply (k2_pay1 (F := Ideal)) (iblk2 V c 0 t) (iblk2 V c 1 t) p j).trans ?_
  rw [pay1_apply, zero_add, h0]
  show _ = ∑ k' ∈ Finset.range 1, _
  rw [Finset.sum_range_one]
  unfold stepTerm
  refine Finset.sum_congr rfl fun q _ => ?_
  rw [rows_apply V c t p q, weight_apply V c t q j, h0]

/-- At a later step it gains that step's products. -/
theorem acc_apply_later (c : Dev nD) (t : Fin cfg2.N) (h0 : ¬t.val % 8 = 0) (p : Fin 256) (j : Fin 4096)
    (ih : (stepsAt2 V c (t.val - 1) (Nat.lt_of_le_of_lt (Nat.sub_le _ _) t.isLt)).2 (ix2 p j)
      = ∑ k' ∈ Finset.range ((t.val - 1) % 8 + 1), stepTerm (V c main_v5) (V c main_v6) (256 * ((t.val - 1) / 8) + p.val) j k') :
    (stepsAt2 V c t.val t.isLt).2 (ix2 p j)
      = ∑ k' ∈ Finset.range (t.val % 8 + 1), stepTerm (V c main_v5) (V c main_v6) (256 * (t.val / 8) + p.val) j k' := by
  have e1 : (t.val - 1) % 8 + 1 = t.val % 8 := by omega
  have e2 : (t.val - 1) / 8 = t.val / 8 := by omega
  rw [acc_later V c t h0]
  refine (pay2_apply _ (iblk2 V c 0 t) (iblk2 V c 1 t) p j).trans ?_
  rw [ih, e1, e2, Finset.sum_range_succ]
  refine congrArg (_ + ·) ?_
  unfold stepTerm
  refine Finset.sum_congr rfl fun q _ => ?_
  rw [rows_apply V c t p q, weight_apply V c t q j]

/-- THE PARTIAL SUMS: after point n the accumulator holds, at (p, j), steps 0 … n mod 8 of row
    256 (n / 8) + p against column j — by induction on the point. -/
theorem acc_apply (c : Dev nD) : ∀ (n : ℕ) (hn : n < cfg2.N) (p : Fin 256) (j : Fin 4096),
    (stepsAt2 V c n hn).2 (ix2 p j)
      = ∑ k' ∈ Finset.range (n % 8 + 1), stepTerm (V c main_v5) (V c main_v6) (256 * (n / 8) + p.val) j k'
  | 0, hn, p, j => acc_apply_first V c ⟨0, hn⟩ rfl p j
  | n + 1, hn, p, j => by
    by_cases h0 : (n + 1) % 8 = 0
    · exact acc_apply_first V c ⟨n + 1, hn⟩ h0 p j
    · exact acc_apply_later V c ⟨n + 1, hn⟩ h0 p j (acc_apply c n (Nat.lt_of_succ_lt hn) p j)

/-- The eight steps of 512 columns are the whole row of 4096. -/
theorem steps_eq_row (f : S8192x4096.Idx → EReal) (w : S4096x4096.Idx → EReal) (r : Fin 8192) (j : Fin 4096) :
    ∑ k' ∈ Finset.range 8, stepTerm f w r.val j k' = ∑ k : Fin 4096, f (ix2 r k) * w (ix2 k j) := by
  rw [Finset.sum_range]
  unfold stepTerm
  rw [← Fintype.sum_prod_type']
  refine Fintype.sum_equiv (finProdFinEquiv (m := 8) (n := 512)) _ (fun k : Fin 4096 => f (ix2 r k) * w (ix2 k j)) fun x => ?_
  have h1 := x.1.isLt
  have h2 := x.2.isLt
  have hk : 512 * x.1.val + x.2.val < 4096 := by omega
  unfold rowsAt weightAt
  rw [dif_pos ⟨r.isLt, hk⟩, dif_pos hk]
  have e : (⟨512 * x.1.val + x.2.val, hk⟩ : Fin 4096) = finProdFinEquiv (m := 8) (n := 512) x := Fin.ext (by
    show 512 * x.1.val + x.2.val = x.2.val + 512 * x.1.val
    omega)
  rw [e]

end Sums

/-! ## From the blocks to the array -/

section Array
variable (V : (c : Dev nD) → (b : Ref sig .tc) → Buf (Elt Ideal) ((c : Thread nD τ).loc b))

/-- What the last step of row block t / 8 writes back is that block of the affine map of the rows. -/
theorem flushed2_3_eq (c : Dev nD) (t : Fin cfg2.N) (hf : (cfg2.win 3).flush t = true) :
    (dat2 (F := Ideal) V c).flushed 3 t
      = ((cfg2.win 3).blk t).view.read (Elt Ideal) (Cert.Spec.linArr (V c main_v5) (V c main_v6) (V c main_arg11)) := by
  have h7 : t.val % 8 = 7 := (flush2_3 t).mp hf
  have hN : t.val < 256 := lt_of_lt_of_eq t.isLt (show cfg2.N = 256 from N_2)
  obtain ⟨-, -, -, -, -, e0, e1⟩ := blockIdx t
  show (cfg2.win 3).cut (grid2.coords t) ((dat2 V c).after 3 t) = _
  rw [after2_3, out_last V c t h7]
  funext y
  obtain ⟨p, j, rfl⟩ : ∃ (p : Fin 256) (j : Fin 4096), y = ix2 p j := ⟨y 0, y 1, eq_ix2 y⟩
  have hp := p.isLt
  have hr : 256 * (t.val / 8) + p.val < 8192 := by omega
  show k2_pay3 (F := Ideal) (stepsAt2 V c t.val t.isLt).2 (iblk2 V c 2 t) (ix2 p j) = _
  refine (pay3_apply (stepsAt2 V c t.val t.isLt).2 (iblk2 V c 2 t) p j).trans ?_
  rw [acc_apply V c t.val t.isLt p j, h7, bias_apply V c t j]
  show ∑ k' ∈ Finset.range 8, stepTerm (V c main_v5) (V c main_v6) ((⟨256 * (t.val / 8) + p.val, hr⟩ : Fin 8192)).val j k' + _ = _
  rw [steps_eq_row, View.read_apply]
  have ei : ((cfg2.win 3).blk t).view.emb (ix2 p j) = ix2 (⟨256 * (t.val / 8) + p.val, hr⟩ : Fin 8192) j := by
    funext a; apply Fin.ext
    match a with
    | ⟨0, _⟩ => show win2_3.index t (0 : Fin 2) * 256 + 1 * p.val = 256 * (t.val / 8) + p.val; rw [e0]; omega
    | ⟨1, _⟩ => show win2_3.index t (1 : Fin 2) * 4096 + 1 * j.val = j.val; rw [e1]; omega
  rw [ei]
  rfl

/-- An index of the output array is in point t's block iff each coordinate is in the block's range. -/
theorem mem_blk2_3 (t : Fin cfg2.N) (i : S8192x4096.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v7).slice (win2_3.rect t)).set ↔ _
  rw [View.set_slice_whole, Rect.mem_set_unit]
  exact Iff.rfl

end Array

end FinalV

open FinalV

section Out
variable (V : (c : Dev nD) → (b : Ref sig .tc) → Buf (Elt Ideal) ((c : Thread nD τ).loc b))

/-- THE OUTPUT ARRAY after the region: the affine map of the rows, (∑ k, f (r, k) * w (k, j)) + bias j. -/
theorem final2_3 (c : Dev nD) :
    (dat2 (F := Ideal) V c).arrAt 3 cfg2.N = Cert.Spec.linArr (V c main_v5) (V c main_v6) (V c main_arg11) :=
  (dat2 (F := Ideal) V c).arrAt_eq_of_cover 3 _ (flushed2_3_eq V c) fun i => by
    have hi0 : (i 0).val < 8192 := (i 0).isLt
    have hi1 : (i 1).val < 4096 := (i 1).isLt
    have hN : cfg2.N = 256 := N_2
    let t : Fin cfg2.N := ⟨(i 0).val / 256 * 8 + 7, by rw [hN]; omega⟩
    have h7 : t.val % 8 = 7 := by show ((i 0).val / 256 * 8 + 7) % 8 = 7; omega
    obtain ⟨-, -, -, -, -, e0, e1⟩ := blockIdx t
    have ht : t.val / 8 = (i 0).val / 256 := by show ((i 0).val / 256 * 8 + 7) / 8 = _; omega
    refine ⟨t, (flush2_3 t).mpr h7, ?_⟩
    rw [mem_blk2_3]
    intro a
    match a with
    | ⟨0, _⟩ => show win2_3.index t (0 : Fin 2) * 256 ≤ (i 0).val ∧ (i 0).val < win2_3.index t (0 : Fin 2) * 256 + 256; rw [e0, ht]; omega
    | ⟨1, _⟩ => show win2_3.index t (1 : Fin 2) * 4096 ≤ (i 1).val ∧ (i 1).val < win2_3.index t (1 : Fin 2) * 4096 + 4096; rw [e1]; omega

end Out

end Cert.KernelIdeal.Pipe

end
-- ==== Proof.KernelValue.lean ====
import proofs.«114173_j69518340653173_2_alg».proof.Proof.Run
import proofs.«114173_j69518340653173_2_alg».proof.Proof.LnValue
import proofs.«114173_j69518340653173_2_alg».proof.Proof.GateValue
import proofs.«114173_j69518340653173_2_alg».proof.Proof.FinalValue
import Idealize.ShloMosaic.Lib.Pipeline.Value
import Idealize.ShloMosaic.Lib.ValueIdx

set_option maxRecDepth 16384

noncomputable section

namespace Cert.KernelIdeal.Pipe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg) (c : Dev nD)

/-! # What the program's result array holds, on the extended reals

The three regions' final arrays chained through the boundaries: the normalised inputs, their mix under the gate,
the last affine map; the host operations between them slice the first weight in two and change formats, which at
the extended reals is the identity. -/

/-- The host operations before region 1 write only the weight halves. -/
theorem Bnd2_keep (b : Ref sig .tc) (h : b ∉ hostOps1_W) : Bnd2 m ρ c (Proc.devRef .tc b) = Bnd1 m ρ c (Proc.devRef .tc b) :=
  StableHlo.after_of_writes_sub hostOps1 _ hostOps1_writes h
/-- The host operation before region 2 writes only the rounded output weight. -/
theorem Bnd4_keep (b : Ref sig .tc) (h : b ∉ hostOps2_W) : Bnd4 m ρ c (Proc.devRef .tc b) = Bnd3 m ρ c (Proc.devRef .tc b) :=
  StableHlo.after_of_writes_sub hostOps2 _ hostOps2_writes h

/-- Region 1 is entered with the two normalised arrays region 0 left. -/
theorem ent2_v0_0 : Ent2 m ρ c main_v0_0 = Cert.Spec.lnArr (m ((c : Thread nD τ).loc main_arg0)) (m ((c : Thread nD τ).loc main_arg2)) (m ((c : Thread nD τ).loc main_arg3)) :=
  ((Bnd2_keep m ρ c main_v0_0 (by decide)).trans (Bnd1_arr m ρ c 6)).trans (final0_6 (Ent0 m ρ) c)
theorem ent2_v0_1 : Ent2 m ρ c main_v0_1 = Cert.Spec.lnArr (m ((c : Thread nD τ).loc main_arg1)) (m ((c : Thread nD τ).loc main_arg4)) (m ((c : Thread nD τ).loc main_arg5)) :=
  ((Bnd2_keep m ρ c main_v0_1 (by decide)).trans (Bnd1_arr m ρ c 7)).trans (final0_7 (Ent0 m ρ) c)
/-- and with the second weight and the two biases as launched. -/
theorem ent2_arg8 : Ent2 m ρ c main_arg8 = m ((c : Thread nD τ).loc main_arg8) :=
  (Bnd2_keep m ρ c main_arg8 (by decide)).trans (Bnd1_of_ne m ρ c main_arg8 (by decide))
theorem ent2_arg7 : Ent2 m ρ c main_arg7 = m ((c : Thread nD τ).loc main_arg7) :=
  (Bnd2_keep m ρ c main_arg7 (by decide)).trans (Bnd1_of_ne m ρ c main_arg7 (by decide))
theorem ent2_arg9 : Ent2 m ρ c main_arg9 = m ((c : Thread nD τ).loc main_arg9) :=
  (Bnd2_keep m ρ c main_arg9 (by decide)).trans (Bnd1_of_ne m ρ c main_arg9 (by decide))

/-- The upper half of the first weight, as region 1 finds it: rows 0 … 4095 of the argument. -/
theorem ent2_v2_apply (k j : Fin 4096) :
    Ent2 m ρ c main_v2 (ix2 k j) = m ((c : Thread nD τ).loc main_arg6) (ix2 (Fin.castAdd 4096 k) j) := by
  have e : (Bnd2 m ρ c (Proc.devRef .tc main_v2) : (⟨S4096x4096, .bf16⟩ : BufTy).Contents (Elt Ideal))
      = truncf (F := Ideal) .bf16 (extractStridedSlice S4096x4096 ![0, 0]
          (Bnd1 m ρ c (Proc.devRef .tc main_arg6) : (⟨S8192x4096, .f32⟩ : BufTy).Contents (Elt Ideal)) slices_S8192x4096_S4096x4096_0_0) bitsLt_bf16_f32 := by
    dsimp only [Bnd2, hostOps1]; after_results
  have e6 : Bnd1 m ρ c (Proc.devRef .tc main_arg6) = m ((c : Thread nD τ).loc main_arg6) := Bnd1_of_ne m ρ c main_arg6 (by decide)
  show Bnd2 m ρ c (Proc.devRef .tc main_v2) (ix2 k j) = _
  rw [e, e6]
  show extractStridedSlice S4096x4096 ![0, 0] (m ((c : Thread nD τ).loc main_arg6)) slices_S8192x4096_S4096x4096_0_0 (ix2 k j) = _
  exact extractStridedSlice_apply _ _ _ _ (ix2 (Fin.castAdd 4096 k) j) (fun a => by
    match a with
    | ⟨0, _⟩ => show k.val = 0 + k.val; omega
    | ⟨1, _⟩ => show j.val = 0 + j.val; omega)

/-- The lower half: rows 4096 … 8191. -/
theorem ent2_v4_apply (k j : Fin 4096) :
    Ent2 m ρ c main_v4 (ix2 k j) = m ((c : Thread nD τ).loc main_arg6) (ix2 (Fin.natAdd 4096 k) j) := by
  have e : (Bnd2 m ρ c (Proc.devRef .tc main_v4) : (⟨S4096x4096, .bf16⟩ : BufTy).Contents (Elt Ideal))
      = truncf (F := Ideal) .bf16 (extractStridedSlice S4096x4096 ![4096, 0]
          (Bnd1 m ρ c (Proc.devRef .tc main_arg6) : (⟨S8192x4096, .f32⟩ : BufTy).Contents (Elt Ideal)) slices_S8192x4096_S4096x4096_4096_0) bitsLt_bf16_f32 := by
    dsimp only [Bnd2, hostOps1]; after_results
  have e6 : Bnd1 m ρ c (Proc.devRef .tc main_arg6) = m ((c : Thread nD τ).loc main_arg6) := Bnd1_of_ne m ρ c main_arg6 (by decide)
  show Bnd2 m ρ c (Proc.devRef .tc main_v4) (ix2 k j) = _
  rw [e, e6]
  show extractStridedSlice S4096x4096 ![4096, 0] (m ((c : Thread nD τ).loc main_arg6)) slices_S8192x4096_S4096x4096_4096_0 (ix2 k j) = _
  exact extractStridedSlice_apply _ _ _ _ (ix2 (Fin.natAdd 4096 k) j) (fun a => by
    match a with
    | ⟨0, _⟩ => show 4096 + k.val = 4096 + k.val; rfl
    | ⟨1, _⟩ => show j.val = 0 + j.val; omega)

/-- Region 2 is entered with the mixed array region 1 left, -/
theorem ent4_v5 : Ent4 m ρ c main_v5
    = Cert.Spec.fuseArr (Ent2 m ρ c main_v0_0) (Ent2 m ρ c main_v0_1) (Ent2 m ρ c main_v2) (Ent2 m ρ c main_v4) (Ent2 m ρ c main_arg8) (Ent2 m ρ c main_arg7) (Ent2 m ρ c main_arg9) :=
  ((Bnd4_keep m ρ c main_v5 (by decide)).trans (Bnd3_arr m ρ c 7)).trans (final1_7 (Ent2 m ρ) c)
/-- the output weight as launched (its change of format is the identity), -/
theorem ent4_v6 : Ent4 m ρ c main_v6 = m ((c : Thread nD τ).loc main_arg10) := by
  have e : (Bnd4 m ρ c (Proc.devRef .tc main_v6) : (⟨S4096x4096, .bf16⟩ : BufTy).Contents (Elt Ideal))
      = truncf (F := Ideal) .bf16 (Bnd3 m ρ c (Proc.devRef .tc main_arg10) : (⟨S4096x4096, .f32⟩ : BufTy).Contents (Elt Ideal)) bitsLt_bf16_f32 := by
    dsimp only [Bnd4, hostOps2]; after_results
  have e10 : Bnd3 m ρ c (Proc.devRef .tc main_arg10) = m ((c : Thread nD τ).loc main_arg10) :=
    (Bnd3_of_ne m ρ c main_arg10 (by decide)).trans ((Bnd2_keep m ρ c main_arg10 (by decide)).trans (Bnd1_of_ne m ρ c main_arg10 (by decide)))
  show Bnd4 m ρ c (Proc.devRef .tc main_v6) = _
  rw [e, e10]
  rfl
/-- and the output bias as launched. -/
theorem ent4_arg11 : Ent4 m ρ c main_arg11 = m ((c : Thread nD τ).loc main_arg11) :=
  (Bnd4_keep m ρ c main_arg11 (by decide)).trans ((Bnd3_of_ne m ρ c main_arg11 (by decide)).trans
    ((Bnd2_keep m ρ c main_arg11 (by decide)).trans (Bnd1_of_ne m ρ c main_arg11 (by decide))))

/-- THE RESULT: the last affine map of the gate's mix of the two normalised inputs. -/
theorem result_eq : (dat2 (F := Ideal) (Ent4 m ρ) c).arrAt 3 cfg2.N
    = Cert.Spec.linArr
        (Cert.Spec.fuseArr
          (Cert.Spec.lnArr (m ((c : Thread nD τ).loc main_arg0)) (m ((c : Thread nD τ).loc main_arg2)) (m ((c : Thread nD τ).loc main_arg3)))
          (Cert.Spec.lnArr (m ((c : Thread nD τ).loc main_arg1)) (m ((c : Thread nD τ).loc main_arg4)) (m ((c : Thread nD τ).loc main_arg5)))
          (Ent2 m ρ c main_v2) (Ent2 m ρ c main_v4)
          (m ((c : Thread nD τ).loc main_arg8)) (m ((c : Thread nD τ).loc main_arg7)) (m ((c : Thread nD τ).loc main_arg9)))
        (m ((c : Thread nD τ).loc main_arg10)) (m ((c : Thread nD τ).loc main_arg11)) := by
  rw [final2_3 (Ent4 m ρ) c, ent4_v5, ent4_v6, ent4_arg11, ent2_v0_0, ent2_v0_1, ent2_arg8, ent2_arg7, ent2_arg9]

end Cert.KernelIdeal.Pipe

end
-- ==== Proof.RefLn.lean ====
import proofs.«114173_j69518340653173_2_alg».proof.Proof.Gen.ReferenceIdeal.Read
import proofs.«114173_j69518340653173_2_alg».proof.Proof.Spec

noncomputable section

/-! # The reference's two normalisations are the specification's

Each stage of the reference, read at an index through its operations, is the row function of the specification
applied to the rows of the arguments: the mean, the variance, then the normalised entry. -/

namespace Cert.RefValue

open Cert.ReferenceIdeal Cert.ReferenceIdeal.Read Idealize.ShloMosaic Idealize.ShloMosaic.ValueIdx Cert.Spec

/-- The reference's row mean of this input is the mean of that row. -/
theorem meanA_eq (x0 : (⟨S8192x4096, .f32⟩ : BufTy).Contents (Elt Ideal)) (r : Fin 8192) :
    val_main_v3 (F := Ideal) x0 (ix2 r 0) = mean (rowOf x0 r) := by
  rw [val_main_v3_apply, val_main_v1_apply, val_main_v0_apply, val_main_v2_apply, val_main_cst_0_apply, val_main_cst_apply]
  simp only [Ideal.hostDivf_def, Ideal.ofBits_def, Ideal.ofBits_zero_f32, zero_add, mean, rowOf]
  refine congrArg (Ideal.div · _) (Finset.sum_congr rfl fun k _ => congrArg x0 ?_)
  funext a; match a with | ⟨0, _⟩ => rfl | ⟨1, _⟩ => rfl

/-- Its row variance is the mean square deviation of that row. -/
theorem varA_eq (x0 : (⟨S8192x4096, .f32⟩ : BufTy).Contents (Elt Ideal)) (r : Fin 8192) :
    val_main_v10 (F := Ideal) x0 (ix2 r 0) = var (rowOf x0 r) := by
  rw [val_main_v10_apply, val_main_v8_apply, val_main_v7_apply, val_main_v9_apply, val_main_cst_2_apply, val_main_cst_1_apply]
  simp only [Ideal.hostDivf_def, Ideal.ofBits_def, Ideal.ofBits_zero_f32, zero_add, var]
  refine congrArg (Ideal.div · _) (Finset.sum_congr rfl fun k _ => ?_)
  have e' : idx_main_v7 (idx_main_v8 (ix2 r 0)) k = ix2 r k := by
    funext a; match a with | ⟨0, _⟩ => rfl | ⟨1, _⟩ => rfl
  have e : idx_main_v4 (ix2 r k) = ix2 r 0 := by
    funext a; match a with | ⟨0, _⟩ => rfl | ⟨1, _⟩ => rfl
  rw [e', val_main_v6_apply, val_main_v5_apply, val_main_v4_apply, e, meanA_eq]
  simp only [Ideal.mulf_def, Ideal.subf_def, rowOf]

/-- The reference's normalised array is the specification's, row by row. -/
theorem lnA_eq (x0 : (⟨S8192x4096, .f32⟩ : BufTy).Contents (Elt Ideal)) (x2 x3 : (⟨S4096, .f32⟩ : BufTy).Contents (Elt Ideal)) :
    val_main_v23 (F := Ideal) x0 x2 x3 = lnArr x0 x2 x3 := by
  funext i
  obtain ⟨r, j, rfl⟩ : ∃ (r : Fin 8192) (j : Fin 4096), i = ix2 r j := ⟨i 0, i 1, eq_ix2 i⟩
  have e11 : idx_main_v11 (ix2 r j) = ix2 r 0 := by
    funext a; match a with | ⟨0, _⟩ => rfl | ⟨1, _⟩ => rfl
  have e16 : idx_main_v16 (ix2 r j) = ix2 r 0 := by
    funext a; match a with | ⟨0, _⟩ => rfl | ⟨1, _⟩ => rfl
  have e19 : idx_main_v18 (idx_main_v19 (ix2 r j)) = ix1 j := by
    funext a; match a with | ⟨0, _⟩ => rfl
  have e22 : idx_main_v21 (idx_main_v22 (ix2 r j)) = ix1 j := by
    funext a; match a with | ⟨0, _⟩ => rfl
  rw [val_main_v23_apply, val_main_v20_apply, val_main_v17_apply, val_main_v12_apply, val_main_v11_apply, val_main_v16_apply, val_main_v15_apply, val_main_v14_apply,
    val_main_v13_apply, val_main_cst_3_apply, val_main_v19_apply, val_main_v18_apply, val_main_v22_apply, val_main_v21_apply, e11, e16, e19, e22,
    meanA_eq, varA_eq]
  simp only [Ideal.addf_def, Ideal.mulf_def, Ideal.subf_def, Ideal.hostUnary_rsqrt_def, Ideal.ofBits_def, lnArr, lnRow, rowOf, vecOf]

/-- The reference's row mean of this input is the mean of that row. -/
theorem meanB_eq (x0 : (⟨S8192x4096, .f32⟩ : BufTy).Contents (Elt Ideal)) (r : Fin 8192) :
    val_main_v27 (F := Ideal) x0 (ix2 r 0) = mean (rowOf x0 r) := by
  rw [val_main_v27_apply, val_main_v25_apply, val_main_v24_apply, val_main_v26_apply, val_main_cst_5_apply, val_main_cst_4_apply]
  simp only [Ideal.hostDivf_def, Ideal.ofBits_def, Ideal.ofBits_zero_f32, zero_add, mean, rowOf]
  refine congrArg (Ideal.div · _) (Finset.sum_congr rfl fun k _ => congrArg x0 ?_)
  funext a; match a with | ⟨0, _⟩ => rfl | ⟨1, _⟩ => rfl

/-- Its row variance is the mean square deviation of that row. -/
theorem varB_eq (x0 : (⟨S8192x4096, .f32⟩ : BufTy).Contents (Elt Ideal)) (r : Fin 8192) :
    val_main_v34 (F := Ideal) x0 (ix2 r 0) = var (rowOf x0 r) := by
  rw [val_main_v34_apply, val_main_v32_apply, val_main_v31_apply, val_main_v33_apply, val_main_cst_7_apply, val_main_cst_6_apply]
  simp only [Ideal.hostDivf_def, Ideal.ofBits_def, Ideal.ofBits_zero_f32, zero_add, var]
  refine congrArg (Ideal.div · _) (Finset.sum_congr rfl fun k _ => ?_)
  have e' : idx_main_v31 (idx_main_v32 (ix2 r 0)) k = ix2 r k := by
    funext a; match a with | ⟨0, _⟩ => rfl | ⟨1, _⟩ => rfl
  have e : idx_main_v28 (ix2 r k) = ix2 r 0 := by
    funext a; match a with | ⟨0, _⟩ => rfl | ⟨1, _⟩ => rfl
  rw [e', val_main_v30_apply, val_main_v29_apply, val_main_v28_apply, e, meanB_eq]
  simp only [Ideal.mulf_def, Ideal.subf_def, rowOf]

/-- The reference's normalised array is the specification's, row by row. -/
theorem lnB_eq (x0 : (⟨S8192x4096, .f32⟩ : BufTy).Contents (Elt Ideal)) (x2 x3 : (⟨S4096, .f32⟩ : BufTy).Contents (Elt Ideal)) :
    val_main_v47 (F := Ideal) x0 x2 x3 = lnArr x0 x2 x3 := by
  funext i
  obtain ⟨r, j, rfl⟩ : ∃ (r : Fin 8192) (j : Fin 4096), i = ix2 r j := ⟨i 0, i 1, eq_ix2 i⟩
  have e11 : idx_main_v35 (ix2 r j) = ix2 r 0 := by
    funext a; match a with | ⟨0, _⟩ => rfl | ⟨1, _⟩ => rfl
  have e16 : idx_main_v40 (ix2 r j) = ix2 r 0 := by
    funext a; match a with | ⟨0, _⟩ => rfl | ⟨1, _⟩ => rfl
  have e19 : idx_main_v42 (idx_main_v43 (ix2 r j)) = ix1 j := by
    funext a; match a with | ⟨0, _⟩ => rfl
  have e22 : idx_main_v45 (idx_main_v46 (ix2 r j)) = ix1 j := by
    funext a; match a with | ⟨0, _⟩ => rfl
  rw [val_main_v47_apply, val_main_v44_apply, val_main_v41_apply, val_main_v36_apply, val_main_v35_apply, val_main_v40_apply, val_main_v39_apply, val_main_v38_apply,
    val_main_v37_apply, val_main_cst_8_apply, val_main_v43_apply, val_main_v42_apply, val_main_v46_apply, val_main_v45_apply, e11, e16, e19, e22,
    meanB_eq, varB_eq]
  simp only [Ideal.addf_def, Ideal.mulf_def, Ideal.subf_def, Ideal.hostUnary_rsqrt_def, Ideal.ofBits_def, lnArr, lnRow, rowOf, vecOf]

end Cert.RefValue

end
-- ==== Proof.RefGate.lean ====
import proofs.«114173_j69518340653173_2_alg».proof.Proof.Gen.ReferenceIdeal.Read
import proofs.«114173_j69518340653173_2_alg».proof.Proof.Spec
import Idealize.ShloMosaic.Lib.Pipeline.Value

noncomputable section

/-! # The reference's gate is the specification's

The hidden layer contracts the concatenation of the two normalised rows against the whole first weight: the sum
over the 8192 joined positions splits into the sum over the first row against the weight's upper half and the sum
over the second row against its lower half. -/

namespace Cert.RefValue

open Cert.ReferenceIdeal Cert.ReferenceIdeal.Gen Cert.ReferenceIdeal.Read Idealize.ShloMosaic Idealize.ShloMosaic.ValueIdx Cert.Spec

/-- Row `k` of the upper half of the first weight, and of its lower half. -/
abbrev upper (x6 : (⟨S8192x4096, .f32⟩ : BufTy).Contents (Elt Ideal)) : Fin 4096 → Fin 4096 → EReal :=
  fun k j => x6 (ix2 (Fin.castAdd 4096 k) j)
abbrev lower (x6 : (⟨S8192x4096, .f32⟩ : BufTy).Contents (Elt Ideal)) : Fin 4096 → Fin 4096 → EReal :=
  fun k j => x6 (ix2 (Fin.natAdd 4096 k) j)

/-- The joined row at a position of its first half is the first row there. -/
theorem joined_left (y0 y1 : (⟨S8192x4096, .f32⟩ : BufTy).Contents (Elt Ideal)) (r : Fin 8192) (k : Fin 4096) :
    concatenate S8192x8192 1 [⟨S8192x4096, y0⟩, ⟨S8192x4096, y1⟩] concatenates_S8192x4096_S8192x4096_S8192x8192_d1
      (ix2 r (Fin.castAdd 4096 k)) = y0 (ix2 r k) :=
  concatenate_pair_apply_left 1 y0 y1 concatenates_S8192x4096_S8192x4096_S8192x8192_d1 _ rfl (ix2 r k)
    (fun b => by match b with | ⟨0, _⟩ => rfl | ⟨1, _⟩ => rfl)

/-- The joined row at a position of its second half is the second row there. -/
theorem joined_right (y0 y1 : (⟨S8192x4096, .f32⟩ : BufTy).Contents (Elt Ideal)) (r : Fin 8192) (k : Fin 4096) :
    concatenate S8192x8192 1 [⟨S8192x4096, y0⟩, ⟨S8192x4096, y1⟩] concatenates_S8192x4096_S8192x4096_S8192x8192_d1
      (ix2 r (Fin.natAdd 4096 k)) = y1 (ix2 r k) :=
  concatenate_pair_apply_right 1 y0 y1 concatenates_S8192x4096_S8192x4096_S8192x8192_d1 _ rfl rfl (ix2 r k)
    (fun b hb => by match b with | ⟨0, _⟩ => rfl | ⟨1, _⟩ => exact absurd rfl hb)
    (by show k.val + 4096 = 4096 + k.val; omega)

/-- The reference's hidden layer at row `r`, column `j`. -/
theorem hid_eq (x0 x1 : (⟨S8192x4096, .f32⟩ : BufTy).Contents (Elt Ideal)) (x2 x3 x4 x5 : (⟨S4096, .f32⟩ : BufTy).Contents (Elt Ideal)) (x6 : (⟨S8192x4096, .f32⟩ : BufTy).Contents (Elt Ideal)) (x7 : (⟨S4096, .f32⟩ : BufTy).Contents (Elt Ideal)) (r : Fin 8192) (j : Fin 4096) :
    val_main_v53 (F := Ideal) x0 x1 x2 x3 x4 x5 x6 x7 (ix2 r j)
      = hid (rowOf (val_main_v23 (F := Ideal) x0 x2 x3) r) (rowOf (val_main_v47 (F := Ideal) x1 x4 x5) r) (upper x6) (lower x6) (vecOf x7) j := by
  have e50 : idx_main_v50 (idx_main_v51 (ix2 r j)) = ix1 j := by
    funext a; match a with | ⟨0, _⟩ => rfl
  rw [val_main_v53_apply, val_main_v52_apply, val_main_v49_apply, val_main_v51_apply, val_main_v50_apply, e50,
    val_main_call0_v0_apply, val_main_call0_cst_apply]
  unfold val_main_v48
  generalize val_main_v23 (F := Ideal) x0 x2 x3 = y0
  generalize val_main_v47 (F := Ideal) x1 x4 x5 = y1
  simp only [Ideal.maximumf_def, Ideal.addf_def, Ideal.ofBits_def, Ideal.ofBits_zero_f32, hid, vecOf]
  refine congrArg (max · 0) (congrArg (· + x7 (ix1 j)) ?_)
  refine (Fin.sum_univ_add (a := 4096) (b := 4096) _).trans ?_
  refine congrArg₂ (· + ·) (Finset.sum_congr rfl fun k _ => ?_) (Finset.sum_congr rfl fun k _ => ?_)
  · have el : lidx_main_v49 (ix2 r j) (Fin.castAdd 4096 k) = ix2 r (Fin.castAdd 4096 k) := by
      funext a; match a with | ⟨0, _⟩ => rfl | ⟨1, _⟩ => rfl
    have er : ridx_main_v49 (ix2 r j) (Fin.castAdd 4096 k) = ix2 (Fin.castAdd 4096 k) j := by
      funext a; match a with | ⟨0, _⟩ => rfl | ⟨1, _⟩ => rfl
    rw [el, er, joined_left]
  · have el : lidx_main_v49 (ix2 r j) (Fin.natAdd 4096 k) = ix2 r (Fin.natAdd 4096 k) := by
      funext a; match a with | ⟨0, _⟩ => rfl | ⟨1, _⟩ => rfl
    have er : ridx_main_v49 (ix2 r j) (Fin.natAdd 4096 k) = ix2 (Fin.natAdd 4096 k) j := by
      funext a; match a with | ⟨0, _⟩ => rfl | ⟨1, _⟩ => rfl
    rw [el, er, joined_right]

end Cert.RefValue

end
-- ==== Proof.RefMix.lean ====
import proofs.«114173_j69518340653173_2_alg».proof.Proof.RefLn
import proofs.«114173_j69518340653173_2_alg».proof.Proof.RefGate

noncomputable section

/-! # The reference's logits, softmax, mix and last affine map are the specification's -/

namespace Cert.RefValue

open Cert.ReferenceIdeal Cert.ReferenceIdeal.Gen Cert.ReferenceIdeal.Read Idealize.ShloMosaic Idealize.ShloMosaic.ValueIdx Cert.Spec

/-- A fold of `max` over two positions. -/
theorem fold_max_two (b : EReal) (g : Fin 2 → EReal) :
    (Finset.univ : Finset (Fin 2)).fold max b g = max (g 0) (max (g 1) b) := by
  rw [show (Finset.univ : Finset (Fin 2)) = {0, 1} from by decide, Finset.fold_insert (by decide), Finset.fold_singleton]

/-- The word of −∞ is the bottom of the extended reals. -/
theorem negInf_eq : Ideal.ofBits .f32 0xFF800000#32 = (⊥ : EReal) := by simp [Ideal.ofBits, Ideal.ieee]

/-- From −∞ the host's reduce with a maximum body over the two columns, at row `r`, is the larger of the two entries. -/
theorem hostReduce_max_twoCols {n : Nat} (x : FVec Ideal ⟨2, ![n, 2]⟩ .f32)
    (h' : (⟨2, ![n, 2]⟩ : Shape).ReducesTo [1] (⟨1, ![n]⟩ : Shape)) (h : (⟨2, ![n, 2]⟩ : Shape).Reduces [1] (⟨1, ![n]⟩ : Shape))
    (hu : 0 < (⟨0, ![]⟩ : Shape).numel) (r : Fin n) :
    Host.reduce FloatOps.maximumf x (constant (⟨0, ![]⟩ : Shape) .f32 0xFF800000#32) h' hu (ix1 r)
      = max (x (ix2 r 0)) (x (ix2 r 1)) := by
  rw [Host.reduce_eq_fold_single FloatOps.maximumf x _ h' h hu]
  have hl : ∀ k : Fin 2, h.lift (ix1 r) k = ix2 r k := fun k => by
    funext a; apply Fin.ext; match a with | ⟨0, _⟩ => rfl | ⟨1, _⟩ => rfl
  have hf : (x ∘ h.lift (ix1 r)) = fun k : Fin 2 => x (ix2 r k) := funext fun k => congrArg x (hl k)
  refine (congrArg (fun f => Finset.fold max (Ideal.ofBits .f32 0xFF800000#32) f (Finset.univ : Finset (Fin 2))) hf).trans ?_
  rw [fold_max_two, negInf_eq]
  simp only [bot_le, max_eq_left]

section
variable (x0 x1 : (⟨S8192x4096, .f32⟩ : BufTy).Contents (Elt Ideal)) (x2 x3 x4 x5 : (⟨S4096, .f32⟩ : BufTy).Contents (Elt Ideal)) (x6 : (⟨S8192x4096, .f32⟩ : BufTy).Contents (Elt Ideal)) (x7 : (⟨S4096, .f32⟩ : BufTy).Contents (Elt Ideal)) (x8 : (⟨S4096x2, .f32⟩ : BufTy).Contents (Elt Ideal)) (x9 : (⟨S2, .f32⟩ : BufTy).Contents (Elt Ideal))

/-- The reference's logits at row `r`. -/
theorem logit_eq (r : Fin 8192) (c : Fin 2) :
    val_main_v57 (F := Ideal) x0 x1 x2 x3 x4 x5 x6 x7 x8 x9 (ix2 r c)
      = logit (fun j => val_main_v53 (F := Ideal) x0 x1 x2 x3 x4 x5 x6 x7 (ix2 r j)) (w2Of x8) (b2Of x9) c := by
  have el : ∀ k, lidx_main_v54 (ix2 r c) k = ix2 r k := fun k => by
    funext a; match a with | ⟨0, _⟩ => rfl | ⟨1, _⟩ => rfl
  have er : ∀ k, ridx_main_v54 (ix2 r c) k = ix2 k c := fun k => by
    funext a; match a with | ⟨0, _⟩ => rfl | ⟨1, _⟩ => rfl
  have e55 : idx_main_v55 (idx_main_v56 (ix2 r c)) = ix1 c := by
    funext a; match a with | ⟨0, _⟩ => rfl
  rw [val_main_v57_apply, val_main_v54_apply, val_main_v56_apply, val_main_v55_apply, e55]
  simp only [el, er, Ideal.addf_def, logit, w2Of, b2Of]

/-- The reference's row maximum of the logits is the larger of the two. -/
theorem rowmax_eq (r : Fin 8192) :
    val_main_v60 (F := Ideal) x0 x1 x2 x3 x4 x5 x6 x7 x8 x9 (ix1 r)
      = max (val_main_v57 (F := Ideal) x0 x1 x2 x3 x4 x5 x6 x7 x8 x9 (ix2 r 0)) (val_main_v57 (F := Ideal) x0 x1 x2 x3 x4 x5 x6 x7 x8 x9 (ix2 r 1)) := by
  rw [val_main_v60_apply, val_main_v59_apply, val_main_cst_10_apply]
  unfold val_main_v58
  generalize val_main_v57 (F := Ideal) x0 x1 x2 x3 x4 x5 x6 x7 x8 x9 = y
  refine (congrArg (FloatOps.maximumf (F := Ideal) (FloatOps.ofBits .f32 0xFF800000#32))
    (hostReduce_max_twoCols y reducesTo_S8192x2_S8192_d1 (by decide) h_S_ r)).trans ?_
  simp only [Ideal.ofBits_def, Ideal.maximumf_def, negInf_eq, bot_le, max_eq_right]

/-- The reference's softmax weights at row `r`. -/
theorem weight_eq (r : Fin 8192) (c : Fin 2) :
    val_main_v68 (F := Ideal) x0 x1 x2 x3 x4 x5 x6 x7 x8 x9 (ix2 r c) = smax (fun c => val_main_v57 (F := Ideal) x0 x1 x2 x3 x4 x5 x6 x7 x8 x9 (ix2 r c)) c := by
  have e62 : ∀ c : Fin 2, idx_main_v61 (idx_main_v62 (ix2 r c)) = ix1 r := fun c => by
    funext a; match a with | ⟨0, _⟩ => rfl
  have e67 : idx_main_v66 (idx_main_v67 (ix2 r c)) = ix1 r := by
    funext a; match a with | ⟨0, _⟩ => rfl
  have e65 : ∀ k : Fin 2, idx_main_v65 (ix1 r) k = ix2 r k := fun k => by
    funext a; match a with | ⟨0, _⟩ => rfl | ⟨1, _⟩ => rfl
  have hexp : ∀ c : Fin 2, val_main_v64 (F := Ideal) x0 x1 x2 x3 x4 x5 x6 x7 x8 x9 (ix2 r c)
      = Ideal.exp (val_main_v57 (F := Ideal) x0 x1 x2 x3 x4 x5 x6 x7 x8 x9 (ix2 r c) - max (val_main_v57 (F := Ideal) x0 x1 x2 x3 x4 x5 x6 x7 x8 x9 (ix2 r 0)) (val_main_v57 (F := Ideal) x0 x1 x2 x3 x4 x5 x6 x7 x8 x9 (ix2 r 1))) := fun c => by
    rw [val_main_v64_apply, val_main_v63_apply, val_main_v62_apply, val_main_v61_apply, e62, rowmax_eq]
    simp only [Ideal.hostUnary_exp_def, Ideal.subf_def]
  rw [val_main_v68_apply, val_main_v67_apply, val_main_v66_apply, e67, val_main_v65_apply, val_main_cst_11_apply]
  simp only [e65, hexp, Fin.sum_univ_two, Ideal.hostDivf_def, Ideal.ofBits_def, Ideal.ofBits_zero_f32, zero_add, smax]

/-- The reference's mixed array at row `r`, column `j`, over its own two normalised arrays. -/
theorem mixed_eq (r : Fin 8192) (j : Fin 4096) :
    val_main_v75 (F := Ideal) x0 x1 x2 x3 x4 x5 x6 x7 x8 x9 (ix2 r j)
      = smax (fun c => val_main_v57 (F := Ideal) x0 x1 x2 x3 x4 x5 x6 x7 x8 x9 (ix2 r c)) 0 * val_main_v23 (F := Ideal) x0 x2 x3 (ix2 r j)
        + smax (fun c => val_main_v57 (F := Ideal) x0 x1 x2 x3 x4 x5 x6 x7 x8 x9 (ix2 r c)) 1 * val_main_v47 (F := Ideal) x1 x4 x5 (ix2 r j) := by
  have e69 : idx_main_v69 (idx_main_v70 (ix2 r j)) = ix2 r 0 := by
    funext a; match a with | ⟨0, _⟩ => rfl | ⟨1, _⟩ => rfl
  have e72 : idx_main_v72 (idx_main_v73 (ix2 r j)) = ix2 r 1 := by
    funext a; match a with | ⟨0, _⟩ => rfl | ⟨1, _⟩ => rfl
  rw [val_main_v75_apply, val_main_v71_apply, val_main_v74_apply, val_main_v70_apply, val_main_v69_apply, e69,
    val_main_v73_apply, val_main_v72_apply, e72, weight_eq, weight_eq]
  simp only [Ideal.addf_def, Ideal.mulf_def]

end

/-- THE REFERENCE IS THE SPECIFICATION: its result array is the last affine map of the mix of the two normalised
    inputs, the first weight read as its upper and lower halves. -/
theorem ref_eq (x0 x1 : (⟨S8192x4096, .f32⟩ : BufTy).Contents (Elt Ideal)) (x2 x3 x4 x5 : (⟨S4096, .f32⟩ : BufTy).Contents (Elt Ideal)) (x6 : (⟨S8192x4096, .f32⟩ : BufTy).Contents (Elt Ideal)) (x7 : (⟨S4096, .f32⟩ : BufTy).Contents (Elt Ideal)) (x8 : (⟨S4096x2, .f32⟩ : BufTy).Contents (Elt Ideal)) (x9 : (⟨S2, .f32⟩ : BufTy).Contents (Elt Ideal)) (x10 : (⟨S4096x4096, .f32⟩ : BufTy).Contents (Elt Ideal)) (x11 : (⟨S4096, .f32⟩ : BufTy).Contents (Elt Ideal))
    (wa wb : SSq.Idx → EReal) (hwa : ∀ k j, wa (ix2 k j) = upper x6 k j) (hwb : ∀ k j, wb (ix2 k j) = lower x6 k j) :
    val_main_v79 (F := Ideal) x0 x1 x2 x3 x4 x5 x6 x7 x8 x9 x10 x11
      = linArr (fuseArr (lnArr x0 x2 x3) (lnArr x1 x4 x5) wa wb x8 x7 x9) x10 x11 := by
  funext i
  obtain ⟨r, j, rfl⟩ : ∃ (r : Fin 8192) (j : Fin 4096), i = ix2 r j := ⟨i 0, i 1, eq_ix2 i⟩
  have el : ∀ k, lidx_main_v76 (ix2 r j) k = ix2 r k := fun k => by
    funext a; match a with | ⟨0, _⟩ => rfl | ⟨1, _⟩ => rfl
  have er : ∀ k, ridx_main_v76 (ix2 r j) k = ix2 k j := fun k => by
    funext a; match a with | ⟨0, _⟩ => rfl | ⟨1, _⟩ => rfl
  have e77 : idx_main_v77 (idx_main_v78 (ix2 r j)) = ix1 j := by
    funext a; match a with | ⟨0, _⟩ => rfl
  have hrow : ∀ k : Fin 4096, val_main_v75 (F := Ideal) x0 x1 x2 x3 x4 x5 x6 x7 x8 x9 (ix2 r k)
      = fuseRow (rowOf (lnArr x0 x2 x3) r) (rowOf (lnArr x1 x4 x5) r) (sqOf wa) (sqOf wb) (vecOf x7) (w2Of x8) (b2Of x9) k := fun k => by
    rw [mixed_eq]
    have hl : (fun c => val_main_v57 (F := Ideal) x0 x1 x2 x3 x4 x5 x6 x7 x8 x9 (ix2 r c))
        = logit (hid (rowOf (lnArr x0 x2 x3) r) (rowOf (lnArr x1 x4 x5) r) (sqOf wa) (sqOf wb) (vecOf x7)) (w2Of x8) (b2Of x9) := by
      funext c
      rw [logit_eq]
      refine congrArg (fun h => logit h (w2Of x8) (b2Of x9) c) (funext fun j' => ?_)
      rw [hid_eq, lnA_eq, lnB_eq]
      refine congrArg₂ (fun a b => hid (rowOf (lnArr x0 x2 x3) r) (rowOf (lnArr x1 x4 x5) r) a b (vecOf x7) j') ?_ ?_
      · funext k j''; exact (hwa k j'').symm
      · funext k j''; exact (hwb k j'').symm
    rw [hl, lnA_eq, lnB_eq]
    rfl
  rw [val_main_v79_apply, val_main_v76_apply, val_main_v78_apply, val_main_v77_apply, e77]
  simp only [el, er, hrow, Ideal.addf_def, linArr, linRow, rowOf, sqOf, vecOf, fuseArr]

end Cert.RefValue

end
-- ==== Proof.lean ====
/- The certificate's five claims.

   The two kernel programs (the word-level one and its reading on the extended reals) run as three kernel regions with
   two stretches of host operations between them: each region's proof data and body are in the region modules, the
   whole run in the run module, which gives the frames. The reference is a line of host operations, run by its
   generated run. On the extended reals the kernel's result array is the last affine map of the gate's mix of the
   two normalised inputs, and so is the reference's: the two values are one function of the arguments. -/
import proofs.«114173_j69518340653173_2_alg».proof.Defs
import proofs.«114173_j69518340653173_2_alg».proof.Proof.Gen.Kernel
import proofs.«114173_j69518340653173_2_alg».proof.Proof.Gen.KernelIdeal
import proofs.«114173_j69518340653173_2_alg».proof.Proof.Gen.ReferenceIdeal
import proofs.«114173_j69518340653173_2_alg».proof.Proof.Gen.Pre_finite_inputs
import proofs.«114173_j69518340653173_2_alg».proof.Proof.Gen.ReferenceIdeal.Run
import proofs.«114173_j69518340653173_2_alg».proof.Proof.Gen.ReferenceIdeal.Read
import proofs.«114173_j69518340653173_2_alg».proof.Proof.Bits.Run
import proofs.«114173_j69518340653173_2_alg».proof.Proof.Run
import proofs.«114173_j69518340653173_2_alg».proof.Proof.KernelValue
import proofs.«114173_j69518340653173_2_alg».proof.Proof.RefMix
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_kernel : Cert.frame_Kernel := fun m ρ _ => Cert.Kernel.Pipe.frame m ρ
/-- So does its reading on the extended reals. -/
theorem frame_kernelIdeal : Cert.frame_KernelIdeal := fun m ρ _ => Cert.KernelIdeal.Pipe.frame m ρ
/-- The reference runs to the end and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- On the extended reals, from memories agreeing on the arguments, both programs end with the same result array:
    the last affine map of the mix of the two normalised inputs. -/
theorem algebraic : Cert.algebraic_KernelIdeal_ReferenceIdeal := by
  intro m ρ m' ρ' _ hagree
  refine ⟨fun c => (Cert.KernelIdeal.Pipe.dat2 (F := Ideal) (Cert.KernelIdeal.Pipe.Ent4 m ρ) c).arrAt 3 Cert.KernelIdeal.cfg2.N,
    Cert.KernelIdeal.Pipe.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2]
  refine (Cert.RefValue.ref_eq _ _ _ _ _ _ _ _ _ _ _ _ (Cert.KernelIdeal.Pipe.Ent2 m ρ c Cert.KernelIdeal.main_v2)
    (Cert.KernelIdeal.Pipe.Ent2 m ρ c Cert.KernelIdeal.main_v4)
    (fun k j => Cert.KernelIdeal.Pipe.ent2_v2_apply m ρ c k j) (fun k j => Cert.KernelIdeal.Pipe.ent2_v4_apply m ρ c k j)).trans ?_
  exact (Cert.KernelIdeal.Pipe.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
